-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x1024x1024 : Shape := ⟨4, ![8, 1, 1024, 1024]⟩
abbrev S_ : Shape := ⟨0, ![]⟩

class Facts : Prop where
  bcast_S_S8x1x1024x1024 : S_.BroadcastsInDim S8x1x1024x1024 (![] : Fin 0 → Fin S8x1x1024x1024.rank)
  reducesTo_S8x1x1024x1024_S_d0_1_2_3 : S8x1x1024x1024.ReducesTo [0, 1, 2, 3] S_
  h_S_ : 0 < S_.numel

variable [Facts]

def fn {F : FTy → Type} [FloatOps F] (main_arg0 : FVec F S8x1x1024x1024 .f32) : IVec S_ 1 :=
  let main_v0 : FVec F S8x1x1024x1024 .f32 := Host.absf main_arg0
  let main_cst : FVec F S_ .f32 := constant S_ .f32 0x7F800000#32
  let main_v1 : FVec F S8x1x1024x1024 .f32 := broadcastInDim S8x1x1024x1024 ![] bcast_S_S8x1x1024x1024 main_cst
  let main_v2 : IVec S8x1x1024x1024 1 := cmpf .olt main_v0 main_v1
  let main_c : IVec S_ 1 := constantI S_ 1 1#1
  let main_v3 : IVec S_ 1 := (fun x v => Host.reduce IntOp.andi x v reducesTo_S8x1x1024x1024_S_d0_1_2_3 h_S_) main_v2 main_c
  main_v3
-- ==== Kernel.lean ====
abbrev S8x1x1024x1024 : Shape := ⟨4, ![8, 1, 1024, 1024]⟩
abbrev S8x8x1x1024x1024 : Shape := ⟨5, ![8, 8, 1, 1024, 1024]⟩
abbrev S1x1x512x1024 : Shape := ⟨4, ![1, 1, 512, 1024]⟩
abbrev S1x1x32x1024 : Shape := ⟨4, ![1, 1, 32, 1024]⟩
abbrev S8x1x1x512x1024 : Shape := ⟨5, ![8, 1, 1, 512, 1024]⟩
abbrev S512x1024 : Shape := ⟨2, ![512, 1024]⟩
abbrev S32x1024 : Shape := ⟨2, ![32, 1024]⟩
abbrev S544x1024 : Shape := ⟨2, ![544, 1024]⟩
abbrev S512x32 : Shape := ⟨2, ![512, 32]⟩
abbrev S512x1056 : Shape := ⟨2, ![512, 1056]⟩
abbrev S1x1x1x512x1024 : Shape := ⟨5, ![1, 1, 1, 512, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8x1x1024x1024, .f32⟩
  | .hbm, ⟨1, _⟩ => ⟨S8x8x1x1024x1024, .f32⟩
  | .local _ .vmem, ⟨0, _⟩ => ⟨S1x1x512x1024, .f32⟩
  | .local _ .vmem, ⟨1, _⟩ => ⟨S1x1x512x1024, .f32⟩
  | .local _ .vmem, ⟨2, _⟩ => ⟨S1x1x32x1024, .f32⟩
  | .local _ .vmem, ⟨3, _⟩ => ⟨S1x1x32x1024, .f32⟩
  | .local _ .vmem, ⟨4, _⟩ => ⟨S8x1x1x512x1024, .f32⟩
  | .local _ .vmem, ⟨5, _⟩ => ⟨S8x1x1x512x1024, .f32⟩
  | _, _ => ⟨S8x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  inb_S1x1x32x1024_S1x1x32x1024_0_0_0_0 : ∀ a, (![0, 0, 0, 0] : Fin 4 → Nat) a + S1x1x32x1024.size a ≤ S1x1x32x1024.size a
  h_S1x1x32x1024 : 0 < S1x1x32x1024.numel
  shapeCasts_S1x1x32x1024_S32x1024 : S1x1x32x1024.ShapeCasts S32x1024
  concatenates_S32x1024_S512x1024_S544x1024_d0 : Shape.Concatenates [S32x1024, S512x1024] S544x1024 0
  concatenates_S512x32_S512x1024_S512x1056_d1 : Shape.Concatenates [S512x32, S512x1024] S512x1056 1
  slices_S544x1024_o31_0_S512x1024 : S544x1024.Slices ![31, 0] S512x1024
  natLt_1_32 : 1 < 32
  inb_S8x1x1x512x1024_S1x1x1x512x1024_0_0_0_0_0 : ∀ a, (![0, 0, 0, 0, 0] : Fin 5 → Nat) a + S1x1x1x512x1024.size a ≤ S8x1x1x512x1024.size a
  h_S1x1x1x512x1024 : 0 < S1x1x1x512x1024.numel
  shapeCasts_S1x1x1x512x1024_S512x1024 : S1x1x1x512x1024.ShapeCasts S512x1024
  shapeCasts_S512x1024_S1x1x1x512x1024 : S512x1024.ShapeCasts S1x1x1x512x1024
  slices_S512x1056_o0_31_S512x1024 : S512x1056.Slices ![0, 31] S512x1024
  inb_S8x1x1x512x1024_S1x1x1x512x1024_1_0_0_0_0 : ∀ a, (![1, 0, 0, 0, 0] : Fin 5 → Nat) a + S1x1x1x512x1024.size a ≤ S8x1x1x512x1024.size a
  slices_S544x1024_o29_0_S512x1024 : S544x1024.Slices ![29, 0] S512x1024
  inb_S8x1x1x512x1024_S1x1x1x512x1024_2_0_0_0_0 : ∀ a, (![2, 0, 0, 0, 0] : Fin 5 → Nat) a + S1x1x1x512x1024.size a ≤ S8x1x1x512x1024.size a
  slices_S512x1056_o0_29_S512x1024 : S512x1056.Slices ![0, 29] S512x1024
  inb_S8x1x1x512x1024_S1x1x1x512x1024_3_0_0_0_0 : ∀ a, (![3, 0, 0, 0, 0] : Fin 5 → Nat) a + S1x1x1x512x1024.size a ≤ S8x1x1x512x1024.size a
  slices_S544x1024_o23_0_S512x1024 : S544x1024.Slices ![23, 0] S512x1024
  inb_S8x1x1x512x1024_S1x1x1x512x1024_4_0_0_0_0 : ∀ a, (![4, 0, 0, 0, 0] : Fin 5 → Nat) a + S1x1x1x512x1024.size a ≤ S8x1x1x512x1024.size a
  slices_S512x1056_o0_23_S512x1024 : S512x1056.Slices ![0, 23] S512x1024
  inb_S8x1x1x512x1024_S1x1x1x512x1024_5_0_0_0_0 : ∀ a, (![5, 0, 0, 0, 0] : Fin 5 → Nat) a + S1x1x1x512x1024.size a ≤ S8x1x1x512x1024.size a
  slices_S544x1024_o5_0_S512x1024 : S544x1024.Slices ![5, 0] S512x1024
  inb_S8x1x1x512x1024_S1x1x1x512x1024_6_0_0_0_0 : ∀ a, (![6, 0, 0, 0, 0] : Fin 5 → Nat) a + S1x1x1x512x1024.size a ≤ S8x1x1x512x1024.size a
  slices_S512x1056_o0_5_S512x1024 : S512x1056.Slices ![0, 5] S512x1024
  inb_S8x1x1x512x1024_S1x1x1x512x1024_7_0_0_0_0 : ∀ a, (![7, 0, 0, 0, 0] : Fin 5 → Nat) a + S1x1x1x512x1024.size a ≤ S8x1x1x512x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x1024.size a ≤ S8x1x1024x1024.size a
  hwx0_0 : ∀ i : grid0.Coords, EltTy.bits .f32 = 32 ∨ (Rect.block (s := S8x1x1024x1024) S1x1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32x1024.size a ≤ S8x1x1024x1024.size a
  hwx0_1 : ∀ i : grid0.Coords, EltTy.bits .f32 = 32 ∨ (Rect.block (s := S8x1x1024x1024) S1x1x32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x1x512x1024.size a ≤ S8x8x1x1024x1024.size a
  hwx0_2 : ∀ i : grid0.Coords, EltTy.bits .f32 = 32 ∨ (Rect.block (s := S8x8x1x1024x1024) S8x1x1x512x1024.size (cc0_transform_2 i) (hinb0_2 i)).WholeWords (EltTy.packing .f32)

variable [Facts₀]

abbrev win0_0 : Pipeline.Window sig grid0 :=
  Pipeline.Window.ofSpec (Memref.whole main_arg0) S1x1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1x1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1x1024x1024 : Shape := ⟨4, ![8, 1, 1024, 1024]⟩
abbrev S_ : Shape := ⟨0, ![]⟩
abbrev S8x1x1026x1024 : Shape := ⟨4, ![8, 1, 1026, 1024]⟩
abbrev S8x1x1024x1026 : Shape := ⟨4, ![8, 1, 1024, 1026]⟩
abbrev S8x1x1030x1024 : Shape := ⟨4, ![8, 1, 1030, 1024]⟩
abbrev S8x1x1024x1030 : Shape := ⟨4, ![8, 1, 1024, 1030]⟩
abbrev S8x1x1042x1024 : Shape := ⟨4, ![8, 1, 1042, 1024]⟩
abbrev S8x1x1024x1042 : Shape := ⟨4, ![8, 1, 1024, 1042]⟩
abbrev S8x1x1078x1024 : Shape := ⟨4, ![8, 1, 1078, 1024]⟩
abbrev S8x1x1024x1078 : Shape := ⟨4, ![8, 1, 1024, 1078]⟩
abbrev S1x8x1x1024x1024 : Shape := ⟨5, ![1, 8, 1, 1024, 1024]⟩
abbrev S8x8x1x1024x1024 : Shape := ⟨5, ![8, 8, 1, 1024, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8x1x1024x1024, .f32⟩
  | .hbm, ⟨1, _⟩ => ⟨S_, .i32⟩
  | .hbm, ⟨2, _⟩ => ⟨S_, .f32⟩
  | .hbm, ⟨3, _⟩ => ⟨S8x1x1026x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8x1x1024x1024, .f32⟩
  | .hbm, ⟨9, _⟩ => ⟨S8x1x1024x1024, .f32⟩
  | .hbm, ⟨10, _⟩ => ⟨S_, .f32⟩
  | .hbm, ⟨11, _⟩ => ⟨S8x1x1024x1024, .f32⟩
  | .hbm, ⟨12, _⟩ => ⟨S8x1x1024x1024, .i1⟩
  | .hbm, ⟨13, _⟩ => ⟨S8x1x1024x1024, .f32⟩
  | .hbm, ⟨14, _⟩ => ⟨S_, .i32⟩
  | .hbm, ⟨15, _⟩ => ⟨S_, .f32⟩
  | .hbm, ⟨16, _⟩ => ⟨S8x1x1024x1026, .f32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S8x1x1024x1024, .f32⟩
  | .hbm, ⟨22, _⟩ => ⟨S8x1x1024x1024, .f32⟩
  | .hbm, ⟨23, _⟩ => ⟨S_, .f32⟩
  | .hbm, ⟨24, _⟩ => ⟨S8x1x1024x1024, .f32⟩
  | .hbm, ⟨25, _⟩ => ⟨S8x1x1024x1024, .i1⟩
  | .hbm, ⟨26, _⟩ => ⟨S8x1x1024x1024, .f32⟩
  | .hbm, ⟨27, _⟩ => ⟨S_, .i32⟩
  | .hbm, ⟨28, _⟩ => ⟨S_, .f32⟩
  | .hbm, ⟨29, _⟩ => ⟨S8x1x1030x1024, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S8x1x1024x1024, .f32⟩
  | .hbm, ⟨35, _⟩ => ⟨S8x1x1024x1024, .f32⟩
  | .hbm, ⟨36, _⟩ => ⟨S_, .f32⟩
  | .hbm, ⟨37, _⟩ => ⟨S8x1x1024x1024, .f32⟩
  | .hbm, ⟨38, _⟩ => ⟨S8x1x1024x1024, .i1⟩
  | .hbm, ⟨39, _⟩ => ⟨S8x1x1024x1024, .f32⟩
  | .hbm, ⟨40, _⟩ => ⟨S_, .i32⟩
  | .hbm, ⟨41, _⟩ => ⟨S_, .f32⟩
  | .hbm, ⟨42, _⟩ => ⟨S8x1x1024x1030, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S8x1x1024x1024, .f32⟩
  | .hbm, ⟨48, _⟩ => ⟨S8x1x1024x1024, .f32⟩
  | .hbm, ⟨49, _⟩ => ⟨S_, .f32⟩
  | .hbm, ⟨50, _⟩ => ⟨S8x1x1024x1024, .f32⟩
  | .hbm, ⟨51, _⟩ => ⟨S8x1x1024x1024, .i1⟩
  | .hbm, ⟨52, _⟩ => ⟨S8x1x1024x1024, .f32⟩
  | .hbm, ⟨53, _⟩ => ⟨S_, .i32⟩
  | .hbm, ⟨54, _⟩ => ⟨S_, .f32⟩
  | .hbm, ⟨55, _⟩ => ⟨S8x1x1042x1024, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S8x1x1024x1024, .f32⟩
  | .hbm, ⟨61, _⟩ => ⟨S8x1x1024x1024, .f32⟩
  | .hbm, ⟨62, _⟩ => ⟨S_, .f32⟩
  | .hbm, ⟨63, _⟩ => ⟨S8x1x1024x1024, .f32⟩
  | .hbm, ⟨64, _⟩ => ⟨S8x1x1024x1024, .i1⟩
  | .hbm, ⟨65, _⟩ => ⟨S8x1x1024x1024, .f32⟩
  | .hbm, ⟨66, _⟩ => ⟨S_, .i32⟩
  | .hbm, ⟨67, _⟩ => ⟨S_, .f32⟩
  | .hbm, ⟨68, _⟩ => ⟨S8x1x1024x1042, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S8x1x1024x1024, .f32⟩
  | .hbm, ⟨74, _⟩ => ⟨S8x1x1024x1024, .f32⟩
  | .hbm, ⟨75, _⟩ => ⟨S_, .f32⟩
  | .hbm, ⟨76, _⟩ => ⟨S8x1x1024x1024, .f32⟩
  | .hbm, ⟨77, _⟩ => ⟨S8x1x1024x1024, .i1⟩
  | .hbm, ⟨78, _⟩ => ⟨S8x1x1024x1024, .f32⟩
  | .hbm, ⟨79, _⟩ => ⟨S_, .i32⟩
  | .hbm, ⟨80, _⟩ => ⟨S_, .f32⟩
  | .hbm, ⟨81, _⟩ => ⟨S8x1x1078x1024, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S8x1x1024x1024, .f32⟩
  | .hbm, ⟨87, _⟩ => ⟨S8x1x1024x1024, .f32⟩
  | .hbm, ⟨88, _⟩ => ⟨S_, .f32⟩
  | .hbm, ⟨89, _⟩ => ⟨S8x1x1024x1024, .f32⟩
  | .hbm, ⟨90, _⟩ => ⟨S8x1x1024x1024, .i1⟩
  | .hbm, ⟨91, _⟩ => ⟨S8x1x1024x1024, .f32⟩
  | .hbm, ⟨92, _⟩ => ⟨S_, .i32⟩
  | .hbm, ⟨93, _⟩ => ⟨S_, .f32⟩
  | .hbm, ⟨94, _⟩ => ⟨S8x1x1024x1078, .f32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S8x1x1024x1024, .f32⟩
  | .hbm, ⟨100, _⟩ => ⟨S8x1x1024x1024, .f32⟩
  | .hbm, ⟨101, _⟩ => ⟨S_, .f32⟩
  | .hbm, ⟨102, _⟩ => ⟨S8x1x1024x1024, .f32⟩
  | .hbm, ⟨103, _⟩ => ⟨S8x1x1024x1024, .i1⟩
  | .hbm, ⟨104, _⟩ => ⟨S8x1x1024x1024, .f32⟩
  | .hbm, ⟨105, _⟩ => ⟨S1x8x1x1024x1024, .f32⟩
  | .hbm, ⟨106, _⟩ => ⟨S1x8x1x1024x1024, .f32⟩
  | .hbm, ⟨107, _⟩ => ⟨S1x8x1x1024x1024, .f32⟩
  | .hbm, ⟨108, _⟩ => ⟨S1x8x1x1024x1024, .f32⟩
  | .hbm, ⟨109, _⟩ => ⟨S1x8x1x1024x1024, .f32⟩
  | .hbm, ⟨110, _⟩ => ⟨S1x8x1x1024x1024, .f32⟩
  | .hbm, ⟨111, _⟩ => ⟨S1x8x1x1024x1024, .f32⟩
  | .hbm, ⟨112, _⟩ => ⟨S1x8x1x1024x1024, .f32⟩
  | .hbm, ⟨113, _⟩ => ⟨S8x8x1x1024x1024, .f32⟩
  | _, _ => ⟨S8x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_4 : Ref sig .tc := ⟨.hbm, 14, rfl⟩
abbrev main_call1_v0 : Ref sig .tc := ⟨.hbm, 15, rfl⟩
abbrev main_v6 : Ref sig .tc := ⟨.hbm, 16, rfl⟩
abbrev main_c_5 : Ref sig .tc := ⟨.hbm, 17, rfl⟩
abbrev main_c_6 : Ref sig .tc := ⟨.hbm, 18, rfl⟩
abbrev main_c_7 : Ref sig .tc := ⟨.hbm, 19, rfl⟩
abbrev main_c_8 : Ref sig .tc := ⟨.hbm, 20, rfl⟩
abbrev main_v7 : Ref sig .tc := ⟨.hbm, 21, rfl⟩
abbrev main_v8 : Ref sig .tc := ⟨.hbm, 22, rfl⟩
abbrev main_cst_9 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_10 : Ref sig .tc := ⟨.hbm, 27, rfl⟩
abbrev main_call2_v0 : Ref sig .tc := ⟨.hbm, 28, rfl⟩
abbrev main_v12 : Ref sig .tc := ⟨.hbm, 29, rfl⟩
abbrev main_c_11 : Ref sig .tc := ⟨.hbm, 30, rfl⟩
abbrev main_c_12 : Ref sig .tc := ⟨.hbm, 31, rfl⟩
abbrev main_c_13 : Ref sig .tc := ⟨.hbm, 32, rfl⟩
abbrev main_c_14 : Ref sig .tc := ⟨.hbm, 33, rfl⟩
abbrev main_v13 : Ref sig .tc := ⟨.hbm, 34, rfl⟩
abbrev main_v14 : Ref sig .tc := ⟨.hbm, 35, rfl⟩
abbrev main_cst_15 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_16 : Ref sig .tc := ⟨.hbm, 40, rfl⟩
abbrev main_call3_v0 : Ref sig .tc := ⟨.hbm, 41, rfl⟩
abbrev main_v18 : Ref sig .tc := ⟨.hbm, 42, rfl⟩
abbrev main_c_17 : Ref sig .tc := ⟨.hbm, 43, rfl⟩
abbrev main_c_18 : Ref sig .tc := ⟨.hbm, 44, rfl⟩
abbrev main_c_19 : Ref sig .tc := ⟨.hbm, 45, rfl⟩
abbrev main_c_20 : Ref sig .tc := ⟨.hbm, 46, rfl⟩
abbrev main_v19 : Ref sig .tc := ⟨.hbm, 47, rfl⟩
abbrev main_v20 : Ref sig .tc := ⟨.hbm, 48, rfl⟩
abbrev main_cst_21 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_22 : Ref sig .tc := ⟨.hbm, 53, rfl⟩
abbrev main_call4_v0 : Ref sig .tc := ⟨.hbm, 54, rfl⟩
abbrev main_v24 : Ref sig .tc := ⟨.hbm, 55, rfl⟩
abbrev main_c_23 : Ref sig .tc := ⟨.hbm, 56, rfl⟩
abbrev main_c_24 : Ref sig .tc := ⟨.hbm, 57, rfl⟩
abbrev main_c_25 : Ref sig .tc := ⟨.hbm, 58, rfl⟩
abbrev main_c_26 : Ref sig .tc := ⟨.hbm, 59, rfl⟩
abbrev main_v25 : Ref sig .tc := ⟨.hbm, 60, rfl⟩
abbrev main_v26 : Ref sig .tc := ⟨.hbm, 61, rfl⟩
abbrev main_cst_27 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_c_28 : Ref sig .tc := ⟨.hbm, 66, rfl⟩
abbrev main_call5_v0 : Ref sig .tc := ⟨.hbm, 67, rfl⟩
abbrev main_v30 : Ref sig .tc := ⟨.hbm, 68, rfl⟩
abbrev main_c_29 : Ref sig .tc := ⟨.hbm, 69, rfl⟩
abbrev main_c_30 : Ref sig .tc := ⟨.hbm, 70, rfl⟩
abbrev main_c_31 : Ref sig .tc := ⟨.hbm, 71, rfl⟩
abbrev main_c_32 : Ref sig .tc := ⟨.hbm, 72, rfl⟩
abbrev main_v31 : Ref sig .tc := ⟨.hbm, 73, rfl⟩
abbrev main_v32 : Ref sig .tc := ⟨.hbm, 74, rfl⟩
abbrev main_cst_33 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_c_34 : Ref sig .tc := ⟨.hbm, 79, rfl⟩
abbrev main_call6_v0 : Ref sig .tc := ⟨.hbm, 80, rfl⟩
abbrev main_v36 : Ref sig .tc := ⟨.hbm, 81, rfl⟩
abbrev main_c_35 : Ref sig .tc := ⟨.hbm, 82, rfl⟩
abbrev main_c_36 : Ref sig .tc := ⟨.hbm, 83, rfl⟩
abbrev main_c_37 : Ref sig .tc := ⟨.hbm, 84, rfl⟩
abbrev main_c_38 : Ref sig .tc := ⟨.hbm, 85, rfl⟩
abbrev main_v37 : Ref sig .tc := ⟨.hbm, 86, rfl⟩
abbrev main_v38 : Ref sig .tc := ⟨.hbm, 87, rfl⟩
abbrev main_cst_39 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_c_40 : Ref sig .tc := ⟨.hbm, 92, rfl⟩
abbrev main_call7_v0 : Ref sig .tc := ⟨.hbm, 93, rfl⟩
abbrev main_v42 : Ref sig .tc := ⟨.hbm, 94, rfl⟩
abbrev main_c_41 : Ref sig .tc := ⟨.hbm, 95, rfl⟩
abbrev main_c_42 : Ref sig .tc := ⟨.hbm, 96, rfl⟩
abbrev main_c_43 : Ref sig .tc := ⟨.hbm, 97, rfl⟩
abbrev main_c_44 : Ref sig .tc := ⟨.hbm, 98, rfl⟩
abbrev main_v43 : Ref sig .tc := ⟨.hbm, 99, rfl⟩
abbrev main_v44 : Ref sig .tc := ⟨.hbm, 100, rfl⟩
abbrev main_cst_45 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩

abbrev nD : Nat := 1
abbrev τ : Topo := Topo.v7x

variable {F : FTy → Type} [FloatOps F]

class Facts₀ : Prop where
  pads_S8x1x1024x1024_S8x1x1026x1024_000_000_110_000 : S8x1x1024x1024.Pads (![0, 0, 1, 0] : Fin 4 → Nat) ![0, 0, 1, 0] ![0, 0, 0, 0] S8x1x1026x1024
  h_S_ : 0 < S_.numel
  sliceFits_S8x1x1026x1024_S8x1x1024x1024 : S8x1x1026x1024.Slices (fun _ => 0) S8x1x1024x1024
  bcast_S_S8x1x1024x1024 : S_.BroadcastsInDim S8x1x1024x1024 (![] : Fin 0 → Fin S8x1x1024x1024.rank)
  pads_S8x1x1024x1024_S8x1x1024x1026_000_000_000_110 : S8x1x1024x1024.Pads (![0, 0, 0, 1] : Fin 4 → Nat) ![0, 0, 0, 1] ![0, 0, 0, 0] S8x1x1024x1026
  sliceFits_S8x1x1024x1026_S8x1x1024x1024 : S8x1x1024x1026.Slices (fun _ => 0) S8x1x1024x1024
  pads_S8x1x1024x1024_S8x1x1030x1024_000_000_330_000 : S8x1x1024x1024.Pads (![0, 0, 3, 0] : Fin 4 → Nat) ![0, 0, 3, 0] ![0, 0, 0, 0] S8x1x1030x1024
  sliceFits_S8x1x1030x1024_S8x1x1024x1024 : S8x1x1030x1024.Slices (fun _ => 0) S8x1x1024x1024
  pads_S8x1x1024x1024_S8x1x1024x1030_000_000_000_330 : S8x1x1024x1024.Pads (![0, 0, 0, 3] : Fin 4 → Nat) ![0, 0, 0, 3] ![0, 0, 0, 0] S8x1x1024x1030
  sliceFits_S8x1x1024x1030_S8x1x1024x1024 : S8x1x1024x1030.Slices (fun _ => 0) S8x1x1024x1024
  pads_S8x1x1024x1024_S8x1x1042x1024_000_000_990_000 : S8x1x1024x1024.Pads (![0, 0, 9, 0] : Fin 4 → Nat) ![0, 0, 9, 0] ![0, 0, 0, 0] S8x1x1042x1024
  sliceFits_S8x1x1042x1024_S8x1x1024x1024 : S8x1x1042x1024.Slices (fun _ => 0) S8x1x1024x1024
  pads_S8x1x1024x1024_S8x1x1024x1042_000_000_000_990 : S8x1x1024x1024.Pads (![0, 0, 0, 9] : Fin 4 → Nat) ![0, 0, 0, 9] ![0, 0, 0, 0] S8x1x1024x1042
  sliceFits_S8x1x1024x1042_S8x1x1024x1024 : S8x1x1024x1042.Slices (fun _ => 0) S8x1x1024x1024
  pads_S8x1x1024x1024_S8x1x1078x1024_000_000_27270_000 : S8x1x1024x1024.Pads (![0, 0, 27, 0] : Fin 4 → Nat) ![0, 0, 27, 0] ![0, 0, 0, 0] S8x1x1078x1024
  sliceFits_S8x1x1078x1024_S8x1x1024x1024 : S8x1x1078x1024.Slices (fun _ => 0) S8x1x1024x1024
  pads_S8x1x1024x1024_S8x1x1024x1078_000_000_000_27270 : S8x1x1024x1024.Pads (![0, 0, 0, 27] : Fin 4 → Nat) ![0, 0, 0, 27] ![0, 0, 0, 0] S8x1x1024x1078
  sliceFits_S8x1x1024x1078_S8x1x1024x1024 : S8x1x1024x1078.Slices (fun _ => 0) S8x1x1024x1024
  bcast_S8x1x1024x1024_S1x8x1x1024x1024_1_2_3_4 : S8x1x1024x1024.BroadcastsInDim S1x8x1x1024x1024 (![1, 2, 3, 4] : Fin 4 → Fin S1x8x1x1024x1024.rank)
  concatenates_S1x8x1x1024x1024_S1x8x1x1024x1024_S1x8x1x1024x1024_S1x8x1x1024x1024_S1x8x1x1024x1024_S1x8x1x1024x1024_S1x8x1x1024x1024_S1x8x1x1024x1024_S8x8x1x1024x1024_d0 : Shape.Concatenates [S1x8x1x1024x1024, S1x8x1x1024x1024, S1x8x1x1024x1024, S1x8x1x1024x1024, S1x8x1x1024x1024, S1x8x1x1024x1024, S1x8x1x1024x1024, S1x8x1x1024x1024] S8x8x1x1024x1024 0

variable [Facts₀]

class Facts : Prop extends Facts₀ where

variable [Facts]
-- ==== Proof.K.Body.lean ====
/-
  One tile of the affinity kernel, as the pipeline runs it at a grid point (b, h): the body reads the tile's
  512 rows of image b (all 1024 columns) and the 32 rows just above the tile, and writes eight 512 x 1024
  maps, one per offset. Map k compares each pixel with the pixel d rows above it (k even) or d columns to
  its left (k odd), d = 1, 3, 9, 27, a pixel outside the image counting as zero: the rows above come from
  the 32-row block stacked on top of the tile (zeroed when the tile is the image's first), the columns to
  the left from 32 zero columns put in front of the tile.

  Here: the rectangles the body loads and stores through; what its eight stores leave in the output block,
  as pieces, the last store first; that the pieces tile the block; and the body's run on whole buffers --
  the two input buffers are left as found and the output buffer ends at the pieces laid over one another,
  whatever it held before (the body also loads the output buffer before each store and drops what it
  read).
-/
import proofs.«170590_j71708773974139_2_alg».proof.Proof.Gen.Kernel.Launch
import proofs.«170590_j71708773974139_2_alg».proof.Proof.Gen.Kernel.Skeleton
import proofs.«170590_j71708773974139_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole tile block [1, 1, 512, 1024]. -/
abbrev rTile : Rect S1x1x512x1024 := Rect.unit (s := S1x1x512x1024) ![0, 0, 0, 0] S1x1x512x1024.size inb_S1x1x512x1024_S1x1x512x1024_0_0_0_0
/-- The whole block of the 32 rows above [1, 1, 32, 1024]. -/
abbrev rAbove : Rect S1x1x32x1024 := Rect.unit (s := S1x1x32x1024) ![0, 0, 0, 0] S1x1x32x1024.size inb_S1x1x32x1024_S1x1x32x1024_0_0_0_0
/-- Map k of the output block [8, 1, 1, 512, 1024]. -/
abbrev rMap0 : Rect S8x1x1x512x1024 := Rect.unit (s := S8x1x1x512x1024) ![0, 0, 0, 0, 0] S1x1x1x512x1024.size inb_S8x1x1x512x1024_S1x1x1x512x1024_0_0_0_0_0
abbrev rMap1 : Rect S8x1x1x512x1024 := Rect.unit (s := S8x1x1x512x1024) ![1, 0, 0, 0, 0] S1x1x1x512x1024.size inb_S8x1x1x512x1024_S1x1x1x512x1024_1_0_0_0_0
abbrev rMap2 : Rect S8x1x1x512x1024 := Rect.unit (s := S8x1x1x512x1024) ![2, 0, 0, 0, 0] S1x1x1x512x1024.size inb_S8x1x1x512x1024_S1x1x1x512x1024_2_0_0_0_0
abbrev rMap3 : Rect S8x1x1x512x1024 := Rect.unit (s := S8x1x1x512x1024) ![3, 0, 0, 0, 0] S1x1x1x512x1024.size inb_S8x1x1x512x1024_S1x1x1x512x1024_3_0_0_0_0
abbrev rMap4 : Rect S8x1x1x512x1024 := Rect.unit (s := S8x1x1x512x1024) ![4, 0, 0, 0, 0] S1x1x1x512x1024.size inb_S8x1x1x512x1024_S1x1x1x512x1024_4_0_0_0_0
abbrev rMap5 : Rect S8x1x1x512x1024 := Rect.unit (s := S8x1x1x512x1024) ![5, 0, 0, 0, 0] S1x1x1x512x1024.size inb_S8x1x1x512x1024_S1x1x1x512x1024_5_0_0_0_0
abbrev rMap6 : Rect S8x1x1x512x1024 := Rect.unit (s := S8x1x1x512x1024) ![6, 0, 0, 0, 0] S1x1x1x512x1024.size inb_S8x1x1x512x1024_S1x1x1x512x1024_6_0_0_0_0
abbrev rMap7 : Rect S8x1x1x512x1024 := Rect.unit (s := S8x1x1x512x1024) ![7, 0, 0, 0, 0] S1x1x1x512x1024.size inb_S8x1x1x512x1024_S1x1x1x512x1024_7_0_0_0_0

/-! ## What the body leaves in the output block -/

/-- The eight maps of the tile at grid coordinates `i`, from the tile block `x0` and the block above `x1`: the
    body's eight stores as pieces, the last store first. -/
def tileOut (i : grid0.Coords) (x0 : Vec F S1x1x512x1024 .f32) (x1 : Vec F S1x1x32x1024 .f32) : Vec F S8x1x1x512x1024 .f32 :=
  View.canon
    [⟨rMap7, k0_pay1 (k0_pay13 (k0_pay2 (View.ld x0 rTile)) (k0_pay4 (View.ld x0 rTile)))⟩,
     ⟨rMap6, k0_pay12 (k0_pay2 (View.ld x0 rTile)) (k0_pay3 i (View.ld x0 rTile) (View.ld x1 rAbove))⟩,
     ⟨rMap5, k0_pay11 (k0_pay2 (View.ld x0 rTile)) (k0_pay4 (View.ld x0 rTile))⟩,
     ⟨rMap4, k0_pay10 (k0_pay2 (View.ld x0 rTile)) (k0_pay3 i (View.ld x0 rTile) (View.ld x1 rAbove))⟩,
     ⟨rMap3, k0_pay9 (k0_pay2 (View.ld x0 rTile)) (k0_pay4 (View.ld x0 rTile))⟩,
     ⟨rMap2, k0_pay8 (k0_pay7 i (View.ld x0 rTile) (View.ld x1 rAbove))⟩,
     ⟨rMap1, k0_pay6 (View.ld x0 rTile)⟩,
     ⟨rMap0, k0_pay5 i (View.ld x0 rTile) (View.ld x1 rAbove)⟩]

/-- The eight maps tile the output block. -/
theorem maps_cover (p7 p6 p5 p4 p3 p2 p1 p0 : Vec F S1x1x1x512x1024 .f32) (y : S8x1x1x512x1024.Idx) :
    ∃ pc ∈ ([⟨rMap7, p7⟩, ⟨rMap6, p6⟩, ⟨rMap5, p5⟩, ⟨rMap4, p4⟩, ⟨rMap3, p3⟩, ⟨rMap2, p2⟩, ⟨rMap1, p1⟩, ⟨rMap0, p0⟩] :
        List (View.Piece (Elt F) S8x1x1x512x1024 .f32)), y ∈ pc.1.set :=
  View.cover_of_tiled [⟨rMap7, p7⟩, ⟨rMap6, p6⟩, ⟨rMap5, p5⟩, ⟨rMap4, p4⟩, ⟨rMap3, p3⟩, ⟨rMap2, p2⟩, ⟨rMap1, p1⟩, ⟨rMap0, p0⟩]
    S1x1x1x512x1024.size (by rfl) y

/-! ## The body's run -/

set_option maxHeartbeats 4000000 in
/-- On whole buffers -- the tile's at contents `x0`, the rows above at `x1`, the output's at anything -- the body
    runs to its end holding the two inputs as they were and the output at `tileOut i x0 x1`. -/
theorem sound_kernel (c : Dev nD) (E : Set ℕ) (i : grid0.Coords)
    (arg2 : Memref sig .tc .vmem S1x1x512x1024 .f32) (harg2 : arg2.IsWhole)
    (arg3 : Memref sig .tc .vmem S1x1x32x1024 .f32) (harg3 : arg3.IsWhole)
    (arg4 : Memref sig .tc .vmem S8x1x1x512x1024 .f32) (harg4 : arg4.IsWhole)
    (x0 : Vec F S1x1x512x1024 .f32) (x1 : Vec F S1x1x32x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (tileOut i x0 x1)) -∗ K ⟨⟩))
      ⊢ wp frame (wpE (defs₀ (F := F)) Variants.none c none) E (cc0__affs_kernel i arg2 harg2 arg3 harg3 arg4 harg4) K := by
  simp only [cc0__affs_kernel_eq_skeleton]; unfold cc0__affs_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (maps_cover _ _ _ _ _ _ _ _)

end Cert.Kernel.Tile

end
-- ==== Proof.K.Data.lean ====
/-
  The pipeline's proof data for the affinity kernel. At grid point t = (b, h) the pipeline hands the body three
  blocks: rows 512 h .. 512 h + 511 of image b (window 0), a 32-row block of the same image (window 1: rows
  480 .. 511 when h = 1, rows 0 .. 31 when h = 0), and the block of the result it writes back afterwards
  (window 2). Windows 0 and 1 are blocks of ONE array, the argument. The body only reads its two input blocks,
  so each input's buffer holds its block before and after every point; the output's buffer holds the tile's
  eight maps after the body. Nothing is carried from point to point, nothing is owed.

  The argument array is read through two windows at once, so each window holds it at HALF the full share: the
  left half for window 0 and the right half for window 1; the result array is held whole.
-/
import proofs.«170590_j71708773974139_2_alg».proof.Proof.K.Body

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`: the arrays as the region finds them; after the body at point `t` each input's
    buffer at its block and the output's at the tile's eight maps; between points only the kernel's scoped
    buffers that are no staging buffer (there is none); the argument held in two halves, one per input window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOut (grid0.coords t) (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = tileOut (grid0.coords t) (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's run applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.K.Run.lean ====
/-
  The run of the affinity kernel's program: every weakly fair execution ends, nothing faults, and each of the
  pipeline's three windows finds its array, at the end, at what the library computes from the proof data -- the
  argument as launched (the body only reads it), the result overwritten block by block with the tiles' maps.

  The one thing this kernel asks beyond a kernel whose windows have arrays of their own: the launch holds the
  argument array ONCE, whole, and two windows read it. Its full share is cut in its two halves, one per window
  (the points-to predicate splits along a share that is the join of two); the result array passes whole.
-/
import proofs.«170590_j71708773974139_2_alg».proof.Proof.K.Data

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument's share, dealt to its two windows -/

/-- The buffers behind the three windows' arrays are two: the argument and the result. -/
theorem arrRefs_eq : Finset.univ.image (Pipeline.arrRef spec0) = [main_arg0, main_v0].toFinset := by decide

/-- The two buffers, each whole at the full share, make the proof data's three arrays at entry: the argument at
    its left half for window 0 and at its right half for window 1, the result whole for window 2. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hform : (dats m 0 c).arrays ((dats m 0 c).arrAt · 0)
      = bigSep Finset.univ fun w => (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [hform, bigSep_W0]
  rw [show (dats m 0 c).share 0 = fullShare.left from rfl, show (dats m 0 c).share 1 = fullShare.right from rfl,
    show (dats m 0 c).share 2 = fullShare from rfl]
  unfold Pipeline.arrBufs
  rw [bigSep_eq_bigSepL_of_eq [main_arg0, main_v0] arrRefs_eq (by decide)]
  simp only [bigSepL_cons_cons, bigSepL_singleton]
  show iprop(_ ∗ _) ⊢ _
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-! ## The run -/

set_option backward.isDefEq.respectTransparency.types false in
/-- Every weakly fair execution of the program from a memory with zero counters terminates, and every final state
    has each window's array at what the library computes from the proof data after the last write-back. -/
theorem run_main : θ_run defs (onTc (τ := τ) (main (F := F))) (s₀ m ρ)
    (fun r => ∀ (c : Dev nD) (w : Fin cfg0.W),
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m) (hmain := hmain m Variants.none)
    (hsplit := arrays_dealt m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- info: 'Cert.Kernel.Tile.run_main' depends on axioms: [propext, Classical.choice, Quot.sound] -/
#guard_msgs in #print axioms run_main

/-- The argument array ends as launched: the kernel's windows on it are inputs. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.Kernel.Tile

end
-- ==== Proof.KI.Body.lean ====
/-
  One tile of the affinity kernel, as the pipeline runs it at a grid point (b, h): the body reads the tile's
  512 rows of image b (all 1024 columns) and the 32 rows just above the tile, and writes eight 512 x 1024
  maps, one per offset. Map k compares each pixel with the pixel d rows above it (k even) or d columns to
  its left (k odd), d = 1, 3, 9, 27, a pixel outside the image counting as zero: the rows above come from
  the 32-row block stacked on top of the tile (zeroed when the tile is the image's first), the columns to
  the left from 32 zero columns put in front of the tile.

  Here: the rectangles the body loads and stores through; what its eight stores leave in the output block,
  as pieces, the last store first; that the pieces tile the block; and the body's run on whole buffers --
  the two input buffers are left as found and the output buffer ends at the pieces laid over one another,
  whatever it held before (the body also loads the output buffer before each store and drops what it
  read).
-/
import proofs.«170590_j71708773974139_2_alg».proof.Proof.Gen.KernelIdeal.Launch
import proofs.«170590_j71708773974139_2_alg».proof.Proof.Gen.KernelIdeal.Skeleton
import proofs.«170590_j71708773974139_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole tile block [1, 1, 512, 1024]. -/
abbrev rTile : Rect S1x1x512x1024 := Rect.unit (s := S1x1x512x1024) ![0, 0, 0, 0] S1x1x512x1024.size inb_S1x1x512x1024_S1x1x512x1024_0_0_0_0
/-- The whole block of the 32 rows above [1, 1, 32, 1024]. -/
abbrev rAbove : Rect S1x1x32x1024 := Rect.unit (s := S1x1x32x1024) ![0, 0, 0, 0] S1x1x32x1024.size inb_S1x1x32x1024_S1x1x32x1024_0_0_0_0
/-- Map k of the output block [8, 1, 1, 512, 1024]. -/
abbrev rMap0 : Rect S8x1x1x512x1024 := Rect.unit (s := S8x1x1x512x1024) ![0, 0, 0, 0, 0] S1x1x1x512x1024.size inb_S8x1x1x512x1024_S1x1x1x512x1024_0_0_0_0_0
abbrev rMap1 : Rect S8x1x1x512x1024 := Rect.unit (s := S8x1x1x512x1024) ![1, 0, 0, 0, 0] S1x1x1x512x1024.size inb_S8x1x1x512x1024_S1x1x1x512x1024_1_0_0_0_0
abbrev rMap2 : Rect S8x1x1x512x1024 := Rect.unit (s := S8x1x1x512x1024) ![2, 0, 0, 0, 0] S1x1x1x512x1024.size inb_S8x1x1x512x1024_S1x1x1x512x1024_2_0_0_0_0
abbrev rMap3 : Rect S8x1x1x512x1024 := Rect.unit (s := S8x1x1x512x1024) ![3, 0, 0, 0, 0] S1x1x1x512x1024.size inb_S8x1x1x512x1024_S1x1x1x512x1024_3_0_0_0_0
abbrev rMap4 : Rect S8x1x1x512x1024 := Rect.unit (s := S8x1x1x512x1024) ![4, 0, 0, 0, 0] S1x1x1x512x1024.size inb_S8x1x1x512x1024_S1x1x1x512x1024_4_0_0_0_0
abbrev rMap5 : Rect S8x1x1x512x1024 := Rect.unit (s := S8x1x1x512x1024) ![5, 0, 0, 0, 0] S1x1x1x512x1024.size inb_S8x1x1x512x1024_S1x1x1x512x1024_5_0_0_0_0
abbrev rMap6 : Rect S8x1x1x512x1024 := Rect.unit (s := S8x1x1x512x1024) ![6, 0, 0, 0, 0] S1x1x1x512x1024.size inb_S8x1x1x512x1024_S1x1x1x512x1024_6_0_0_0_0
abbrev rMap7 : Rect S8x1x1x512x1024 := Rect.unit (s := S8x1x1x512x1024) ![7, 0, 0, 0, 0] S1x1x1x512x1024.size inb_S8x1x1x512x1024_S1x1x1x512x1024_7_0_0_0_0

/-! ## What the body leaves in the output block -/

/-- The eight maps of the tile at grid coordinates `i`, from the tile block `x0` and the block above `x1`: the
    body's eight stores as pieces, the last store first. -/
def tileOut (i : grid0.Coords) (x0 : Vec F S1x1x512x1024 .f32) (x1 : Vec F S1x1x32x1024 .f32) : Vec F S8x1x1x512x1024 .f32 :=
  View.canon
    [⟨rMap7, k0_pay1 (k0_pay13 (k0_pay2 (View.ld x0 rTile)) (k0_pay4 (View.ld x0 rTile)))⟩,
     ⟨rMap6, k0_pay12 (k0_pay2 (View.ld x0 rTile)) (k0_pay3 i (View.ld x0 rTile) (View.ld x1 rAbove))⟩,
     ⟨rMap5, k0_pay11 (k0_pay2 (View.ld x0 rTile)) (k0_pay4 (View.ld x0 rTile))⟩,
     ⟨rMap4, k0_pay10 (k0_pay2 (View.ld x0 rTile)) (k0_pay3 i (View.ld x0 rTile) (View.ld x1 rAbove))⟩,
     ⟨rMap3, k0_pay9 (k0_pay2 (View.ld x0 rTile)) (k0_pay4 (View.ld x0 rTile))⟩,
     ⟨rMap2, k0_pay8 (k0_pay7 i (View.ld x0 rTile) (View.ld x1 rAbove))⟩,
     ⟨rMap1, k0_pay6 (View.ld x0 rTile)⟩,
     ⟨rMap0, k0_pay5 i (View.ld x0 rTile) (View.ld x1 rAbove)⟩]

/-- The eight maps tile the output block. -/
theorem maps_cover (p7 p6 p5 p4 p3 p2 p1 p0 : Vec F S1x1x1x512x1024 .f32) (y : S8x1x1x512x1024.Idx) :
    ∃ pc ∈ ([⟨rMap7, p7⟩, ⟨rMap6, p6⟩, ⟨rMap5, p5⟩, ⟨rMap4, p4⟩, ⟨rMap3, p3⟩, ⟨rMap2, p2⟩, ⟨rMap1, p1⟩, ⟨rMap0, p0⟩] :
        List (View.Piece (Elt F) S8x1x1x512x1024 .f32)), y ∈ pc.1.set :=
  View.cover_of_tiled [⟨rMap7, p7⟩, ⟨rMap6, p6⟩, ⟨rMap5, p5⟩, ⟨rMap4, p4⟩, ⟨rMap3, p3⟩, ⟨rMap2, p2⟩, ⟨rMap1, p1⟩, ⟨rMap0, p0⟩]
    S1x1x1x512x1024.size (by rfl) y

/-! ## The body's run -/

set_option maxHeartbeats 4000000 in
/-- On whole buffers -- the tile's at contents `x0`, the rows above at `x1`, the output's at anything -- the body
    runs to its end holding the two inputs as they were and the output at `tileOut i x0 x1`. -/
theorem sound_kernel (c : Dev nD) (E : Set ℕ) (i : grid0.Coords)
    (arg2 : Memref sig .tc .vmem S1x1x512x1024 .f32) (harg2 : arg2.IsWhole)
    (arg3 : Memref sig .tc .vmem S1x1x32x1024 .f32) (harg3 : arg3.IsWhole)
    (arg4 : Memref sig .tc .vmem S8x1x1x512x1024 .f32) (harg4 : arg4.IsWhole)
    (x0 : Vec F S1x1x512x1024 .f32) (x1 : Vec F S1x1x32x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (tileOut i x0 x1)) -∗ K ⟨⟩))
      ⊢ wp frame (wpE (defs₀ (F := F)) Variants.none c none) E (cc0__affs_kernel i arg2 harg2 arg3 harg3 arg4 harg4) K := by
  simp only [cc0__affs_kernel_eq_skeleton]; unfold cc0__affs_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (maps_cover _ _ _ _ _ _ _ _)

end Cert.KernelIdeal.Tile

end
-- ==== Proof.KI.Data.lean ====
/-
  The pipeline's proof data for the affinity kernel. At grid point t = (b, h) the pipeline hands the body three
  blocks: rows 512 h .. 512 h + 511 of image b (window 0), a 32-row block of the same image (window 1: rows
  480 .. 511 when h = 1, rows 0 .. 31 when h = 0), and the block of the result it writes back afterwards
  (window 2). Windows 0 and 1 are blocks of ONE array, the argument. The body only reads its two input blocks,
  so each input's buffer holds its block before and after every point; the output's buffer holds the tile's
  eight maps after the body. Nothing is carried from point to point, nothing is owed.

  The argument array is read through two windows at once, so each window holds it at HALF the full share: the
  left half for window 0 and the right half for window 1; the result array is held whole.
-/
import proofs.«170590_j71708773974139_2_alg».proof.Proof.KI.Body

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`: the arrays as the region finds them; after the body at point `t` each input's
    buffer at its block and the output's at the tile's eight maps; between points only the kernel's scoped
    buffers that are no staging buffer (there is none); the argument held in two halves, one per input window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOut (grid0.coords t) (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = tileOut (grid0.coords t) (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's run applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.KI.Run.lean ====
/-
  The run of the affinity kernel's program: every weakly fair execution ends, nothing faults, and each of the
  pipeline's three windows finds its array, at the end, at what the library computes from the proof data -- the
  argument as launched (the body only reads it), the result overwritten block by block with the tiles' maps.

  The one thing this kernel asks beyond a kernel whose windows have arrays of their own: the launch holds the
  argument array ONCE, whole, and two windows read it. Its full share is cut in its two halves, one per window
  (the points-to predicate splits along a share that is the join of two); the result array passes whole.
-/
import proofs.«170590_j71708773974139_2_alg».proof.Proof.KI.Data

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument's share, dealt to its two windows -/

/-- The buffers behind the three windows' arrays are two: the argument and the result. -/
theorem arrRefs_eq : Finset.univ.image (Pipeline.arrRef spec0) = [main_arg0, main_v0].toFinset := by decide

/-- The two buffers, each whole at the full share, make the proof data's three arrays at entry: the argument at
    its left half for window 0 and at its right half for window 1, the result whole for window 2. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hform : (dats m 0 c).arrays ((dats m 0 c).arrAt · 0)
      = bigSep Finset.univ fun w => (((c.tc : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [hform, bigSep_W0]
  rw [show (dats m 0 c).share 0 = fullShare.left from rfl, show (dats m 0 c).share 1 = fullShare.right from rfl,
    show (dats m 0 c).share 2 = fullShare from rfl]
  unfold Pipeline.arrBufs
  rw [bigSep_eq_bigSepL_of_eq [main_arg0, main_v0] arrRefs_eq (by decide)]
  simp only [bigSepL_cons_cons, bigSepL_singleton]
  show iprop(_ ∗ _) ⊢ _
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-! ## The run -/

set_option backward.isDefEq.respectTransparency.types false in
/-- Every weakly fair execution of the program from a memory with zero counters terminates, and every final state
    has each window's array at what the library computes from the proof data after the last write-back. -/
theorem run_main : θ_run defs (onTc (τ := τ) (main (F := F))) (s₀ m ρ)
    (fun r => ∀ (c : Dev nD) (w : Fin cfg0.W),
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m) (hmain := hmain m Variants.none)
    (hsplit := arrays_dealt m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- info: 'Cert.KernelIdeal.Tile.run_main' depends on axioms: [propext, Classical.choice, Quot.sound] -/
#guard_msgs in #print axioms run_main

/-- The argument array ends as launched: the kernel's windows on it are inputs. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (((dats m 0 c).arrAt_in 0 rfl _).trans (A_eq m c 0))) (run_main m ρ)

end Cert.KernelIdeal.Tile

end
-- ==== Proof.AffinitySpec.lean ====
/-
  The affinity maps of a stack of eight 1024 x 1024 label images, as one function of the images.

  Map k (k = 0 .. 7) compares every pixel with ONE neighbour: the pixel d rows above it for k = 0, 2, 4, 6, the
  pixel d columns to its left for k = 1, 3, 5, 7, at distance d = 1, 1, 3, 3, 9, 9, 27, 27; a neighbour that falls
  outside the image counts as the number 0. The map's entry is 1 where the two numbers are equal and 0 where they
  differ.

  Also here: the two ways the programs spell "1 where equal, else 0" meet on the extended reals. The comparison gives
  one bit. Widened to 32 bits and read as a signed integer, or read as an unsigned integer directly, the bit is the
  number 0 or 1. And for two REAL numbers "the difference is zero" is "they are equal" -- which fails at the
  infinities (the difference of +infinity with itself is -infinity on the extended reals), so the second program's
  subtract-then-compare needs the entries to be real numbers.
-/
import Idealize.ShloMosaic.PureOps.Ideal
import Idealize.ShloMosaic.PureOps.Ideal.Laws
import Idealize.ShloMosaic.Lib.ValueIdx

noncomputable section

namespace Cert.Affinity

open Idealize.ShloMosaic Idealize.ShloMosaic.ValueIdx

/-- Eight one-channel images. -/
abbrev SImg : Shape := ⟨4, ![8, 1, 1024, 1024]⟩
/-- Eight maps of each. -/
abbrev SMaps : Shape := ⟨5, ![8, 8, 1, 1024, 1024]⟩

/-- 1 where the two numbers are equal, 0 where they differ. -/
def same (a b : EReal) : EReal := (((BitVec.ofBool (decide (a = b))).toNat : ℝ) : EReal)

/-- Image b's pixel `d` rows above (r, c), the number 0 when that is outside the image. -/
def upN (x : SImg.Idx → EReal) (d : Nat) (b : Fin 8) (r c : Fin 1024) : EReal :=
  if h : d ≤ r.val then x (ix4 b (0 : Fin 1) (⟨r.val - d, by omega⟩ : Fin 1024) c) else 0

/-- Image b's pixel `d` columns to the left of (r, c), the number 0 when that is outside the image. -/
def leftN (x : SImg.Idx → EReal) (d : Nat) (b : Fin 8) (r c : Fin 1024) : EReal :=
  if h : d ≤ c.val then x (ix4 b (0 : Fin 1) r (⟨c.val - d, by omega⟩ : Fin 1024)) else 0

/-- The number map k compares pixel (r, c) of image b with: up or left, at distance 1, 1, 3, 3, 9, 9, 27, 27. -/
def neighbour (x : SImg.Idx → EReal) (k b : Fin 8) (r c : Fin 1024) : EReal :=
  match k with
  | ⟨0, _⟩ => upN x 1 b r c
  | ⟨1, _⟩ => leftN x 1 b r c
  | ⟨2, _⟩ => upN x 3 b r c
  | ⟨3, _⟩ => leftN x 3 b r c
  | ⟨4, _⟩ => upN x 9 b r c
  | ⟨5, _⟩ => leftN x 9 b r c
  | ⟨6, _⟩ => upN x 27 b r c
  | ⟨7, _⟩ => leftN x 27 b r c

/-- The affinity maps: entry (k, b, 0, r, c) says whether pixel (r, c) of image b equals map k's neighbour of it. -/
def affinity (x : SImg.Idx → EReal) : SMaps.Idx → EReal :=
  fun o => same (neighbour x (o 0) (o 1) (o 3) (o 4)) (x (ix4 (o 1) (0 : Fin 1) (o 3) (o 4)))

/-! ## One bit as a number -/

/-- A bit widened to 32 bits and read signed is the bit read unsigned. -/
theorem toInt_setWidth_bit (v : BitVec 1) : ((v.setWidth 32).toInt : ℝ) = (v.toNat : ℝ) := by
  have h : ∀ v : BitVec 1, (v.setWidth 32).toInt = (v.toNat : Int) := by decide
  rw [h v]; simp

/-- The first program's spelling: compare, widen the bit to 32 bits, read it signed. -/
theorem same_of_widened (a b : EReal) :
    FloatOps.sitofp (F := Ideal) .f32 ((FloatOps.cmpf (F := Ideal) (φ := .f32) .oeq a b).setWidth 32) = same a b := by
  show (((((Ideal.cmp .oeq a b).setWidth 32).toInt : ℝ)) : EReal) = same a b
  rw [toInt_setWidth_bit]; rfl

/-- The second program's spelling: subtract, compare the difference with zero, read the bit unsigned. For real
    numbers the difference is zero exactly when they are equal. -/
theorem same_of_difference (a b : ℝ) :
    FloatOps.uitofp (F := Ideal) .f32 (FloatOps.cmpf (F := Ideal) (φ := .f32) .oeq ((a : EReal) - (b : EReal)) 0) = same (a : EReal) (b : EReal) := by
  show ((((Ideal.cmp .oeq ((a : EReal) - (b : EReal)) 0).toNat : ℝ)) : EReal) = same (a : EReal) (b : EReal)
  unfold same Ideal.cmp
  have h : (((a : EReal) - (b : EReal)) = 0) ↔ ((a : EReal) = (b : EReal)) := by
    rw [← EReal.coe_sub, ← EReal.coe_zero, EReal.coe_eq_coe_iff, EReal.coe_eq_coe_iff, sub_eq_zero]
  simp only [h]

end Cert.Affinity

end
-- ==== Proof.KI.TileMaps.lean ====
/-
  One tile of the affinity kernel at the exact extended reals: what each of its eight maps holds at an entry.

  Write v for the tile's 512 x 1024 block and u for the 32 rows above it. The body stacks u on v (zeros in place
  of u when the tile is its image's first) and, separately, puts 32 zero columns in front of v. Row p of the
  stack is row p - 32 of the tile for p at least 32 and row p of u (or zero) below; column q of the widened block
  is column q - 32 of the tile for q at least 32 and zero below. Map k cuts a 512 x 1024 window out of one of the
  two at offset 32 - d and compares it with v entry by entry: at (r, c) it compares v(r, c) with v(r - d, c) --
  or, when r is below d, with u(32 - d + r, c) or zero -- for the maps that look up, and with v(r, c - d), or
  zero when c is below d, for the maps that look left. The comparison's bit, widened and read signed, is the
  number 1 or 0.
-/
import proofs.«170590_j71708773974139_2_alg».proof.Proof.KI.Body
import proofs.«170590_j71708773974139_2_alg».proof.Proof.AffinitySpec
import Idealize.ShloMosaic.Lib.Pipeline.Value
import Idealize.ShloMosaic.Lib.ValueIdx
import Idealize.ShloMosaic.PureOps.Ideal.Laws

set_option maxRecDepth 16384

noncomputable section

namespace Cert.KernelIdeal.TileValue

open Cert.KernelIdeal Cert.KernelIdeal.Gen Cert.KernelIdeal.Tile Cert.Affinity
open Idealize.ShloMosaic Idealize.ShloMosaic.TcCoe Idealize.ShloMosaic.ValueIdx
open Idealize.SL Idealize.SL.Sem
open Idealize.ShloMosaic.Pipeline (Dat Cfg Window)

/-! ## The tile block and its two enlargements, read at an entry -/

/-- The tile as a 512 x 1024 matrix is the tile block with its two unit axes dropped. -/
theorem tile_at (v : Vec Ideal S1x1x512x1024 .f32) (r : Fin 512) (c : Fin 1024) :
    k0_pay2 (F := Ideal) v (ix2 r c) = v (ix4 (0 : Fin 1) (0 : Fin 1) r c) := by
  unfold k0_pay2
  refine shapeCast_apply _ _ _ _ ?_
  rw [Shape.rowMajor_val_four, Shape.rowMajor_val_two]
  show (((0 * 1 + 0) * 512 + r.val) * 1024 + c.val) = r.val * 1024 + c.val
  omega

/-- The 32 rows above as a 32 x 1024 matrix, likewise. -/
theorem above_at (u : Vec Ideal S1x1x32x1024 .f32) (h : S1x1x32x1024.ShapeCasts S32x1024) (a : Fin 32) (c : Fin 1024) :
    shapeCast S32x1024 u h (ix2 a c) = u (ix4 (0 : Fin 1) (0 : Fin 1) a c) := by
  refine shapeCast_apply _ _ _ _ ?_
  rw [Shape.rowMajor_val_four, Shape.rowMajor_val_two]
  show (((0 * 1 + 0) * 32 + a.val) * 1024 + c.val) = a.val * 1024 + c.val
  omega

/-- A whole-vector choice on one bit, read at an entry. -/
theorem select_at {α : Type} {s : Shape} (b : BitVec 1) (A B : s.Idx → α) (j : s.Idx) :
    (Scalar.select b A B) j = if b = 1 then A j else B j := by
  unfold Scalar.select; split <;> rfl

/-- "The tile is its image's first" as a bit: the second grid coordinate, below 2, compared with zero. -/
theorem first_tile_bit (n : Nat) (hn : n < 2) :
    Scalar.cmpi .eq (BitVec.ofNat 32 n) (0#32) = if n = 0 then 1#1 else 0#1 := by
  interval_cases n <;> rfl

/-- Row `p` of the 544-row stack: the tile's row `p - 32` from row 32 on; below, the row of the block above, or
    zero when the tile is its image's first. -/
theorem stack_at (i : grid0.Coords) (v : Vec Ideal S1x1x512x1024 .f32) (u : Vec Ideal S1x1x32x1024 .f32)
    (p : Fin 544) (c : Fin 1024) :
    k0_pay3 (F := Ideal) i v u (ix2 p c)
      = if h : 32 ≤ p.val then v (ix4 (0 : Fin 1) (0 : Fin 1) (⟨p.val - 32, by omega⟩ : Fin 512) c)
        else if (i 1).val = 0 then 0 else u (ix4 (0 : Fin 1) (0 : Fin 1) (⟨p.val, by omega⟩ : Fin 32) c) := by
  unfold k0_pay3
  dsimp only
  by_cases h : 32 ≤ p.val
  · rw [dif_pos h]
    refine (concatenate_pair_apply_right (t := S544x1024) (s₁ := S32x1024) (s₂ := S512x1024) (0 : Fin 2) _ _ _ (ix2 p c) rfl rfl (ix2 (⟨p.val - 32, by omega⟩ : Fin 512) c) ?_ ?_).trans
      (tile_at v _ c)
    · intro b hb; match b with | ⟨0, _⟩ => exact absurd rfl hb | ⟨1, _⟩ => rfl
    · show (p.val - 32) + 32 = p.val; omega
  · rw [dif_neg h]
    refine (concatenate_pair_apply_left (t := S544x1024) (s₁ := S32x1024) (s₂ := S512x1024) (0 : Fin 2) _ _ _ (ix2 p c) rfl (ix2 (⟨p.val, by omega⟩ : Fin 32) c) ?_).trans ?_
    · intro b; match b with | ⟨0, _⟩ => rfl | ⟨1, _⟩ => rfl
    · refine (select_at _ _ _ _).trans ?_
      rw [first_tile_bit (i 1).val (i 1).isLt]
      by_cases h0 : (i 1).val = 0
      · rw [if_pos h0, if_pos (show (1#1 : BitVec 1) = 1 from rfl), if_pos h0]
        show Ideal.ofBits .f32 0x00000000#32 = 0
        exact Ideal.ofBits_zero_f32
      · rw [if_neg h0, if_neg (show ¬ ((0#1 : BitVec 1) = 1) by decide), if_neg h0]
        exact above_at u _ _ c

/-- Column `q` of the 1056-column widened block: the tile's column `q - 32` from column 32 on, zero below. -/
theorem wide_at (v : Vec Ideal S1x1x512x1024 .f32) (r : Fin 512) (q : Fin 1056) :
    k0_pay4 (F := Ideal) v (ix2 r q)
      = if h : 32 ≤ q.val then v (ix4 (0 : Fin 1) (0 : Fin 1) r (⟨q.val - 32, by omega⟩ : Fin 1024)) else 0 := by
  unfold k0_pay4
  by_cases h : 32 ≤ q.val
  · rw [dif_pos h]
    refine (concatenate_pair_apply_right (t := S512x1056) (s₁ := S512x32) (s₂ := S512x1024) (1 : Fin 2) _ _ _ (ix2 r q) rfl rfl (ix2 r (⟨q.val - 32, by omega⟩ : Fin 1024)) ?_ ?_).trans
      (tile_at v r _)
    · intro b hb; match b with | ⟨0, _⟩ => rfl | ⟨1, _⟩ => exact absurd rfl hb
    · show (q.val - 32) + 32 = q.val; omega
  · rw [dif_neg h]
    refine (concatenate_pair_apply_left (t := S512x1056) (s₁ := S512x32) (s₂ := S512x1024) (1 : Fin 2) _ _ _ (ix2 r q) rfl (ix2 r (⟨q.val, by omega⟩ : Fin 32)) ?_).trans ?_
    · intro b; match b with | ⟨0, _⟩ => rfl | ⟨1, _⟩ => rfl
    · show Ideal.ofBits .f32 0x00000000#32 = 0
      exact Ideal.ofBits_zero_f32

/-! ## What a map compares an entry with -/

/-- Looking up by `d` rows from row `r` of the tile. -/
def upVal (i : grid0.Coords) (v : Vec Ideal S1x1x512x1024 .f32) (u : Vec Ideal S1x1x32x1024 .f32) (d : Nat) (hd : d ≤ 32)
    (r : Fin 512) (c : Fin 1024) : EReal :=
  if h : d ≤ r.val then v (ix4 (0 : Fin 1) (0 : Fin 1) (⟨r.val - d, by omega⟩ : Fin 512) c)
  else if (i 1).val = 0 then 0 else u (ix4 (0 : Fin 1) (0 : Fin 1) (⟨32 - d + r.val, by omega⟩ : Fin 32) c)

/-- Looking left by `d` columns from column `c`. -/
def leftVal (v : Vec Ideal S1x1x512x1024 .f32) (d : Nat) (r : Fin 512) (c : Fin 1024) : EReal :=
  if h : d ≤ c.val then v (ix4 (0 : Fin 1) (0 : Fin 1) r (⟨c.val - d, by omega⟩ : Fin 1024)) else 0

/-- The window cut out of the stack at row offset `off = 32 - d`. -/
theorem up_window (i : grid0.Coords) (v : Vec Ideal S1x1x512x1024 .f32) (u : Vec Ideal S1x1x32x1024 .f32)
    (off d : Nat) (hod : off + d = 32) (hs : S544x1024.Slices ![off, 0] S512x1024) (r : Fin 512) (c : Fin 1024) :
    extractStridedSlice S512x1024 ![off, 0] (k0_pay3 (F := Ideal) i v u) hs (ix2 r c) = upVal i v u d (by omega) r c := by
  refine (extractStridedSlice_apply ![off, 0] _ hs (ix2 r c) (ix2 (⟨off + r.val, by omega⟩ : Fin 544) c) ?_).trans ?_
  · intro a; match a with | ⟨0, _⟩ => rfl | ⟨1, _⟩ => (show c.val = 0 + c.val; omega)
  · rw [stack_at]
    unfold upVal
    by_cases h : d ≤ r.val
    · rw [dif_pos (show 32 ≤ off + r.val by omega), dif_pos h]
      exact congrArg (fun z => v (ix4 (0 : Fin 1) (0 : Fin 1) z c)) (Fin.ext (by show off + r.val - 32 = r.val - d; omega))
    · rw [dif_neg (show ¬ 32 ≤ off + r.val by omega), dif_neg h]
      by_cases h0 : (i 1).val = 0
      · rw [if_pos h0, if_pos h0]
      · rw [if_neg h0, if_neg h0]
        exact congrArg (fun z => u (ix4 (0 : Fin 1) (0 : Fin 1) z c)) (Fin.ext (by show off + r.val = 32 - d + r.val; omega))

/-- The window cut out of the widened block at column offset `off = 32 - d`. -/
theorem left_window (v : Vec Ideal S1x1x512x1024 .f32)
    (off d : Nat) (hod : off + d = 32) (hs : S512x1056.Slices ![0, off] S512x1024) (r : Fin 512) (c : Fin 1024) :
    extractStridedSlice S512x1024 ![0, off] (k0_pay4 (F := Ideal) v) hs (ix2 r c) = leftVal v d r c := by
  refine (extractStridedSlice_apply ![0, off] _ hs (ix2 r c) (ix2 r (⟨off + c.val, by omega⟩ : Fin 1056)) ?_).trans ?_
  · intro a; match a with | ⟨0, _⟩ => (show r.val = 0 + r.val; omega) | ⟨1, _⟩ => rfl
  · rw [wide_at]
    unfold leftVal
    by_cases h : d ≤ c.val
    · rw [dif_pos (show 32 ≤ off + c.val by omega), dif_pos h]
      exact congrArg (fun z => v (ix4 (0 : Fin 1) (0 : Fin 1) r z)) (Fin.ext (by show off + c.val - 32 = c.val - d; omega))
    · rw [dif_neg (show ¬ 32 ≤ off + c.val by omega), dif_neg h]

/-- A map's block: compare, widen the bit, read it signed, and put the three unit axes back. -/
theorem map_at (A B : FVec Ideal S512x1024 .f32) (h1 : 1 < 32) (h2 : S512x1024.ShapeCasts S1x1x1x512x1024)
    (r : Fin 512) (c : Fin 1024) :
    shapeCast S1x1x1x512x1024 (sitofp (F := Ideal) .f32 (extui 32 (cmpf .oeq A B) h1)) h2 (ix5 (0 : Fin 1) (0 : Fin 1) (0 : Fin 1) r c)
      = same (A (ix2 r c)) (B (ix2 r c)) := by
  refine (shapeCast_apply _ _ _ (ix2 r c) ?_).trans (same_of_widened _ _)
  rw [Shape.rowMajor_val_two, Shape.rowMajor_val_five]
  show r.val * 1024 + c.val = ((((0 * 1 + 0) * 1 + 0) * 512 + r.val) * 1024 + c.val)
  omega

/-- The three unit axes put back, alone. -/
theorem units_at (A : FVec Ideal S512x1024 .f32) (h2 : S512x1024.ShapeCasts S1x1x1x512x1024) (r : Fin 512) (c : Fin 1024) :
    shapeCast S1x1x1x512x1024 A h2 (ix5 (0 : Fin 1) (0 : Fin 1) (0 : Fin 1) r c) = A (ix2 r c) := by
  refine shapeCast_apply _ _ _ (ix2 r c) ?_
  rw [Shape.rowMajor_val_two, Shape.rowMajor_val_five]
  show r.val * 1024 + c.val = ((((0 * 1 + 0) * 1 + 0) * 512 + r.val) * 1024 + c.val)
  omega

variable (i : grid0.Coords) (v : Vec Ideal S1x1x512x1024 .f32) (u : Vec Ideal S1x1x32x1024 .f32) (r : Fin 512) (c : Fin 1024)

theorem map0_at : k0_pay5 (F := Ideal) i v u (ix5 (0 : Fin 1) (0 : Fin 1) (0 : Fin 1) r c)
    = same (upVal i v u 1 (by omega) r c) (v (ix4 (0 : Fin 1) (0 : Fin 1) r c)) := by
  unfold k0_pay5
  refine (map_at _ _ _ _ r c).trans ?_
  rw [up_window i v u 31 1 rfl, tile_at]
theorem map1_at : k0_pay6 (F := Ideal) v (ix5 (0 : Fin 1) (0 : Fin 1) (0 : Fin 1) r c)
    = same (leftVal v 1 r c) (v (ix4 (0 : Fin 1) (0 : Fin 1) r c)) := by
  unfold k0_pay6
  refine (map_at _ _ _ _ r c).trans ?_
  rw [left_window v 31 1 rfl, tile_at]
theorem map2_at : k0_pay8 (F := Ideal) (k0_pay7 i v u) (ix5 (0 : Fin 1) (0 : Fin 1) (0 : Fin 1) r c)
    = same (upVal i v u 3 (by omega) r c) (v (ix4 (0 : Fin 1) (0 : Fin 1) r c)) := by
  unfold k0_pay8 k0_pay7
  refine (map_at _ _ _ _ r c).trans ?_
  rw [up_window i v u 29 3 rfl, tile_at]
theorem map3_at : k0_pay9 (F := Ideal) (k0_pay2 v) (k0_pay4 v) (ix5 (0 : Fin 1) (0 : Fin 1) (0 : Fin 1) r c)
    = same (leftVal v 3 r c) (v (ix4 (0 : Fin 1) (0 : Fin 1) r c)) := by
  unfold k0_pay9
  refine (map_at _ _ _ _ r c).trans ?_
  rw [left_window v 29 3 rfl, tile_at]
theorem map4_at : k0_pay10 (F := Ideal) (k0_pay2 v) (k0_pay3 i v u) (ix5 (0 : Fin 1) (0 : Fin 1) (0 : Fin 1) r c)
    = same (upVal i v u 9 (by omega) r c) (v (ix4 (0 : Fin 1) (0 : Fin 1) r c)) := by
  unfold k0_pay10
  refine (map_at _ _ _ _ r c).trans ?_
  rw [up_window i v u 23 9 rfl, tile_at]
theorem map5_at : k0_pay11 (F := Ideal) (k0_pay2 v) (k0_pay4 v) (ix5 (0 : Fin 1) (0 : Fin 1) (0 : Fin 1) r c)
    = same (leftVal v 9 r c) (v (ix4 (0 : Fin 1) (0 : Fin 1) r c)) := by
  unfold k0_pay11
  refine (map_at _ _ _ _ r c).trans ?_
  rw [left_window v 23 9 rfl, tile_at]
theorem map6_at : k0_pay12 (F := Ideal) (k0_pay2 v) (k0_pay3 i v u) (ix5 (0 : Fin 1) (0 : Fin 1) (0 : Fin 1) r c)
    = same (upVal i v u 27 (by omega) r c) (v (ix4 (0 : Fin 1) (0 : Fin 1) r c)) := by
  unfold k0_pay12
  refine (map_at _ _ _ _ r c).trans ?_
  rw [up_window i v u 5 27 rfl, tile_at]
theorem map7_at : k0_pay1 (F := Ideal) (k0_pay13 (k0_pay2 v) (k0_pay4 v)) (ix5 (0 : Fin 1) (0 : Fin 1) (0 : Fin 1) r c)
    = same (leftVal v 27 r c) (v (ix4 (0 : Fin 1) (0 : Fin 1) r c)) := by
  unfold k0_pay1 k0_pay13
  refine (map_at _ _ _ _ r c).trans ?_
  rw [left_window v 5 27 rfl, tile_at]

end Cert.KernelIdeal.TileValue

end
-- ==== Proof.KI.Value.lean ====
/-
  What the affinity kernel's result array holds after the run, at the exact extended reals: the affinity maps of
  the argument.

  A tile's output block, read at entry (k, 0, 0, r, c), is map k's comparison of the tile's entry (r, c) with what
  map k looks at (the eight stores are eight unit slabs of the block, one per k). At grid point t = (b, h) the tile
  block is rows 512 h .. 512 h + 511 of image b, the block above is rows 480 .. 511 of image b when h = 1, and the
  output block is rows 512 h .. of the eight maps of image b. So row r of the tile is row R = 512 h + r of the
  image; looking up d rows from it stays inside the tile when d is at most r, lands in the block above (at its
  row 32 - d + r, which is row R - d of the image) when h = 1, and falls off the image, where both programs put
  zero, when h = 0; looking left never leaves the tile's rows. The block written back is therefore the block of
  the affinity maps, and the sixteen blocks -- one per image and per half -- tile the result array.
-/
import proofs.«170590_j71708773974139_2_alg».proof.Proof.KI.Run
import proofs.«170590_j71708773974139_2_alg».proof.Proof.KI.TileMaps
import Idealize.ShloMosaic.Lib.Pipeline.Value

set_option maxRecDepth 16384

noncomputable section

namespace Cert.KernelIdeal.TileValue

open Cert.KernelIdeal Cert.KernelIdeal.Gen Cert.KernelIdeal.Tile Cert.Affinity
open Idealize.ShloMosaic Idealize.ShloMosaic.TcCoe Idealize.ShloMosaic.ValueIdx
open Idealize.SL Idealize.SL.Sem
open Idealize.ShloMosaic.Pipeline (Dat Cfg Window)

/-! ## A tile's output block at an entry -/

theorem hz4 : (![0, 0, 0, 0] : Fin 4 → Nat) = fun _ => 0 := funext fun a => by fin_cases a <;> rfl

/-- What map `k` of a tile compares entry (r, c) with. -/
def tileVal (i : grid0.Coords) (v : Vec Ideal S1x1x512x1024 .f32) (u : Vec Ideal S1x1x32x1024 .f32) (k : Fin 8)
    (r : Fin 512) (c : Fin 1024) : EReal :=
  match k with
  | ⟨0, _⟩ => upVal i v u 1 (by omega) r c
  | ⟨1, _⟩ => leftVal v 1 r c
  | ⟨2, _⟩ => upVal i v u 3 (by omega) r c
  | ⟨3, _⟩ => leftVal v 3 r c
  | ⟨4, _⟩ => upVal i v u 9 (by omega) r c
  | ⟨5, _⟩ => leftVal v 9 r c
  | ⟨6, _⟩ => upVal i v u 27 (by omega) r c
  | ⟨7, _⟩ => leftVal v 27 r c

theorem emb0 (r : Fin 512) (c : Fin 1024) :
    rMap0.emb (ix5 (0 : Fin 1) (0 : Fin 1) (0 : Fin 1) r c) = ix5 (0 : Fin 8) (0 : Fin 1) (0 : Fin 1) r c := by
  funext a; apply Fin.ext
  match a with
  | ⟨0, _⟩ => rfl
  | ⟨1, _⟩ => rfl
  | ⟨2, _⟩ => rfl
  | ⟨3, _⟩ => show 0 + 1 * r.val = r.val; omega
  | ⟨4, _⟩ => show 0 + 1 * c.val = c.val; omega
theorem emb1 (r : Fin 512) (c : Fin 1024) :
    rMap1.emb (ix5 (0 : Fin 1) (0 : Fin 1) (0 : Fin 1) r c) = ix5 (1 : Fin 8) (0 : Fin 1) (0 : Fin 1) r c := by
  funext a; apply Fin.ext
  match a with
  | ⟨0, _⟩ => rfl
  | ⟨1, _⟩ => rfl
  | ⟨2, _⟩ => rfl
  | ⟨3, _⟩ => show 0 + 1 * r.val = r.val; omega
  | ⟨4, _⟩ => show 0 + 1 * c.val = c.val; omega
theorem emb2 (r : Fin 512) (c : Fin 1024) :
    rMap2.emb (ix5 (0 : Fin 1) (0 : Fin 1) (0 : Fin 1) r c) = ix5 (2 : Fin 8) (0 : Fin 1) (0 : Fin 1) r c := by
  funext a; apply Fin.ext
  match a with
  | ⟨0, _⟩ => rfl
  | ⟨1, _⟩ => rfl
  | ⟨2, _⟩ => rfl
  | ⟨3, _⟩ => show 0 + 1 * r.val = r.val; omega
  | ⟨4, _⟩ => show 0 + 1 * c.val = c.val; omega
theorem emb3 (r : Fin 512) (c : Fin 1024) :
    rMap3.emb (ix5 (0 : Fin 1) (0 : Fin 1) (0 : Fin 1) r c) = ix5 (3 : Fin 8) (0 : Fin 1) (0 : Fin 1) r c := by
  funext a; apply Fin.ext
  match a with
  | ⟨0, _⟩ => rfl
  | ⟨1, _⟩ => rfl
  | ⟨2, _⟩ => rfl
  | ⟨3, _⟩ => show 0 + 1 * r.val = r.val; omega
  | ⟨4, _⟩ => show 0 + 1 * c.val = c.val; omega
theorem emb4 (r : Fin 512) (c : Fin 1024) :
    rMap4.emb (ix5 (0 : Fin 1) (0 : Fin 1) (0 : Fin 1) r c) = ix5 (4 : Fin 8) (0 : Fin 1) (0 : Fin 1) r c := by
  funext a; apply Fin.ext
  match a with
  | ⟨0, _⟩ => rfl
  | ⟨1, _⟩ => rfl
  | ⟨2, _⟩ => rfl
  | ⟨3, _⟩ => show 0 + 1 * r.val = r.val; omega
  | ⟨4, _⟩ => show 0 + 1 * c.val = c.val; omega
theorem emb5 (r : Fin 512) (c : Fin 1024) :
    rMap5.emb (ix5 (0 : Fin 1) (0 : Fin 1) (0 : Fin 1) r c) = ix5 (5 : Fin 8) (0 : Fin 1) (0 : Fin 1) r c := by
  funext a; apply Fin.ext
  match a with
  | ⟨0, _⟩ => rfl
  | ⟨1, _⟩ => rfl
  | ⟨2, _⟩ => rfl
  | ⟨3, _⟩ => show 0 + 1 * r.val = r.val; omega
  | ⟨4, _⟩ => show 0 + 1 * c.val = c.val; omega
theorem emb6 (r : Fin 512) (c : Fin 1024) :
    rMap6.emb (ix5 (0 : Fin 1) (0 : Fin 1) (0 : Fin 1) r c) = ix5 (6 : Fin 8) (0 : Fin 1) (0 : Fin 1) r c := by
  funext a; apply Fin.ext
  match a with
  | ⟨0, _⟩ => rfl
  | ⟨1, _⟩ => rfl
  | ⟨2, _⟩ => rfl
  | ⟨3, _⟩ => show 0 + 1 * r.val = r.val; omega
  | ⟨4, _⟩ => show 0 + 1 * c.val = c.val; omega
theorem emb7 (r : Fin 512) (c : Fin 1024) :
    rMap7.emb (ix5 (0 : Fin 1) (0 : Fin 1) (0 : Fin 1) r c) = ix5 (7 : Fin 8) (0 : Fin 1) (0 : Fin 1) r c := by
  funext a; apply Fin.ext
  match a with
  | ⟨0, _⟩ => rfl
  | ⟨1, _⟩ => rfl
  | ⟨2, _⟩ => rfl
  | ⟨3, _⟩ => show 0 + 1 * r.val = r.val; omega
  | ⟨4, _⟩ => show 0 + 1 * c.val = c.val; omega

/-- The output block at entry (k, 0, 0, r, c): map k's comparison. -/
theorem tileOut_at (i : grid0.Coords) (v : Vec Ideal S1x1x512x1024 .f32) (u : Vec Ideal S1x1x32x1024 .f32) (k : Fin 8)
    (r : Fin 512) (c : Fin 1024) :
    tileOut (F := Ideal) i v u (ix5 k (0 : Fin 1) (0 : Fin 1) r c)
      = same (tileVal i v u k r c) (v (ix4 (0 : Fin 1) (0 : Fin 1) r c)) := by
  unfold tileOut
  simp only [View.ld_unit_zero (S := S1x1x512x1024) hz4, View.ld_unit_zero (S := S1x1x32x1024) hz4]
  refine (View.canon_apply_of_pieces
    (fun y : S8x1x1x512x1024.Idx => same (tileVal i v u (y 0) (y 3) (y 4)) (v (ix4 (0 : Fin 1) (0 : Fin 1) (y 3) (y 4))))
    _ ?_ _ (maps_cover _ _ _ _ _ _ _ _ _)).trans rfl
  intro p hp
  simp only [List.mem_cons, List.not_mem_nil, or_false] at hp
  rcases hp with rfl | rfl | rfl | rfl | rfl | rfl | rfl | rfl
  · intro x
    obtain ⟨a0, a1, a2, r', c', rfl⟩ : ∃ (a0 a1 a2 : Fin 1) (r' : Fin 512) (c' : Fin 1024), x = ix5 a0 a1 a2 r' c' :=
      ⟨x 0, x 1, x 2, x 3, x 4, eq_ix5 x⟩
    obtain rfl : a0 = 0 := Subsingleton.elim _ _
    obtain rfl : a1 = 0 := Subsingleton.elim _ _
    obtain rfl : a2 = 0 := Subsingleton.elim _ _
    rw [emb7]
    exact map7_at v r' c'
  · intro x
    obtain ⟨a0, a1, a2, r', c', rfl⟩ : ∃ (a0 a1 a2 : Fin 1) (r' : Fin 512) (c' : Fin 1024), x = ix5 a0 a1 a2 r' c' :=
      ⟨x 0, x 1, x 2, x 3, x 4, eq_ix5 x⟩
    obtain rfl : a0 = 0 := Subsingleton.elim _ _
    obtain rfl : a1 = 0 := Subsingleton.elim _ _
    obtain rfl : a2 = 0 := Subsingleton.elim _ _
    rw [emb6]
    exact map6_at i v u r' c'
  · intro x
    obtain ⟨a0, a1, a2, r', c', rfl⟩ : ∃ (a0 a1 a2 : Fin 1) (r' : Fin 512) (c' : Fin 1024), x = ix5 a0 a1 a2 r' c' :=
      ⟨x 0, x 1, x 2, x 3, x 4, eq_ix5 x⟩
    obtain rfl : a0 = 0 := Subsingleton.elim _ _
    obtain rfl : a1 = 0 := Subsingleton.elim _ _
    obtain rfl : a2 = 0 := Subsingleton.elim _ _
    rw [emb5]
    exact map5_at v r' c'
  · intro x
    obtain ⟨a0, a1, a2, r', c', rfl⟩ : ∃ (a0 a1 a2 : Fin 1) (r' : Fin 512) (c' : Fin 1024), x = ix5 a0 a1 a2 r' c' :=
      ⟨x 0, x 1, x 2, x 3, x 4, eq_ix5 x⟩
    obtain rfl : a0 = 0 := Subsingleton.elim _ _
    obtain rfl : a1 = 0 := Subsingleton.elim _ _
    obtain rfl : a2 = 0 := Subsingleton.elim _ _
    rw [emb4]
    exact map4_at i v u r' c'
  · intro x
    obtain ⟨a0, a1, a2, r', c', rfl⟩ : ∃ (a0 a1 a2 : Fin 1) (r' : Fin 512) (c' : Fin 1024), x = ix5 a0 a1 a2 r' c' :=
      ⟨x 0, x 1, x 2, x 3, x 4, eq_ix5 x⟩
    obtain rfl : a0 = 0 := Subsingleton.elim _ _
    obtain rfl : a1 = 0 := Subsingleton.elim _ _
    obtain rfl : a2 = 0 := Subsingleton.elim _ _
    rw [emb3]
    exact map3_at v r' c'
  · intro x
    obtain ⟨a0, a1, a2, r', c', rfl⟩ : ∃ (a0 a1 a2 : Fin 1) (r' : Fin 512) (c' : Fin 1024), x = ix5 a0 a1 a2 r' c' :=
      ⟨x 0, x 1, x 2, x 3, x 4, eq_ix5 x⟩
    obtain rfl : a0 = 0 := Subsingleton.elim _ _
    obtain rfl : a1 = 0 := Subsingleton.elim _ _
    obtain rfl : a2 = 0 := Subsingleton.elim _ _
    rw [emb2]
    exact map2_at i v u r' c'
  · intro x
    obtain ⟨a0, a1, a2, r', c', rfl⟩ : ∃ (a0 a1 a2 : Fin 1) (r' : Fin 512) (c' : Fin 1024), x = ix5 a0 a1 a2 r' c' :=
      ⟨x 0, x 1, x 2, x 3, x 4, eq_ix5 x⟩
    obtain rfl : a0 = 0 := Subsingleton.elim _ _
    obtain rfl : a1 = 0 := Subsingleton.elim _ _
    obtain rfl : a2 = 0 := Subsingleton.elim _ _
    rw [emb1]
    exact map1_at v r' c'
  · intro x
    obtain ⟨a0, a1, a2, r', c', rfl⟩ : ∃ (a0 a1 a2 : Fin 1) (r' : Fin 512) (c' : Fin 1024), x = ix5 a0 a1 a2 r' c' :=
      ⟨x 0, x 1, x 2, x 3, x 4, eq_ix5 x⟩
    obtain rfl : a0 = 0 := Subsingleton.elim _ _
    obtain rfl : a1 = 0 := Subsingleton.elim _ _
    obtain rfl : a2 = 0 := Subsingleton.elim _ _
    rw [emb0]
    exact map0_at i v u r' c'

/-! ## The blocks in the arrays -/

variable (m : (ℓ : Loc nD τ sig) → Buf (Elt Ideal) ℓ) (ρ : Dev nD → PrngReg)

/-- The index maps over the grid: at point (b, h) the tile is block (b, 0, h, 0) of the argument in blocks of
    [1, 1, 512, 1024], the rows above are block (b, 0, 15 or 0, 0) in blocks of [1, 1, 32, 1024], and the output is
    block (0, b, 0, h, 0) of the result in blocks of [8, 1, 1, 512, 1024]. -/
theorem idx_facts : ∀ t : Fin cfg0.N,
    win0_0.index t (0 : Fin 4) = (grid0.coords t 0).val ∧ win0_0.index t (1 : Fin 4) = 0
    ∧ win0_0.index t (2 : Fin 4) = (grid0.coords t 1).val ∧ win0_0.index t (3 : Fin 4) = 0
    ∧ win0_1.index t (0 : Fin 4) = (grid0.coords t 0).val ∧ win0_1.index t (1 : Fin 4) = 0
    ∧ win0_1.index t (2 : Fin 4) = (if (grid0.coords t 1).val = 0 then 0 else 15) ∧ win0_1.index t (3 : Fin 4) = 0
    ∧ win0_2.index t (0 : Fin 5) = 0 ∧ win0_2.index t (1 : Fin 5) = (grid0.coords t 0).val
    ∧ win0_2.index t (2 : Fin 5) = 0 ∧ win0_2.index t (3 : Fin 5) = (grid0.coords t 1).val
    ∧ win0_2.index t (4 : Fin 5) = 0 :=
  (by decide +kernel : ∀ t : Fin grid0.N, _)

/-- Every (image, half) is some point's. -/
theorem idx_onto : ∀ (q1 : Fin 8) (q3 : Fin 2), ∃ t : Fin cfg0.N, win0_2.index t = ![0, q1.val, 0, q3.val, 0] :=
  (by decide +kernel : ∀ (q1 : Fin 8) (q3 : Fin 2), ∃ t : Fin grid0.N, win0_2.index t = ![0, q1.val, 0, q3.val, 0])

/-- The image of the tile at point `t`. -/
def imgOf (t : Fin cfg0.N) : Fin 8 := ⟨(grid0.coords t 0).val, (grid0.coords t 0).isLt⟩
/-- The image row of the tile's row `r` at point `t`. -/
def rowOf (t : Fin cfg0.N) (r : Fin 512) : Fin 1024 :=
  ⟨512 * (grid0.coords t 1).val + r.val, by have h : (grid0.coords t 1).val < 2 := (grid0.coords t 1).isLt; omega⟩

/-- The tile block read at (0, 0, r, c) is the argument at (b, 0, 512 h + r, c). -/
theorem tile_read (c : Dev nD) (t : Fin cfg0.N) (r : Fin 512) (cc : Fin 1024) :
    iblk m c 0 t (ix4 (0 : Fin 1) (0 : Fin 1) r cc) = V m c main_arg0 (ix4 (imgOf t) (0 : Fin 1) (rowOf t r) cc) := by
  obtain ⟨e00, e01, e02, e03, -⟩ := idx_facts t
  show V m c main_arg0 (((cfg0.win 0).blk t).view.emb (ix4 (0 : Fin 1) (0 : Fin 1) r cc)) = V m c main_arg0 _
  refine congrArg _ (funext fun a => Fin.ext ?_)
  match a with
  | ⟨0, _⟩ => show win0_0.index t (0 : Fin 4) * 1 + 1 * 0 = (grid0.coords t 0).val; omega
  | ⟨1, _⟩ => show win0_0.index t (1 : Fin 4) * 1 + 1 * 0 = 0; omega
  | ⟨2, _⟩ => show win0_0.index t (2 : Fin 4) * 512 + 1 * r.val = 512 * (grid0.coords t 1).val + r.val; omega
  | ⟨3, _⟩ => show win0_0.index t (3 : Fin 4) * 1024 + 1 * cc.val = cc.val; omega

/-- The block above read at (0, 0, a, c), when the tile is the second of its image, is the argument at
    (b, 0, 480 + a, c). -/
theorem above_read (c : Dev nD) (t : Fin cfg0.N) (h1 : (grid0.coords t 1).val ≠ 0) (a : Fin 32) (cc : Fin 1024) :
    iblk m c 1 t (ix4 (0 : Fin 1) (0 : Fin 1) a cc)
      = V m c main_arg0 (ix4 (imgOf t) (0 : Fin 1) (⟨480 + a.val, by omega⟩ : Fin 1024) cc) := by
  obtain ⟨-, -, -, -, e10, e11, e12, e13, -⟩ := idx_facts t
  rw [if_neg h1] at e12
  show V m c main_arg0 (((cfg0.win 1).blk t).view.emb (ix4 (0 : Fin 1) (0 : Fin 1) a cc)) = V m c main_arg0 _
  refine congrArg _ (funext fun b => Fin.ext ?_)
  match b with
  | ⟨0, _⟩ => show win0_1.index t (0 : Fin 4) * 1 + 1 * 0 = (grid0.coords t 0).val; omega
  | ⟨1, _⟩ => show win0_1.index t (1 : Fin 4) * 1 + 1 * 0 = 0; omega
  | ⟨2, _⟩ => show win0_1.index t (2 : Fin 4) * 32 + 1 * a.val = 480 + a.val; omega
  | ⟨3, _⟩ => show win0_1.index t (3 : Fin 4) * 1024 + 1 * cc.val = cc.val; omega

/-- Looking up from the tile is looking up in the image. -/
theorem up_case (c : Dev nD) (t : Fin cfg0.N) (d : Nat) (hd : d ≤ 32) (r : Fin 512) (cc : Fin 1024) :
    upVal (grid0.coords t) (iblk m c 0 t) (iblk m c 1 t) d hd r cc = upN (V m c main_arg0) d (imgOf t) (rowOf t r) cc := by
  have hh : (grid0.coords t 1).val < 2 := (grid0.coords t 1).isLt
  unfold upVal upN
  by_cases h : d ≤ r.val
  · rw [dif_pos h, dif_pos (show d ≤ (rowOf t r).val by show d ≤ 512 * (grid0.coords t 1).val + r.val; omega)]
    refine (tile_read m c t _ cc).trans ?_
    exact congrArg (fun z => V m c main_arg0 (ix4 (imgOf t) (0 : Fin 1) z cc))
      (Fin.ext (by show 512 * (grid0.coords t 1).val + (r.val - d) = 512 * (grid0.coords t 1).val + r.val - d; omega))
  · rw [dif_neg h]
    by_cases h0 : (grid0.coords t 1).val = 0
    · rw [if_pos h0, dif_neg (show ¬ d ≤ (rowOf t r).val by show ¬ d ≤ 512 * (grid0.coords t 1).val + r.val; omega)]
    · rw [if_neg h0, dif_pos (show d ≤ (rowOf t r).val by show d ≤ 512 * (grid0.coords t 1).val + r.val; omega)]
      refine (above_read m c t h0 _ cc).trans ?_
      exact congrArg (fun z => V m c main_arg0 (ix4 (imgOf t) (0 : Fin 1) z cc))
        (Fin.ext (by show 480 + (32 - d + r.val) = 512 * (grid0.coords t 1).val + r.val - d; omega))

/-- Looking left from the tile is looking left in the image. -/
theorem left_case (c : Dev nD) (t : Fin cfg0.N) (d : Nat) (r : Fin 512) (cc : Fin 1024) :
    leftVal (iblk m c 0 t) d r cc = leftN (V m c main_arg0) d (imgOf t) (rowOf t r) cc := by
  unfold leftVal leftN
  by_cases h : d ≤ cc.val
  · rw [dif_pos h, dif_pos h]
    exact tile_read m c t r _
  · rw [dif_neg h, dif_neg h]

/-- WHAT POINT `t` WRITES BACK is block `t` of the affinity maps of the argument. -/
theorem flushed_eq (c : Dev nD) (t : Fin cfg0.N) :
    (dats m 0 c).flushed 2 t = ((cfg0.win 2).blk t).view.read (Elt Ideal) (affinity (V m c main_arg0)) := by
  show (cfg0.win 2).cut (grid0.coords t) ((dats m 0 c).after 2 t) = _
  rw [after2]
  obtain ⟨-, -, -, -, -, -, -, -, e20, e21, e22, e23, e24⟩ := idx_facts t
  funext j
  obtain ⟨k, a1, a2, r, cc, rfl⟩ : ∃ (k : Fin 8) (a1 a2 : Fin 1) (r : Fin 512) (cc : Fin 1024), j = ix5 k a1 a2 r cc :=
    ⟨j 0, j 1, j 2, j 3, j 4, eq_ix5 j⟩
  obtain rfl : a1 = 0 := Subsingleton.elim _ _
  obtain rfl : a2 = 0 := Subsingleton.elim _ _
  have hout : ((cfg0.win 2).blk t).view.emb (ix5 k (0 : Fin 1) (0 : Fin 1) r cc) = ix5 k (imgOf t) (0 : Fin 1) (rowOf t r) cc := by
    funext a; apply Fin.ext
    match a with
    | ⟨0, _⟩ => show win0_2.index t (0 : Fin 5) * 8 + 1 * k.val = k.val; omega
    | ⟨1, _⟩ => show win0_2.index t (1 : Fin 5) * 1 + 1 * 0 = (grid0.coords t 0).val; omega
    | ⟨2, _⟩ => show win0_2.index t (2 : Fin 5) * 1 + 1 * 0 = 0; omega
    | ⟨3, _⟩ => show win0_2.index t (3 : Fin 5) * 512 + 1 * r.val = 512 * (grid0.coords t 1).val + r.val; omega
    | ⟨4, _⟩ => show win0_2.index t (4 : Fin 5) * 1024 + 1 * cc.val = cc.val; omega
  show tileOut (grid0.coords t) (iblk m c 0 t) (iblk m c 1 t) (ix5 k (0 : Fin 1) (0 : Fin 1) r cc)
    = affinity (V m c main_arg0) (((cfg0.win 2).blk t).view.emb (ix5 k (0 : Fin 1) (0 : Fin 1) r cc))
  rw [hout]
  refine (tileOut_at (grid0.coords t) (iblk m c 0 t) (iblk m c 1 t) k r cc).trans ?_
  show _ = same (neighbour (V m c main_arg0) k (imgOf t) (rowOf t r) cc) (V m c main_arg0 (ix4 (imgOf t) (0 : Fin 1) (rowOf t r) cc))
  match k with
  | ⟨0, _⟩ =>
    show same (upVal (grid0.coords t) (iblk m c 0 t) (iblk m c 1 t) 1 (by omega) r cc) _ = same (upN (V m c main_arg0) 1 (imgOf t) (rowOf t r) cc) _
    rw [up_case m c t 1 (by omega) r cc, tile_read m c t r cc]
  | ⟨1, _⟩ =>
    show same (leftVal (iblk m c 0 t) 1 r cc) _ = same (leftN (V m c main_arg0) 1 (imgOf t) (rowOf t r) cc) _
    rw [left_case m c t 1 r cc, tile_read m c t r cc]
  | ⟨2, _⟩ =>
    show same (upVal (grid0.coords t) (iblk m c 0 t) (iblk m c 1 t) 3 (by omega) r cc) _ = same (upN (V m c main_arg0) 3 (imgOf t) (rowOf t r) cc) _
    rw [up_case m c t 3 (by omega) r cc, tile_read m c t r cc]
  | ⟨3, _⟩ =>
    show same (leftVal (iblk m c 0 t) 3 r cc) _ = same (leftN (V m c main_arg0) 3 (imgOf t) (rowOf t r) cc) _
    rw [left_case m c t 3 r cc, tile_read m c t r cc]
  | ⟨4, _⟩ =>
    show same (upVal (grid0.coords t) (iblk m c 0 t) (iblk m c 1 t) 9 (by omega) r cc) _ = same (upN (V m c main_arg0) 9 (imgOf t) (rowOf t r) cc) _
    rw [up_case m c t 9 (by omega) r cc, tile_read m c t r cc]
  | ⟨5, _⟩ =>
    show same (leftVal (iblk m c 0 t) 9 r cc) _ = same (leftN (V m c main_arg0) 9 (imgOf t) (rowOf t r) cc) _
    rw [left_case m c t 9 r cc, tile_read m c t r cc]
  | ⟨6, _⟩ =>
    show same (upVal (grid0.coords t) (iblk m c 0 t) (iblk m c 1 t) 27 (by omega) r cc) _ = same (upN (V m c main_arg0) 27 (imgOf t) (rowOf t r) cc) _
    rw [up_case m c t 27 (by omega) r cc, tile_read m c t r cc]
  | ⟨7, _⟩ =>
    show same (leftVal (iblk m c 0 t) 27 r cc) _ = same (leftN (V m c main_arg0) 27 (imgOf t) (rowOf t r) cc) _
    rw [left_case m c t 27 r cc, tile_read m c t r cc]

/-- An index of the result is in point `t`'s block iff each coordinate is in the block's range on its axis. -/
theorem mem_blk (t : Fin cfg0.N) (i : S8x8x1x1024x1024.Idx) :
    i ∈ ((cfg0.win 2).blk t).view.set ↔ ∀ a : Fin 5, win0_2.index t a * S8x1x1x512x1024.size a ≤ (i a).val
      ∧ (i a).val < win0_2.index t a * S8x1x1x512x1024.size a + S8x1x1x512x1024.size a := by
  show i ∈ ((View.whole main_v0).slice (win0_2.rect t)).set ↔ _
  rw [View.set_slice_whole, Rect.mem_set_unit]
  exact Iff.rfl

/-- Every index of the result is in some point's block: the one of its image and of its half. -/
theorem covered (i : S8x8x1x1024x1024.Idx) :
    ∃ t : Fin cfg0.N, (cfg0.win 2).flush t = true ∧ i ∈ ((cfg0.win 2).blk t).view.set := by
  have h0 : (i 0).val < 8 := (i 0).isLt
  have h1 : (i 1).val < 8 := (i 1).isLt
  have h2 : (i 2).val < 1 := (i 2).isLt
  have h3 : (i 3).val < 1024 := (i 3).isLt
  have h4 : (i 4).val < 1024 := (i 4).isLt
  obtain ⟨t, ht⟩ := idx_onto ⟨(i 1).val, h1⟩ ⟨(i 3).val / 512, by omega⟩
  have q0 : win0_2.index t (0 : Fin 5) = 0 := congrFun ht 0
  have q1 : win0_2.index t (1 : Fin 5) = (i 1).val := congrFun ht 1
  have q2 : win0_2.index t (2 : Fin 5) = 0 := congrFun ht 2
  have q3 : win0_2.index t (3 : Fin 5) = (i 3).val / 512 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 8 ≤ (i 0).val ∧ (i 0).val < win0_2.index t (0 : Fin 5) * 8 + 8; omega
  | ⟨1, _⟩ => show win0_2.index t (1 : Fin 5) * 1 ≤ (i 1).val ∧ (i 1).val < win0_2.index t (1 : Fin 5) * 1 + 1; omega
  | ⟨2, _⟩ => show win0_2.index t (2 : Fin 5) * 1 ≤ (i 2).val ∧ (i 2).val < win0_2.index t (2 : Fin 5) * 1 + 1; omega
  | ⟨3, _⟩ => show win0_2.index t (3 : Fin 5) * 512 ≤ (i 3).val ∧ (i 3).val < win0_2.index t (3 : Fin 5) * 512 + 512; omega
  | ⟨4, _⟩ => show win0_2.index t (4 : Fin 5) * 1024 ≤ (i 4).val ∧ (i 4).val < win0_2.index t (4 : Fin 5) * 1024 + 1024; omega

/-- THE RESULT ARRAY after the run: the affinity maps of the argument. -/
theorem final (c : Dev nD) : (dats m 0 c).arrAt 2 cfg0.N = affinity (m ((c.tc : Thread nD τ).loc main_arg0)) :=
  (dats m 0 c).arrAt_eq_of_cover 2 _ (fun t _ => flushed_eq m c t) covered

/-- The run, read: the result at the affinity maps of the argument, the argument unchanged. -/
theorem run : θ_run defs (onTc (τ := τ) (main (F := Ideal))) ⟨m, fun _ => 0, ρ⟩ fun r => ∀ c : Dev nD,
      r.2.mem ((c.tc : Thread nD τ).loc main_v0) = affinity (m ((c.tc : Thread nD τ).loc main_arg0))
      ∧ r.2.mem ((c.tc : Thread nD τ).loc main_arg0) = m ((c.tc : Thread nD τ).loc main_arg0) :=
  (θ_run defs _ _).mono (fun r h c => ⟨(h c 2).trans (final m c),
      (h c 0).trans (((dats m 0 c).arrAt_in 0 rfl _).trans (A_eq m c 0))⟩)
    (run_main m ρ)

end Cert.KernelIdeal.TileValue

end
-- ==== Proof.RefRun.lean ====
/-
  The reference program as a straight line of 113 operations on tensor values, and what its buffers hold after
  the first k of them.

  Every operation writes ONE buffer, its result's, and no buffer is written twice (the argument never): so after
  the first k operations a buffer holds what its writing operation left there, if that operation is among the
  first k, and its launch contents otherwise -- whatever was run in between. `St V k` is the valuation after the
  first k operations from launch contents `V`; one more operation changes it at that operation's result buffer
  only (`St_succ`, `persist`), and there to the operation's function of what its operands held (`step_*`).
  The run itself: every execution of the program ends with every buffer at `St V 113`.
-/
import proofs.«170590_j71708773974139_2_alg».proof.Proof.Gen.ReferenceIdeal
import Idealize.ShloMosaic.Lib.StableHlo.Run
import Idealize.ShloMosaic.Lib.Pipeline.Frame
import Mathlib.Tactic.IntervalCases
import Mathlib.Tactic.FinCases

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 113 operations, in order (a called function's operations stand in its call's place). -/
abbrev ops : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x1x1024x1024, .f32⟩) main_arg0) (TRef.of (T := ⟨S_, .f32⟩) main_call0_v0) (TRef.of (T := ⟨S8x1x1026x1024, .f32⟩) main_v0) (fun x v => pad S8x1x1026x1024 ![0, 0, 1, 0] ![0, 0, 1, 0] ![0, 0, 0, 0] x v pads_S8x1x1024x1024_S8x1x1026x1024_000_000_110_000 h_S_),
    nullary main_c_0 (constantI S_ 32 0#32),
    nullary main_c_1 (constantI S_ 32 0#32),
    nullary main_c_2 (constantI S_ 32 0#32),
    nullary main_c_3 (constantI S_ 32 0#32),
    unaryIndexed main_v0 ![main_c_0, main_c_1, main_c_2, main_c_3] ⟨S_, .i32⟩ main_v1 ((fun x i => Host.dynamicSlice S8x1x1024x1024 x (fun k => (i k (Shape.Idx.first h_S_)).toInt) sliceFits_S8x1x1026x1024_S8x1x1024x1024) : (⟨S8x1x1026x1024, .f32⟩ : BufTy).Contents (Elt F) → (Fin 4 → (⟨S_, .i32⟩ : BufTy).Contents (Elt F)) → (⟨S8x1x1024x1024, .f32⟩ : BufTy).Contents (Elt F)),
    binary main_v1 main_arg0 main_v2 (subf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst (constant S_ .f32 0x00000000#32),
    unary main_cst main_v3 (broadcastInDim S8x1x1024x1024 ![] bcast_S_S8x1x1024x1024 : (⟨S_, .f32⟩ : BufTy).Contents (Elt F) → (⟨S8x1x1024x1024, .f32⟩ : BufTy).Contents (Elt F)),
    binary main_v2 main_v3 main_v4 (cmpf .oeq : (⟨S8x1x1024x1024, .f32⟩ : BufTy).Contents (Elt F) → (⟨S8x1x1024x1024, .f32⟩ : BufTy).Contents (Elt F) → (⟨S8x1x1024x1024, .i1⟩ : BufTy).Contents (Elt F)),
    unary main_v4 main_v5 (uitofp .f32 : (⟨S8x1x1024x1024, .i1⟩ : BufTy).Contents (Elt F) → (⟨S8x1x1024x1024, .f32⟩ : BufTy).Contents (Elt F)),
    nullary main_c_4 (constantI S_ 32 0#32),
    TRef.unary (TRef.of (T := ⟨S_, .i32⟩) main_c_4) (TRef.of (T := ⟨S_, .f32⟩) main_call1_v0) (sitofp .f32),
    TRef.binary (TRef.of (T := ⟨S8x1x1024x1024, .f32⟩) main_arg0) (TRef.of (T := ⟨S_, .f32⟩) main_call1_v0) (TRef.of (T := ⟨S8x1x1024x1026, .f32⟩) main_v6) (fun x v => pad S8x1x1024x1026 ![0, 0, 0, 1] ![0, 0, 0, 1] ![0, 0, 0, 0] x v pads_S8x1x1024x1024_S8x1x1024x1026_000_000_000_110 h_S_),
    nullary main_c_5 (constantI S_ 32 0#32),
    nullary main_c_6 (constantI S_ 32 0#32),
    nullary main_c_7 (constantI S_ 32 0#32),
    nullary main_c_8 (constantI S_ 32 0#32),
    unaryIndexed main_v6 ![main_c_5, main_c_6, main_c_7, main_c_8] ⟨S_, .i32⟩ main_v7 ((fun x i => Host.dynamicSlice S8x1x1024x1024 x (fun k => (i k (Shape.Idx.first h_S_)).toInt) sliceFits_S8x1x1024x1026_S8x1x1024x1024) : (⟨S8x1x1024x1026, .f32⟩ : BufTy).Contents (Elt F) → (Fin 4 → (⟨S_, .i32⟩ : BufTy).Contents (Elt F)) → (⟨S8x1x1024x1024, .f32⟩ : BufTy).Contents (Elt F)),
    binary main_v7 main_arg0 main_v8 (subf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_9 (constant S_ .f32 0x00000000#32),
    unary main_cst_9 main_v9 (broadcastInDim S8x1x1024x1024 ![] bcast_S_S8x1x1024x1024 : (⟨S_, .f32⟩ : BufTy).Contents (Elt F) → (⟨S8x1x1024x1024, .f32⟩ : BufTy).Contents (Elt F)),
    binary main_v8 main_v9 main_v10 (cmpf .oeq : (⟨S8x1x1024x1024, .f32⟩ : BufTy).Contents (Elt F) → (⟨S8x1x1024x1024, .f32⟩ : BufTy).Contents (Elt F) → (⟨S8x1x1024x1024, .i1⟩ : BufTy).Contents (Elt F)),
    unary main_v10 main_v11 (uitofp .f32 : (⟨S8x1x1024x1024, .i1⟩ : BufTy).Contents (Elt F) → (⟨S8x1x1024x1024, .f32⟩ : BufTy).Contents (Elt F)),
    nullary main_c_10 (constantI S_ 32 0#32),
    TRef.unary (TRef.of (T := ⟨S_, .i32⟩) main_c_10) (TRef.of (T := ⟨S_, .f32⟩) main_call2_v0) (sitofp .f32),
    TRef.binary (TRef.of (T := ⟨S8x1x1024x1024, .f32⟩) main_arg0) (TRef.of (T := ⟨S_, .f32⟩) main_call2_v0) (TRef.of (T := ⟨S8x1x1030x1024, .f32⟩) main_v12) (fun x v => pad S8x1x1030x1024 ![0, 0, 3, 0] ![0, 0, 3, 0] ![0, 0, 0, 0] x v pads_S8x1x1024x1024_S8x1x1030x1024_000_000_330_000 h_S_),
    nullary main_c_11 (constantI S_ 32 0#32),
    nullary main_c_12 (constantI S_ 32 0#32),
    nullary main_c_13 (constantI S_ 32 0#32),
    nullary main_c_14 (constantI S_ 32 0#32),
    unaryIndexed main_v12 ![main_c_11, main_c_12, main_c_13, main_c_14] ⟨S_, .i32⟩ main_v13 ((fun x i => Host.dynamicSlice S8x1x1024x1024 x (fun k => (i k (Shape.Idx.first h_S_)).toInt) sliceFits_S8x1x1030x1024_S8x1x1024x1024) : (⟨S8x1x1030x1024, .f32⟩ : BufTy).Contents (Elt F) → (Fin 4 → (⟨S_, .i32⟩ : BufTy).Contents (Elt F)) → (⟨S8x1x1024x1024, .f32⟩ : BufTy).Contents (Elt F)),
    binary main_v13 main_arg0 main_v14 (subf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_15 (constant S_ .f32 0x00000000#32),
    unary main_cst_15 main_v15 (broadcastInDim S8x1x1024x1024 ![] bcast_S_S8x1x1024x1024 : (⟨S_, .f32⟩ : BufTy).Contents (Elt F) → (⟨S8x1x1024x1024, .f32⟩ : BufTy).Contents (Elt F)),
    binary main_v14 main_v15 main_v16 (cmpf .oeq : (⟨S8x1x1024x1024, .f32⟩ : BufTy).Contents (Elt F) → (⟨S8x1x1024x1024, .f32⟩ : BufTy).Contents (Elt F) → (⟨S8x1x1024x1024, .i1⟩ : BufTy).Contents (Elt F)),
    unary main_v16 main_v17 (uitofp .f32 : (⟨S8x1x1024x1024, .i1⟩ : BufTy).Contents (Elt F) → (⟨S8x1x1024x1024, .f32⟩ : BufTy).Contents (Elt F)),
    nullary main_c_16 (constantI S_ 32 0#32),
    TRef.unary (TRef.of (T := ⟨S_, .i32⟩) main_c_16) (TRef.of (T := ⟨S_, .f32⟩) main_call3_v0) (sitofp .f32),
    TRef.binary (TRef.of (T := ⟨S8x1x1024x1024, .f32⟩) main_arg0) (TRef.of (T := ⟨S_, .f32⟩) main_call3_v0) (TRef.of (T := ⟨S8x1x1024x1030, .f32⟩) main_v18) (fun x v => pad S8x1x1024x1030 ![0, 0, 0, 3] ![0, 0, 0, 3] ![0, 0, 0, 0] x v pads_S8x1x1024x1024_S8x1x1024x1030_000_000_000_330 h_S_),
    nullary main_c_17 (constantI S_ 32 0#32),
    nullary main_c_18 (constantI S_ 32 0#32),
    nullary main_c_19 (constantI S_ 32 0#32),
    nullary main_c_20 (constantI S_ 32 0#32),
    unaryIndexed main_v18 ![main_c_17, main_c_18, main_c_19, main_c_20] ⟨S_, .i32⟩ main_v19 ((fun x i => Host.dynamicSlice S8x1x1024x1024 x (fun k => (i k (Shape.Idx.first h_S_)).toInt) sliceFits_S8x1x1024x1030_S8x1x1024x1024) : (⟨S8x1x1024x1030, .f32⟩ : BufTy).Contents (Elt F) → (Fin 4 → (⟨S_, .i32⟩ : BufTy).Contents (Elt F)) → (⟨S8x1x1024x1024, .f32⟩ : BufTy).Contents (Elt F)),
    binary main_v19 main_arg0 main_v20 (subf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_21 (constant S_ .f32 0x00000000#32),
    unary main_cst_21 main_v21 (broadcastInDim S8x1x1024x1024 ![] bcast_S_S8x1x1024x1024 : (⟨S_, .f32⟩ : BufTy).Contents (Elt F) → (⟨S8x1x1024x1024, .f32⟩ : BufTy).Contents (Elt F)),
    binary main_v20 main_v21 main_v22 (cmpf .oeq : (⟨S8x1x1024x1024, .f32⟩ : BufTy).Contents (Elt F) → (⟨S8x1x1024x1024, .f32⟩ : BufTy).Contents (Elt F) → (⟨S8x1x1024x1024, .i1⟩ : BufTy).Contents (Elt F)),
    unary main_v22 main_v23 (uitofp .f32 : (⟨S8x1x1024x1024, .i1⟩ : BufTy).Contents (Elt F) → (⟨S8x1x1024x1024, .f32⟩ : BufTy).Contents (Elt F)),
    nullary main_c_22 (constantI S_ 32 0#32),
    TRef.unary (TRef.of (T := ⟨S_, .i32⟩) main_c_22) (TRef.of (T := ⟨S_, .f32⟩) main_call4_v0) (sitofp .f32),
    TRef.binary (TRef.of (T := ⟨S8x1x1024x1024, .f32⟩) main_arg0) (TRef.of (T := ⟨S_, .f32⟩) main_call4_v0) (TRef.of (T := ⟨S8x1x1042x1024, .f32⟩) main_v24) (fun x v => pad S8x1x1042x1024 ![0, 0, 9, 0] ![0, 0, 9, 0] ![0, 0, 0, 0] x v pads_S8x1x1024x1024_S8x1x1042x1024_000_000_990_000 h_S_),
    nullary main_c_23 (constantI S_ 32 0#32),
    nullary main_c_24 (constantI S_ 32 0#32),
    nullary main_c_25 (constantI S_ 32 0#32),
    nullary main_c_26 (constantI S_ 32 0#32),
    unaryIndexed main_v24 ![main_c_23, main_c_24, main_c_25, main_c_26] ⟨S_, .i32⟩ main_v25 ((fun x i => Host.dynamicSlice S8x1x1024x1024 x (fun k => (i k (Shape.Idx.first h_S_)).toInt) sliceFits_S8x1x1042x1024_S8x1x1024x1024) : (⟨S8x1x1042x1024, .f32⟩ : BufTy).Contents (Elt F) → (Fin 4 → (⟨S_, .i32⟩ : BufTy).Contents (Elt F)) → (⟨S8x1x1024x1024, .f32⟩ : BufTy).Contents (Elt F)),
    binary main_v25 main_arg0 main_v26 (subf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_27 (constant S_ .f32 0x00000000#32),
    unary main_cst_27 main_v27 (broadcastInDim S8x1x1024x1024 ![] bcast_S_S8x1x1024x1024 : (⟨S_, .f32⟩ : BufTy).Contents (Elt F) → (⟨S8x1x1024x1024, .f32⟩ : BufTy).Contents (Elt F)),
    binary main_v26 main_v27 main_v28 (cmpf .oeq : (⟨S8x1x1024x1024, .f32⟩ : BufTy).Contents (Elt F) → (⟨S8x1x1024x1024, .f32⟩ : BufTy).Contents (Elt F) → (⟨S8x1x1024x1024, .i1⟩ : BufTy).Contents (Elt F)),
    unary main_v28 main_v29 (uitofp .f32 : (⟨S8x1x1024x1024, .i1⟩ : BufTy).Contents (Elt F) → (⟨S8x1x1024x1024, .f32⟩ : BufTy).Contents (Elt F)),
    nullary main_c_28 (constantI S_ 32 0#32),
    TRef.unary (TRef.of (T := ⟨S_, .i32⟩) main_c_28) (TRef.of (T := ⟨S_, .f32⟩) main_call5_v0) (sitofp .f32),
    TRef.binary (TRef.of (T := ⟨S8x1x1024x1024, .f32⟩) main_arg0) (TRef.of (T := ⟨S_, .f32⟩) main_call5_v0) (TRef.of (T := ⟨S8x1x1024x1042, .f32⟩) main_v30) (fun x v => pad S8x1x1024x1042 ![0, 0, 0, 9] ![0, 0, 0, 9] ![0, 0, 0, 0] x v pads_S8x1x1024x1024_S8x1x1024x1042_000_000_000_990 h_S_),
    nullary main_c_29 (constantI S_ 32 0#32),
    nullary main_c_30 (constantI S_ 32 0#32),
    nullary main_c_31 (constantI S_ 32 0#32),
    nullary main_c_32 (constantI S_ 32 0#32),
    unaryIndexed main_v30 ![main_c_29, main_c_30, main_c_31, main_c_32] ⟨S_, .i32⟩ main_v31 ((fun x i => Host.dynamicSlice S8x1x1024x1024 x (fun k => (i k (Shape.Idx.first h_S_)).toInt) sliceFits_S8x1x1024x1042_S8x1x1024x1024) : (⟨S8x1x1024x1042, .f32⟩ : BufTy).Contents (Elt F) → (Fin 4 → (⟨S_, .i32⟩ : BufTy).Contents (Elt F)) → (⟨S8x1x1024x1024, .f32⟩ : BufTy).Contents (Elt F)),
    binary main_v31 main_arg0 main_v32 (subf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_33 (constant S_ .f32 0x00000000#32),
    unary main_cst_33 main_v33 (broadcastInDim S8x1x1024x1024 ![] bcast_S_S8x1x1024x1024 : (⟨S_, .f32⟩ : BufTy).Contents (Elt F) → (⟨S8x1x1024x1024, .f32⟩ : BufTy).Contents (Elt F)),
    binary main_v32 main_v33 main_v34 (cmpf .oeq : (⟨S8x1x1024x1024, .f32⟩ : BufTy).Contents (Elt F) → (⟨S8x1x1024x1024, .f32⟩ : BufTy).Contents (Elt F) → (⟨S8x1x1024x1024, .i1⟩ : BufTy).Contents (Elt F)),
    unary main_v34 main_v35 (uitofp .f32 : (⟨S8x1x1024x1024, .i1⟩ : BufTy).Contents (Elt F) → (⟨S8x1x1024x1024, .f32⟩ : BufTy).Contents (Elt F)),
    nullary main_c_34 (constantI S_ 32 0#32),
    TRef.unary (TRef.of (T := ⟨S_, .i32⟩) main_c_34) (TRef.of (T := ⟨S_, .f32⟩) main_call6_v0) (sitofp .f32),
    TRef.binary (TRef.of (T := ⟨S8x1x1024x1024, .f32⟩) main_arg0) (TRef.of (T := ⟨S_, .f32⟩) main_call6_v0) (TRef.of (T := ⟨S8x1x1078x1024, .f32⟩) main_v36) (fun x v => pad S8x1x1078x1024 ![0, 0, 27, 0] ![0, 0, 27, 0] ![0, 0, 0, 0] x v pads_S8x1x1024x1024_S8x1x1078x1024_000_000_27270_000 h_S_),
    nullary main_c_35 (constantI S_ 32 0#32),
    nullary main_c_36 (constantI S_ 32 0#32),
    nullary main_c_37 (constantI S_ 32 0#32),
    nullary main_c_38 (constantI S_ 32 0#32),
    unaryIndexed main_v36 ![main_c_35, main_c_36, main_c_37, main_c_38] ⟨S_, .i32⟩ main_v37 ((fun x i => Host.dynamicSlice S8x1x1024x1024 x (fun k => (i k (Shape.Idx.first h_S_)).toInt) sliceFits_S8x1x1078x1024_S8x1x1024x1024) : (⟨S8x1x1078x1024, .f32⟩ : BufTy).Contents (Elt F) → (Fin 4 → (⟨S_, .i32⟩ : BufTy).Contents (Elt F)) → (⟨S8x1x1024x1024, .f32⟩ : BufTy).Contents (Elt F)),
    binary main_v37 main_arg0 main_v38 (subf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_39 (constant S_ .f32 0x00000000#32),
    unary main_cst_39 main_v39 (broadcastInDim S8x1x1024x1024 ![] bcast_S_S8x1x1024x1024 : (⟨S_, .f32⟩ : BufTy).Contents (Elt F) → (⟨S8x1x1024x1024, .f32⟩ : BufTy).Contents (Elt F)),
    binary main_v38 main_v39 main_v40 (cmpf .oeq : (⟨S8x1x1024x1024, .f32⟩ : BufTy).Contents (Elt F) → (⟨S8x1x1024x1024, .f32⟩ : BufTy).Contents (Elt F) → (⟨S8x1x1024x1024, .i1⟩ : BufTy).Contents (Elt F)),
    unary main_v40 main_v41 (uitofp .f32 : (⟨S8x1x1024x1024, .i1⟩ : BufTy).Contents (Elt F) → (⟨S8x1x1024x1024, .f32⟩ : BufTy).Contents (Elt F)),
    nullary main_c_40 (constantI S_ 32 0#32),
    TRef.unary (TRef.of (T := ⟨S_, .i32⟩) main_c_40) (TRef.of (T := ⟨S_, .f32⟩) main_call7_v0) (sitofp .f32),
    TRef.binary (TRef.of (T := ⟨S8x1x1024x1024, .f32⟩) main_arg0) (TRef.of (T := ⟨S_, .f32⟩) main_call7_v0) (TRef.of (T := ⟨S8x1x1024x1078, .f32⟩) main_v42) (fun x v => pad S8x1x1024x1078 ![0, 0, 0, 27] ![0, 0, 0, 27] ![0, 0, 0, 0] x v pads_S8x1x1024x1024_S8x1x1024x1078_000_000_000_27270 h_S_),
    nullary main_c_41 (constantI S_ 32 0#32),
    nullary main_c_42 (constantI S_ 32 0#32),
    nullary main_c_43 (constantI S_ 32 0#32),
    nullary main_c_44 (constantI S_ 32 0#32),
    unaryIndexed main_v42 ![main_c_41, main_c_42, main_c_43, main_c_44] ⟨S_, .i32⟩ main_v43 ((fun x i => Host.dynamicSlice S8x1x1024x1024 x (fun k => (i k (Shape.Idx.first h_S_)).toInt) sliceFits_S8x1x1024x1078_S8x1x1024x1024) : (⟨S8x1x1024x1078, .f32⟩ : BufTy).Contents (Elt F) → (Fin 4 → (⟨S_, .i32⟩ : BufTy).Contents (Elt F)) → (⟨S8x1x1024x1024, .f32⟩ : BufTy).Contents (Elt F)),
    binary main_v43 main_arg0 main_v44 (subf : (⟨S8x1x1024x1024, .f32⟩ : BufTy).Contents (Elt F) → (⟨S8x1x1024x1024, .f32⟩ : BufTy).Contents (Elt F) → (⟨S8x1x1024x1024, .f32⟩ : BufTy).Contents (Elt F)),
    nullary main_cst_45 (constant S_ .f32 0x00000000#32),
    unary main_cst_45 main_v45 (broadcastInDim S8x1x1024x1024 ![] bcast_S_S8x1x1024x1024 : (⟨S_, .f32⟩ : BufTy).Contents (Elt F) → (⟨S8x1x1024x1024, .f32⟩ : BufTy).Contents (Elt F)),
    binary main_v44 main_v45 main_v46 (cmpf .oeq : (⟨S8x1x1024x1024, .f32⟩ : BufTy).Contents (Elt F) → (⟨S8x1x1024x1024, .f32⟩ : BufTy).Contents (Elt F) → (⟨S8x1x1024x1024, .i1⟩ : BufTy).Contents (Elt F)),
    unary main_v46 main_v47 (uitofp .f32 : (⟨S8x1x1024x1024, .i1⟩ : BufTy).Contents (Elt F) → (⟨S8x1x1024x1024, .f32⟩ : BufTy).Contents (Elt F)),
    unary main_v5 main_v48 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)),
    unary main_v11 main_v49 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)),
    unary main_v17 main_v50 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)),
    unary main_v23 main_v51 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)),
    unary main_v29 main_v52 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)),
    unary main_v35 main_v53 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)),
    unary main_v41 main_v54 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)),
    unary main_v47 main_v55 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)),
    nary ![main_v48, main_v49, main_v50, main_v51, main_v52, main_v53, main_v54, main_v55] main_v56 (fun u => concatenate S8x8x1x1024x1024 0 [⟨S1x8x1x1024x1024, u 0⟩, ⟨S1x8x1x1024x1024, u 1⟩, ⟨S1x8x1x1024x1024, u 2⟩, ⟨S1x8x1x1024x1024, u 3⟩, ⟨S1x8x1x1024x1024, u 4⟩, ⟨S1x8x1x1024x1024, u 5⟩, ⟨S1x8x1x1024x1024, u 6⟩, ⟨S1x8x1x1024x1024, u 7⟩] concatenates_S1x8x1x1024x1024_S1x8x1x1024x1024_S1x8x1x1024x1024_S1x8x1x1024x1024_S1x8x1x1024x1024_S1x8x1x1024x1024_S1x8x1x1024x1024_S1x8x1x1024x1024_S8x8x1x1024x1024_d0) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., nullary_bufs_sub .., nullary_bufs_sub .., nullary_bufs_sub .., unaryIndexed_bufs_sub .., binary_bufs_sub .., nullary_bufs_sub .., unary_bufs_sub .., binary_bufs_sub .., unary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., unary_bufs_sub .., binary_bufs_sub .., unary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., unary_bufs_sub .., binary_bufs_sub .., unary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., unary_bufs_sub .., binary_bufs_sub .., unary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., unary_bufs_sub .., binary_bufs_sub .., unary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., unary_bufs_sub .., binary_bufs_sub .., unary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., unary_bufs_sub .., binary_bufs_sub .., unary_bufs_sub .., nullary_bufs_sub .., unary_bufs_sub .., binary_bufs_sub .., nullary_bufs_sub .., nullary_bufs_sub .., nullary_bufs_sub .., nullary_bufs_sub .., unaryIndexed_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub ..⟩

/-! ## The buffers after the first k operations -/

/-- The buffer each operation writes, in order. -/
def written : List (Ref sig .tc) := [main_c, main_call0_v0, main_v0, main_c_0, main_c_1, main_c_2, main_c_3, main_v1, main_v2, main_cst, main_v3, main_v4, main_v5, main_c_4, main_call1_v0, main_v6, main_c_5, main_c_6, main_c_7, main_c_8, main_v7, main_v8, main_cst_9, main_v9, main_v10, main_v11, main_c_10, main_call2_v0, main_v12, main_c_11, main_c_12, main_c_13, main_c_14, main_v13, main_v14, main_cst_15, main_v15, main_v16, main_v17, main_c_16, main_call3_v0, main_v18, main_c_17, main_c_18, main_c_19, main_c_20, main_v19, main_v20, main_cst_21, main_v21, main_v22, main_v23, main_c_22, main_call4_v0, main_v24, main_c_23, main_c_24, main_c_25, main_c_26, main_v25, main_v26, main_cst_27, main_v27, main_v28, main_v29, main_c_28, main_call5_v0, main_v30, main_c_29, main_c_30, main_c_31, main_c_32, main_v31, main_v32, main_cst_33, main_v33, main_v34, main_v35, main_c_34, main_call6_v0, main_v36, main_c_35, main_c_36, main_c_37, main_c_38, main_v37, main_v38, main_cst_39, main_v39, main_v40, main_v41, main_c_40, main_call7_v0, main_v42, main_c_41, main_c_42, main_c_43, main_c_44, main_v43, main_v44, main_cst_45, main_v45, main_v46, main_v47, main_v48, main_v49, main_v50, main_v51, main_v52, main_v53, main_v54, main_v55, main_v56]

/-- The buffer operation `k` writes. -/
def wrN (k : Nat) : Ref sig .tc := written.getD k main_arg0

theorem ops_length : (ops (F := F)).length = 113 := rfl

/-- The buffers' contents after the first `k` operations, from contents `V`. -/
def St (V : Valuation τ sig (Elt F)) (k : Nat) : Valuation τ sig (Elt F) := after ((ops (F := F)).take k) V

theorem St_zero (V : Valuation τ sig (Elt F)) : St V 0 = V := rfl

theorem St_last (V : Valuation τ sig (Elt F)) : St V 113 = after (ops (F := F)) V := by
  unfold St; rw [List.take_of_length_le (Nat.le_of_eq ops_length)]

/-- One more operation. -/
theorem St_succ (V : Valuation τ sig (Elt F)) (k : Nat) (hk : k < (ops (F := F)).length) :
    St V (k + 1) = ((ops (F := F))[k]'hk).result (St V k) := by
  unfold St
  rw [List.take_succ_eq_append_getElem hk, StableHlo.after_append]
  rfl

set_option maxRecDepth 8192 in
/-- Operation `k` writes the `k`-th listed buffer and no other. -/
theorem writes_at (k : Nat) (hk : k < (ops (F := F)).length) :
    ((ops (F := F))[k]'hk).writes = {Proc.devRef .tc (wrN k)} := by
  have hk' : k < 113 := hk
  interval_cases k <;> rfl

/-- A buffer none of the operations `lo` .. `hi - 1` writes holds after `hi` of them what it held after `lo`. -/
theorem persist (V : Valuation τ sig (Elt F)) (r : Ref sig .tc) (lo : Nat) :
    ∀ hi, lo ≤ hi → hi ≤ 113 → (∀ k, k < hi → lo ≤ k → wrN k ≠ r) →
      St V hi (Proc.devRef .tc r) = St V lo (Proc.devRef .tc r) := by
  intro hi
  induction hi with
  | zero => intro h1 _ _; have : lo = 0 := by omega
            subst this; rfl
  | succ n ih =>
    intro h1 h2 hw
    by_cases hlo : lo = n + 1
    · subst hlo; rfl
    · have hn : n < (ops (F := F)).length := by rw [ops_length]; omega
      rw [St_succ V n hn, HloOp.result_of_not_mem _ _ (by
        rw [writes_at n hn, Finset.mem_singleton]
        exact devRef_ne_of_ne (Ne.symm (hw n (by omega) (by omega))))]
      exact ih (by omega) (by omega) (fun k hk hl => hw k (by omega) hl)

/-! ## Stage by stage -/

set_option maxRecDepth 8192
theorem stage1 (V : Valuation τ sig (Elt F)) :
    St V 1 = (nullary main_c (constantI S_ 32 0#32) : HloOp τ sig (Elt F)).result (St V 0) :=
  St_succ V 0 (by rw [ops_length]; omega)
theorem stage2 (V : Valuation τ sig (Elt F)) :
    St V 2 = (TRef.unary (TRef.of (T := ⟨S_, .i32⟩) main_c) (TRef.of (T := ⟨S_, .f32⟩) main_call0_v0) (sitofp .f32) : HloOp τ sig (Elt F)).result (St V 1) :=
  St_succ V 1 (by rw [ops_length]; omega)
theorem stage3 (V : Valuation τ sig (Elt F)) :
    St V 3 = (TRef.binary (TRef.of (T := ⟨S8x1x1024x1024, .f32⟩) main_arg0) (TRef.of (T := ⟨S_, .f32⟩) main_call0_v0) (TRef.of (T := ⟨S8x1x1026x1024, .f32⟩) main_v0) (fun x v => pad S8x1x1026x1024 ![0, 0, 1, 0] ![0, 0, 1, 0] ![0, 0, 0, 0] x v pads_S8x1x1024x1024_S8x1x1026x1024_000_000_110_000 h_S_) : HloOp τ sig (Elt F)).result (St V 2) :=
  St_succ V 2 (by rw [ops_length]; omega)
theorem stage4 (V : Valuation τ sig (Elt F)) :
    St V 4 = (nullary main_c_0 (constantI S_ 32 0#32) : HloOp τ sig (Elt F)).result (St V 3) :=
  St_succ V 3 (by rw [ops_length]; omega)
theorem stage5 (V : Valuation τ sig (Elt F)) :
    St V 5 = (nullary main_c_1 (constantI S_ 32 0#32) : HloOp τ sig (Elt F)).result (St V 4) :=
  St_succ V 4 (by rw [ops_length]; omega)
theorem stage6 (V : Valuation τ sig (Elt F)) :
    St V 6 = (nullary main_c_2 (constantI S_ 32 0#32) : HloOp τ sig (Elt F)).result (St V 5) :=
  St_succ V 5 (by rw [ops_length]; omega)
theorem stage7 (V : Valuation τ sig (Elt F)) :
    St V 7 = (nullary main_c_3 (constantI S_ 32 0#32) : HloOp τ sig (Elt F)).result (St V 6) :=
  St_succ V 6 (by rw [ops_length]; omega)
theorem stage8 (V : Valuation τ sig (Elt F)) :
    St V 8 = (unaryIndexed main_v0 ![main_c_0, main_c_1, main_c_2, main_c_3] ⟨S_, .i32⟩ main_v1 ((fun x i => Host.dynamicSlice S8x1x1024x1024 x (fun k => (i k (Shape.Idx.first h_S_)).toInt) sliceFits_S8x1x1026x1024_S8x1x1024x1024) : (⟨S8x1x1026x1024, .f32⟩ : BufTy).Contents (Elt F) → (Fin 4 → (⟨S_, .i32⟩ : BufTy).Contents (Elt F)) → (⟨S8x1x1024x1024, .f32⟩ : BufTy).Contents (Elt F)) : HloOp τ sig (Elt F)).result (St V 7) :=
  St_succ V 7 (by rw [ops_length]; omega)
theorem stage9 (V : Valuation τ sig (Elt F)) :
    St V 9 = (binary main_v1 main_arg0 main_v2 (subf : (⟨S8x1x1024x1024, .f32⟩ : BufTy).Contents (Elt F) → (⟨S8x1x1024x1024, .f32⟩ : BufTy).Contents (Elt F) → (⟨S8x1x1024x1024, .f32⟩ : BufTy).Contents (Elt F)) : HloOp τ sig (Elt F)).result (St V 8) :=
  St_succ V 8 (by rw [ops_length]; omega)
theorem stage10 (V : Valuation τ sig (Elt F)) :
    St V 10 = (nullary main_cst (constant S_ .f32 0x00000000#32) : HloOp τ sig (Elt F)).result (St V 9) :=
  St_succ V 9 (by rw [ops_length]; omega)
theorem stage11 (V : Valuation τ sig (Elt F)) :
    St V 11 = (unary main_cst main_v3 (broadcastInDim S8x1x1024x1024 ![] bcast_S_S8x1x1024x1024 : (⟨S_, .f32⟩ : BufTy).Contents (Elt F) → (⟨S8x1x1024x1024, .f32⟩ : BufTy).Contents (Elt F)) : HloOp τ sig (Elt F)).result (St V 10) :=
  St_succ V 10 (by rw [ops_length]; omega)
theorem stage12 (V : Valuation τ sig (Elt F)) :
    St V 12 = (binary main_v2 main_v3 main_v4 (cmpf .oeq : (⟨S8x1x1024x1024, .f32⟩ : BufTy).Contents (Elt F) → (⟨S8x1x1024x1024, .f32⟩ : BufTy).Contents (Elt F) → (⟨S8x1x1024x1024, .i1⟩ : BufTy).Contents (Elt F)) : HloOp τ sig (Elt F)).result (St V 11) :=
  St_succ V 11 (by rw [ops_length]; omega)
theorem stage13 (V : Valuation τ sig (Elt F)) :
    St V 13 = (unary main_v4 main_v5 (uitofp .f32 : (⟨S8x1x1024x1024, .i1⟩ : BufTy).Contents (Elt F) → (⟨S8x1x1024x1024, .f32⟩ : BufTy).Contents (Elt F)) : HloOp τ sig (Elt F)).result (St V 12) :=
  St_succ V 12 (by rw [ops_length]; omega)
theorem stage14 (V : Valuation τ sig (Elt F)) :
    St V 14 = (nullary main_c_4 (constantI S_ 32 0#32) : HloOp τ sig (Elt F)).result (St V 13) :=
  St_succ V 13 (by rw [ops_length]; omega)
theorem stage15 (V : Valuation τ sig (Elt F)) :
    St V 15 = (TRef.unary (TRef.of (T := ⟨S_, .i32⟩) main_c_4) (TRef.of (T := ⟨S_, .f32⟩) main_call1_v0) (sitofp .f32) : HloOp τ sig (Elt F)).result (St V 14) :=
  St_succ V 14 (by rw [ops_length]; omega)
theorem stage16 (V : Valuation τ sig (Elt F)) :
    St V 16 = (TRef.binary (TRef.of (T := ⟨S8x1x1024x1024, .f32⟩) main_arg0) (TRef.of (T := ⟨S_, .f32⟩) main_call1_v0) (TRef.of (T := ⟨S8x1x1024x1026, .f32⟩) main_v6) (fun x v => pad S8x1x1024x1026 ![0, 0, 0, 1] ![0, 0, 0, 1] ![0, 0, 0, 0] x v pads_S8x1x1024x1024_S8x1x1024x1026_000_000_000_110 h_S_) : HloOp τ sig (Elt F)).result (St V 15) :=
  St_succ V 15 (by rw [ops_length]; omega)
theorem stage17 (V : Valuation τ sig (Elt F)) :
    St V 17 = (nullary main_c_5 (constantI S_ 32 0#32) : HloOp τ sig (Elt F)).result (St V 16) :=
  St_succ V 16 (by rw [ops_length]; omega)
theorem stage18 (V : Valuation τ sig (Elt F)) :
    St V 18 = (nullary main_c_6 (constantI S_ 32 0#32) : HloOp τ sig (Elt F)).result (St V 17) :=
  St_succ V 17 (by rw [ops_length]; omega)
theorem stage19 (V : Valuation τ sig (Elt F)) :
    St V 19 = (nullary main_c_7 (constantI S_ 32 0#32) : HloOp τ sig (Elt F)).result (St V 18) :=
  St_succ V 18 (by rw [ops_length]; omega)
theorem stage20 (V : Valuation τ sig (Elt F)) :
    St V 20 = (nullary main_c_8 (constantI S_ 32 0#32) : HloOp τ sig (Elt F)).result (St V 19) :=
  St_succ V 19 (by rw [ops_length]; omega)
theorem stage21 (V : Valuation τ sig (Elt F)) :
    St V 21 = (unaryIndexed main_v6 ![main_c_5, main_c_6, main_c_7, main_c_8] ⟨S_, .i32⟩ main_v7 ((fun x i => Host.dynamicSlice S8x1x1024x1024 x (fun k => (i k (Shape.Idx.first h_S_)).toInt) sliceFits_S8x1x1024x1026_S8x1x1024x1024) : (⟨S8x1x1024x1026, .f32⟩ : BufTy).Contents (Elt F) → (Fin 4 → (⟨S_, .i32⟩ : BufTy).Contents (Elt F)) → (⟨S8x1x1024x1024, .f32⟩ : BufTy).Contents (Elt F)) : HloOp τ sig (Elt F)).result (St V 20) :=
  St_succ V 20 (by rw [ops_length]; omega)
theorem stage22 (V : Valuation τ sig (Elt F)) :
    St V 22 = (binary main_v7 main_arg0 main_v8 (subf : (⟨S8x1x1024x1024, .f32⟩ : BufTy).Contents (Elt F) → (⟨S8x1x1024x1024, .f32⟩ : BufTy).Contents (Elt F) → (⟨S8x1x1024x1024, .f32⟩ : BufTy).Contents (Elt F)) : HloOp τ sig (Elt F)).result (St V 21) :=
  St_succ V 21 (by rw [ops_length]; omega)
theorem stage23 (V : Valuation τ sig (Elt F)) :
    St V 23 = (nullary main_cst_9 (constant S_ .f32 0x00000000#32) : HloOp τ sig (Elt F)).result (St V 22) :=
  St_succ V 22 (by rw [ops_length]; omega)
theorem stage24 (V : Valuation τ sig (Elt F)) :
    St V 24 = (unary main_cst_9 main_v9 (broadcastInDim S8x1x1024x1024 ![] bcast_S_S8x1x1024x1024 : (⟨S_, .f32⟩ : BufTy).Contents (Elt F) → (⟨S8x1x1024x1024, .f32⟩ : BufTy).Contents (Elt F)) : HloOp τ sig (Elt F)).result (St V 23) :=
  St_succ V 23 (by rw [ops_length]; omega)
theorem stage25 (V : Valuation τ sig (Elt F)) :
    St V 25 = (binary main_v8 main_v9 main_v10 (cmpf .oeq : (⟨S8x1x1024x1024, .f32⟩ : BufTy).Contents (Elt F) → (⟨S8x1x1024x1024, .f32⟩ : BufTy).Contents (Elt F) → (⟨S8x1x1024x1024, .i1⟩ : BufTy).Contents (Elt F)) : HloOp τ sig (Elt F)).result (St V 24) :=
  St_succ V 24 (by rw [ops_length]; omega)
theorem stage26 (V : Valuation τ sig (Elt F)) :
    St V 26 = (unary main_v10 main_v11 (uitofp .f32 : (⟨S8x1x1024x1024, .i1⟩ : BufTy).Contents (Elt F) → (⟨S8x1x1024x1024, .f32⟩ : BufTy).Contents (Elt F)) : HloOp τ sig (Elt F)).result (St V 25) :=
  St_succ V 25 (by rw [ops_length]; omega)
theorem stage27 (V : Valuation τ sig (Elt F)) :
    St V 27 = (nullary main_c_10 (constantI S_ 32 0#32) : HloOp τ sig (Elt F)).result (St V 26) :=
  St_succ V 26 (by rw [ops_length]; omega)
theorem stage28 (V : Valuation τ sig (Elt F)) :
    St V 28 = (TRef.unary (TRef.of (T := ⟨S_, .i32⟩) main_c_10) (TRef.of (T := ⟨S_, .f32⟩) main_call2_v0) (sitofp .f32) : HloOp τ sig (Elt F)).result (St V 27) :=
  St_succ V 27 (by rw [ops_length]; omega)
theorem stage29 (V : Valuation τ sig (Elt F)) :
    St V 29 = (TRef.binary (TRef.of (T := ⟨S8x1x1024x1024, .f32⟩) main_arg0) (TRef.of (T := ⟨S_, .f32⟩) main_call2_v0) (TRef.of (T := ⟨S8x1x1030x1024, .f32⟩) main_v12) (fun x v => pad S8x1x1030x1024 ![0, 0, 3, 0] ![0, 0, 3, 0] ![0, 0, 0, 0] x v pads_S8x1x1024x1024_S8x1x1030x1024_000_000_330_000 h_S_) : HloOp τ sig (Elt F)).result (St V 28) :=
  St_succ V 28 (by rw [ops_length]; omega)
theorem stage30 (V : Valuation τ sig (Elt F)) :
    St V 30 = (nullary main_c_11 (constantI S_ 32 0#32) : HloOp τ sig (Elt F)).result (St V 29) :=
  St_succ V 29 (by rw [ops_length]; omega)
theorem stage31 (V : Valuation τ sig (Elt F)) :
    St V 31 = (nullary main_c_12 (constantI S_ 32 0#32) : HloOp τ sig (Elt F)).result (St V 30) :=
  St_succ V 30 (by rw [ops_length]; omega)
theorem stage32 (V : Valuation τ sig (Elt F)) :
    St V 32 = (nullary main_c_13 (constantI S_ 32 0#32) : HloOp τ sig (Elt F)).result (St V 31) :=
  St_succ V 31 (by rw [ops_length]; omega)
theorem stage33 (V : Valuation τ sig (Elt F)) :
    St V 33 = (nullary main_c_14 (constantI S_ 32 0#32) : HloOp τ sig (Elt F)).result (St V 32) :=
  St_succ V 32 (by rw [ops_length]; omega)
theorem stage34 (V : Valuation τ sig (Elt F)) :
    St V 34 = (unaryIndexed main_v12 ![main_c_11, main_c_12, main_c_13, main_c_14] ⟨S_, .i32⟩ main_v13 ((fun x i => Host.dynamicSlice S8x1x1024x1024 x (fun k => (i k (Shape.Idx.first h_S_)).toInt) sliceFits_S8x1x1030x1024_S8x1x1024x1024) : (⟨S8x1x1030x1024, .f32⟩ : BufTy).Contents (Elt F) → (Fin 4 → (⟨S_, .i32⟩ : BufTy).Contents (Elt F)) → (⟨S8x1x1024x1024, .f32⟩ : BufTy).Contents (Elt F)) : HloOp τ sig (Elt F)).result (St V 33) :=
  St_succ V 33 (by rw [ops_length]; omega)
theorem stage35 (V : Valuation τ sig (Elt F)) :
    St V 35 = (binary main_v13 main_arg0 main_v14 (subf : (⟨S8x1x1024x1024, .f32⟩ : BufTy).Contents (Elt F) → (⟨S8x1x1024x1024, .f32⟩ : BufTy).Contents (Elt F) → (⟨S8x1x1024x1024, .f32⟩ : BufTy).Contents (Elt F)) : HloOp τ sig (Elt F)).result (St V 34) :=
  St_succ V 34 (by rw [ops_length]; omega)
theorem stage36 (V : Valuation τ sig (Elt F)) :
    St V 36 = (nullary main_cst_15 (constant S_ .f32 0x00000000#32) : HloOp τ sig (Elt F)).result (St V 35) :=
  St_succ V 35 (by rw [ops_length]; omega)
theorem stage37 (V : Valuation τ sig (Elt F)) :
    St V 37 = (unary main_cst_15 main_v15 (broadcastInDim S8x1x1024x1024 ![] bcast_S_S8x1x1024x1024 : (⟨S_, .f32⟩ : BufTy).Contents (Elt F) → (⟨S8x1x1024x1024, .f32⟩ : BufTy).Contents (Elt F)) : HloOp τ sig (Elt F)).result (St V 36) :=
  St_succ V 36 (by rw [ops_length]; omega)
theorem stage38 (V : Valuation τ sig (Elt F)) :
    St V 38 = (binary main_v14 main_v15 main_v16 (cmpf .oeq : (⟨S8x1x1024x1024, .f32⟩ : BufTy).Contents (Elt F) → (⟨S8x1x1024x1024, .f32⟩ : BufTy).Contents (Elt F) → (⟨S8x1x1024x1024, .i1⟩ : BufTy).Contents (Elt F)) : HloOp τ sig (Elt F)).result (St V 37) :=
  St_succ V 37 (by rw [ops_length]; omega)
theorem stage39 (V : Valuation τ sig (Elt F)) :
    St V 39 = (unary main_v16 main_v17 (uitofp .f32 : (⟨S8x1x1024x1024, .i1⟩ : BufTy).Contents (Elt F) → (⟨S8x1x1024x1024, .f32⟩ : BufTy).Contents (Elt F)) : HloOp τ sig (Elt F)).result (St V 38) :=
  St_succ V 38 (by rw [ops_length]; omega)
theorem stage40 (V : Valuation τ sig (Elt F)) :
    St V 40 = (nullary main_c_16 (constantI S_ 32 0#32) : HloOp τ sig (Elt F)).result (St V 39) :=
  St_succ V 39 (by rw [ops_length]; omega)
theorem stage41 (V : Valuation τ sig (Elt F)) :
    St V 41 = (TRef.unary (TRef.of (T := ⟨S_, .i32⟩) main_c_16) (TRef.of (T := ⟨S_, .f32⟩) main_call3_v0) (sitofp .f32) : HloOp τ sig (Elt F)).result (St V 40) :=
  St_succ V 40 (by rw [ops_length]; omega)
theorem stage42 (V : Valuation τ sig (Elt F)) :
    St V 42 = (TRef.binary (TRef.of (T := ⟨S8x1x1024x1024, .f32⟩) main_arg0) (TRef.of (T := ⟨S_, .f32⟩) main_call3_v0) (TRef.of (T := ⟨S8x1x1024x1030, .f32⟩) main_v18) (fun x v => pad S8x1x1024x1030 ![0, 0, 0, 3] ![0, 0, 0, 3] ![0, 0, 0, 0] x v pads_S8x1x1024x1024_S8x1x1024x1030_000_000_000_330 h_S_) : HloOp τ sig (Elt F)).result (St V 41) :=
  St_succ V 41 (by rw [ops_length]; omega)
theorem stage43 (V : Valuation τ sig (Elt F)) :
    St V 43 = (nullary main_c_17 (constantI S_ 32 0#32) : HloOp τ sig (Elt F)).result (St V 42) :=
  St_succ V 42 (by rw [ops_length]; omega)
theorem stage44 (V : Valuation τ sig (Elt F)) :
    St V 44 = (nullary main_c_18 (constantI S_ 32 0#32) : HloOp τ sig (Elt F)).result (St V 43) :=
  St_succ V 43 (by rw [ops_length]; omega)
theorem stage45 (V : Valuation τ sig (Elt F)) :
    St V 45 = (nullary main_c_19 (constantI S_ 32 0#32) : HloOp τ sig (Elt F)).result (St V 44) :=
  St_succ V 44 (by rw [ops_length]; omega)
theorem stage46 (V : Valuation τ sig (Elt F)) :
    St V 46 = (nullary main_c_20 (constantI S_ 32 0#32) : HloOp τ sig (Elt F)).result (St V 45) :=
  St_succ V 45 (by rw [ops_length]; omega)
theorem stage47 (V : Valuation τ sig (Elt F)) :
    St V 47 = (unaryIndexed main_v18 ![main_c_17, main_c_18, main_c_19, main_c_20] ⟨S_, .i32⟩ main_v19 ((fun x i => Host.dynamicSlice S8x1x1024x1024 x (fun k => (i k (Shape.Idx.first h_S_)).toInt) sliceFits_S8x1x1024x1030_S8x1x1024x1024) : (⟨S8x1x1024x1030, .f32⟩ : BufTy).Contents (Elt F) → (Fin 4 → (⟨S_, .i32⟩ : BufTy).Contents (Elt F)) → (⟨S8x1x1024x1024, .f32⟩ : BufTy).Contents (Elt F)) : HloOp τ sig (Elt F)).result (St V 46) :=
  St_succ V 46 (by rw [ops_length]; omega)
theorem stage48 (V : Valuation τ sig (Elt F)) :
    St V 48 = (binary main_v19 main_arg0 main_v20 (subf : (⟨S8x1x1024x1024, .f32⟩ : BufTy).Contents (Elt F) → (⟨S8x1x1024x1024, .f32⟩ : BufTy).Contents (Elt F) → (⟨S8x1x1024x1024, .f32⟩ : BufTy).Contents (Elt F)) : HloOp τ sig (Elt F)).result (St V 47) :=
  St_succ V 47 (by rw [ops_length]; omega)
theorem stage49 (V : Valuation τ sig (Elt F)) :
    St V 49 = (nullary main_cst_21 (constant S_ .f32 0x00000000#32) : HloOp τ sig (Elt F)).result (St V 48) :=
  St_succ V 48 (by rw [ops_length]; omega)
theorem stage50 (V : Valuation τ sig (Elt F)) :
    St V 50 = (unary main_cst_21 main_v21 (broadcastInDim S8x1x1024x1024 ![] bcast_S_S8x1x1024x1024 : (⟨S_, .f32⟩ : BufTy).Contents (Elt F) → (⟨S8x1x1024x1024, .f32⟩ : BufTy).Contents (Elt F)) : HloOp τ sig (Elt F)).result (St V 49) :=
  St_succ V 49 (by rw [ops_length]; omega)
theorem stage51 (V : Valuation τ sig (Elt F)) :
    St V 51 = (binary main_v20 main_v21 main_v22 (cmpf .oeq : (⟨S8x1x1024x1024, .f32⟩ : BufTy).Contents (Elt F) → (⟨S8x1x1024x1024, .f32⟩ : BufTy).Contents (Elt F) → (⟨S8x1x1024x1024, .i1⟩ : BufTy).Contents (Elt F)) : HloOp τ sig (Elt F)).result (St V 50) :=
  St_succ V 50 (by rw [ops_length]; omega)
theorem stage52 (V : Valuation τ sig (Elt F)) :
    St V 52 = (unary main_v22 main_v23 (uitofp .f32 : (⟨S8x1x1024x1024, .i1⟩ : BufTy).Contents (Elt F) → (⟨S8x1x1024x1024, .f32⟩ : BufTy).Contents (Elt F)) : HloOp τ sig (Elt F)).result (St V 51) :=
  St_succ V 51 (by rw [ops_length]; omega)
theorem stage53 (V : Valuation τ sig (Elt F)) :
    St V 53 = (nullary main_c_22 (constantI S_ 32 0#32) : HloOp τ sig (Elt F)).result (St V 52) :=
  St_succ V 52 (by rw [ops_length]; omega)
theorem stage54 (V : Valuation τ sig (Elt F)) :
    St V 54 = (TRef.unary (TRef.of (T := ⟨S_, .i32⟩) main_c_22) (TRef.of (T := ⟨S_, .f32⟩) main_call4_v0) (sitofp .f32) : HloOp τ sig (Elt F)).result (St V 53) :=
  St_succ V 53 (by rw [ops_length]; omega)
theorem stage55 (V : Valuation τ sig (Elt F)) :
    St V 55 = (TRef.binary (TRef.of (T := ⟨S8x1x1024x1024, .f32⟩) main_arg0) (TRef.of (T := ⟨S_, .f32⟩) main_call4_v0) (TRef.of (T := ⟨S8x1x1042x1024, .f32⟩) main_v24) (fun x v => pad S8x1x1042x1024 ![0, 0, 9, 0] ![0, 0, 9, 0] ![0, 0, 0, 0] x v pads_S8x1x1024x1024_S8x1x1042x1024_000_000_990_000 h_S_) : HloOp τ sig (Elt F)).result (St V 54) :=
  St_succ V 54 (by rw [ops_length]; omega)
theorem stage56 (V : Valuation τ sig (Elt F)) :
    St V 56 = (nullary main_c_23 (constantI S_ 32 0#32) : HloOp τ sig (Elt F)).result (St V 55) :=
  St_succ V 55 (by rw [ops_length]; omega)
theorem stage57 (V : Valuation τ sig (Elt F)) :
    St V 57 = (nullary main_c_24 (constantI S_ 32 0#32) : HloOp τ sig (Elt F)).result (St V 56) :=
  St_succ V 56 (by rw [ops_length]; omega)
theorem stage58 (V : Valuation τ sig (Elt F)) :
    St V 58 = (nullary main_c_25 (constantI S_ 32 0#32) : HloOp τ sig (Elt F)).result (St V 57) :=
  St_succ V 57 (by rw [ops_length]; omega)
theorem stage59 (V : Valuation τ sig (Elt F)) :
    St V 59 = (nullary main_c_26 (constantI S_ 32 0#32) : HloOp τ sig (Elt F)).result (St V 58) :=
  St_succ V 58 (by rw [ops_length]; omega)
theorem stage60 (V : Valuation τ sig (Elt F)) :
    St V 60 = (unaryIndexed main_v24 ![main_c_23, main_c_24, main_c_25, main_c_26] ⟨S_, .i32⟩ main_v25 ((fun x i => Host.dynamicSlice S8x1x1024x1024 x (fun k => (i k (Shape.Idx.first h_S_)).toInt) sliceFits_S8x1x1042x1024_S8x1x1024x1024) : (⟨S8x1x1042x1024, .f32⟩ : BufTy).Contents (Elt F) → (Fin 4 → (⟨S_, .i32⟩ : BufTy).Contents (Elt F)) → (⟨S8x1x1024x1024, .f32⟩ : BufTy).Contents (Elt F)) : HloOp τ sig (Elt F)).result (St V 59) :=
  St_succ V 59 (by rw [ops_length]; omega)
theorem stage61 (V : Valuation τ sig (Elt F)) :
    St V 61 = (binary main_v25 main_arg0 main_v26 (subf : (⟨S8x1x1024x1024, .f32⟩ : BufTy).Contents (Elt F) → (⟨S8x1x1024x1024, .f32⟩ : BufTy).Contents (Elt F) → (⟨S8x1x1024x1024, .f32⟩ : BufTy).Contents (Elt F)) : HloOp τ sig (Elt F)).result (St V 60) :=
  St_succ V 60 (by rw [ops_length]; omega)
theorem stage62 (V : Valuation τ sig (Elt F)) :
    St V 62 = (nullary main_cst_27 (constant S_ .f32 0x00000000#32) : HloOp τ sig (Elt F)).result (St V 61) :=
  St_succ V 61 (by rw [ops_length]; omega)
theorem stage63 (V : Valuation τ sig (Elt F)) :
    St V 63 = (unary main_cst_27 main_v27 (broadcastInDim S8x1x1024x1024 ![] bcast_S_S8x1x1024x1024 : (⟨S_, .f32⟩ : BufTy).Contents (Elt F) → (⟨S8x1x1024x1024, .f32⟩ : BufTy).Contents (Elt F)) : HloOp τ sig (Elt F)).result (St V 62) :=
  St_succ V 62 (by rw [ops_length]; omega)
theorem stage64 (V : Valuation τ sig (Elt F)) :
    St V 64 = (binary main_v26 main_v27 main_v28 (cmpf .oeq : (⟨S8x1x1024x1024, .f32⟩ : BufTy).Contents (Elt F) → (⟨S8x1x1024x1024, .f32⟩ : BufTy).Contents (Elt F) → (⟨S8x1x1024x1024, .i1⟩ : BufTy).Contents (Elt F)) : HloOp τ sig (Elt F)).result (St V 63) :=
  St_succ V 63 (by rw [ops_length]; omega)
theorem stage65 (V : Valuation τ sig (Elt F)) :
    St V 65 = (unary main_v28 main_v29 (uitofp .f32 : (⟨S8x1x1024x1024, .i1⟩ : BufTy).Contents (Elt F) → (⟨S8x1x1024x1024, .f32⟩ : BufTy).Contents (Elt F)) : HloOp τ sig (Elt F)).result (St V 64) :=
  St_succ V 64 (by rw [ops_length]; omega)
theorem stage66 (V : Valuation τ sig (Elt F)) :
    St V 66 = (nullary main_c_28 (constantI S_ 32 0#32) : HloOp τ sig (Elt F)).result (St V 65) :=
  St_succ V 65 (by rw [ops_length]; omega)
theorem stage67 (V : Valuation τ sig (Elt F)) :
    St V 67 = (TRef.unary (TRef.of (T := ⟨S_, .i32⟩) main_c_28) (TRef.of (T := ⟨S_, .f32⟩) main_call5_v0) (sitofp .f32) : HloOp τ sig (Elt F)).result (St V 66) :=
  St_succ V 66 (by rw [ops_length]; omega)
theorem stage68 (V : Valuation τ sig (Elt F)) :
    St V 68 = (TRef.binary (TRef.of (T := ⟨S8x1x1024x1024, .f32⟩) main_arg0) (TRef.of (T := ⟨S_, .f32⟩) main_call5_v0) (TRef.of (T := ⟨S8x1x1024x1042, .f32⟩) main_v30) (fun x v => pad S8x1x1024x1042 ![0, 0, 0, 9] ![0, 0, 0, 9] ![0, 0, 0, 0] x v pads_S8x1x1024x1024_S8x1x1024x1042_000_000_000_990 h_S_) : HloOp τ sig (Elt F)).result (St V 67) :=
  St_succ V 67 (by rw [ops_length]; omega)
theorem stage69 (V : Valuation τ sig (Elt F)) :
    St V 69 = (nullary main_c_29 (constantI S_ 32 0#32) : HloOp τ sig (Elt F)).result (St V 68) :=
  St_succ V 68 (by rw [ops_length]; omega)
theorem stage70 (V : Valuation τ sig (Elt F)) :
    St V 70 = (nullary main_c_30 (constantI S_ 32 0#32) : HloOp τ sig (Elt F)).result (St V 69) :=
  St_succ V 69 (by rw [ops_length]; omega)
theorem stage71 (V : Valuation τ sig (Elt F)) :
    St V 71 = (nullary main_c_31 (constantI S_ 32 0#32) : HloOp τ sig (Elt F)).result (St V 70) :=
  St_succ V 70 (by rw [ops_length]; omega)
theorem stage72 (V : Valuation τ sig (Elt F)) :
    St V 72 = (nullary main_c_32 (constantI S_ 32 0#32) : HloOp τ sig (Elt F)).result (St V 71) :=
  St_succ V 71 (by rw [ops_length]; omega)
theorem stage73 (V : Valuation τ sig (Elt F)) :
    St V 73 = (unaryIndexed main_v30 ![main_c_29, main_c_30, main_c_31, main_c_32] ⟨S_, .i32⟩ main_v31 ((fun x i => Host.dynamicSlice S8x1x1024x1024 x (fun k => (i k (Shape.Idx.first h_S_)).toInt) sliceFits_S8x1x1024x1042_S8x1x1024x1024) : (⟨S8x1x1024x1042, .f32⟩ : BufTy).Contents (Elt F) → (Fin 4 → (⟨S_, .i32⟩ : BufTy).Contents (Elt F)) → (⟨S8x1x1024x1024, .f32⟩ : BufTy).Contents (Elt F)) : HloOp τ sig (Elt F)).result (St V 72) :=
  St_succ V 72 (by rw [ops_length]; omega)
theorem stage74 (V : Valuation τ sig (Elt F)) :
    St V 74 = (binary main_v31 main_arg0 main_v32 (subf : (⟨S8x1x1024x1024, .f32⟩ : BufTy).Contents (Elt F) → (⟨S8x1x1024x1024, .f32⟩ : BufTy).Contents (Elt F) → (⟨S8x1x1024x1024, .f32⟩ : BufTy).Contents (Elt F)) : HloOp τ sig (Elt F)).result (St V 73) :=
  St_succ V 73 (by rw [ops_length]; omega)
theorem stage75 (V : Valuation τ sig (Elt F)) :
    St V 75 = (nullary main_cst_33 (constant S_ .f32 0x00000000#32) : HloOp τ sig (Elt F)).result (St V 74) :=
  St_succ V 74 (by rw [ops_length]; omega)
theorem stage76 (V : Valuation τ sig (Elt F)) :
    St V 76 = (unary main_cst_33 main_v33 (broadcastInDim S8x1x1024x1024 ![] bcast_S_S8x1x1024x1024 : (⟨S_, .f32⟩ : BufTy).Contents (Elt F) → (⟨S8x1x1024x1024, .f32⟩ : BufTy).Contents (Elt F)) : HloOp τ sig (Elt F)).result (St V 75) :=
  St_succ V 75 (by rw [ops_length]; omega)
theorem stage77 (V : Valuation τ sig (Elt F)) :
    St V 77 = (binary main_v32 main_v33 main_v34 (cmpf .oeq : (⟨S8x1x1024x1024, .f32⟩ : BufTy).Contents (Elt F) → (⟨S8x1x1024x1024, .f32⟩ : BufTy).Contents (Elt F) → (⟨S8x1x1024x1024, .i1⟩ : BufTy).Contents (Elt F)) : HloOp τ sig (Elt F)).result (St V 76) :=
  St_succ V 76 (by rw [ops_length]; omega)
theorem stage78 (V : Valuation τ sig (Elt F)) :
    St V 78 = (unary main_v34 main_v35 (uitofp .f32 : (⟨S8x1x1024x1024, .i1⟩ : BufTy).Contents (Elt F) → (⟨S8x1x1024x1024, .f32⟩ : BufTy).Contents (Elt F)) : HloOp τ sig (Elt F)).result (St V 77) :=
  St_succ V 77 (by rw [ops_length]; omega)
theorem stage79 (V : Valuation τ sig (Elt F)) :
    St V 79 = (nullary main_c_34 (constantI S_ 32 0#32) : HloOp τ sig (Elt F)).result (St V 78) :=
  St_succ V 78 (by rw [ops_length]; omega)
theorem stage80 (V : Valuation τ sig (Elt F)) :
    St V 80 = (TRef.unary (TRef.of (T := ⟨S_, .i32⟩) main_c_34) (TRef.of (T := ⟨S_, .f32⟩) main_call6_v0) (sitofp .f32) : HloOp τ sig (Elt F)).result (St V 79) :=
  St_succ V 79 (by rw [ops_length]; omega)
theorem stage81 (V : Valuation τ sig (Elt F)) :
    St V 81 = (TRef.binary (TRef.of (T := ⟨S8x1x1024x1024, .f32⟩) main_arg0) (TRef.of (T := ⟨S_, .f32⟩) main_call6_v0) (TRef.of (T := ⟨S8x1x1078x1024, .f32⟩) main_v36) (fun x v => pad S8x1x1078x1024 ![0, 0, 27, 0] ![0, 0, 27, 0] ![0, 0, 0, 0] x v pads_S8x1x1024x1024_S8x1x1078x1024_000_000_27270_000 h_S_) : HloOp τ sig (Elt F)).result (St V 80) :=
  St_succ V 80 (by rw [ops_length]; omega)
theorem stage82 (V : Valuation τ sig (Elt F)) :
    St V 82 = (nullary main_c_35 (constantI S_ 32 0#32) : HloOp τ sig (Elt F)).result (St V 81) :=
  St_succ V 81 (by rw [ops_length]; omega)
theorem stage83 (V : Valuation τ sig (Elt F)) :
    St V 83 = (nullary main_c_36 (constantI S_ 32 0#32) : HloOp τ sig (Elt F)).result (St V 82) :=
  St_succ V 82 (by rw [ops_length]; omega)
theorem stage84 (V : Valuation τ sig (Elt F)) :
    St V 84 = (nullary main_c_37 (constantI S_ 32 0#32) : HloOp τ sig (Elt F)).result (St V 83) :=
  St_succ V 83 (by rw [ops_length]; omega)
theorem stage85 (V : Valuation τ sig (Elt F)) :
    St V 85 = (nullary main_c_38 (constantI S_ 32 0#32) : HloOp τ sig (Elt F)).result (St V 84) :=
  St_succ V 84 (by rw [ops_length]; omega)
theorem stage86 (V : Valuation τ sig (Elt F)) :
    St V 86 = (unaryIndexed main_v36 ![main_c_35, main_c_36, main_c_37, main_c_38] ⟨S_, .i32⟩ main_v37 ((fun x i => Host.dynamicSlice S8x1x1024x1024 x (fun k => (i k (Shape.Idx.first h_S_)).toInt) sliceFits_S8x1x1078x1024_S8x1x1024x1024) : (⟨S8x1x1078x1024, .f32⟩ : BufTy).Contents (Elt F) → (Fin 4 → (⟨S_, .i32⟩ : BufTy).Contents (Elt F)) → (⟨S8x1x1024x1024, .f32⟩ : BufTy).Contents (Elt F)) : HloOp τ sig (Elt F)).result (St V 85) :=
  St_succ V 85 (by rw [ops_length]; omega)
theorem stage87 (V : Valuation τ sig (Elt F)) :
    St V 87 = (binary main_v37 main_arg0 main_v38 (subf : (⟨S8x1x1024x1024, .f32⟩ : BufTy).Contents (Elt F) → (⟨S8x1x1024x1024, .f32⟩ : BufTy).Contents (Elt F) → (⟨S8x1x1024x1024, .f32⟩ : BufTy).Contents (Elt F)) : HloOp τ sig (Elt F)).result (St V 86) :=
  St_succ V 86 (by rw [ops_length]; omega)
theorem stage88 (V : Valuation τ sig (Elt F)) :
    St V 88 = (nullary main_cst_39 (constant S_ .f32 0x00000000#32) : HloOp τ sig (Elt F)).result (St V 87) :=
  St_succ V 87 (by rw [ops_length]; omega)
theorem stage89 (V : Valuation τ sig (Elt F)) :
    St V 89 = (unary main_cst_39 main_v39 (broadcastInDim S8x1x1024x1024 ![] bcast_S_S8x1x1024x1024 : (⟨S_, .f32⟩ : BufTy).Contents (Elt F) → (⟨S8x1x1024x1024, .f32⟩ : BufTy).Contents (Elt F)) : HloOp τ sig (Elt F)).result (St V 88) :=
  St_succ V 88 (by rw [ops_length]; omega)
theorem stage90 (V : Valuation τ sig (Elt F)) :
    St V 90 = (binary main_v38 main_v39 main_v40 (cmpf .oeq : (⟨S8x1x1024x1024, .f32⟩ : BufTy).Contents (Elt F) → (⟨S8x1x1024x1024, .f32⟩ : BufTy).Contents (Elt F) → (⟨S8x1x1024x1024, .i1⟩ : BufTy).Contents (Elt F)) : HloOp τ sig (Elt F)).result (St V 89) :=
  St_succ V 89 (by rw [ops_length]; omega)
theorem stage91 (V : Valuation τ sig (Elt F)) :
    St V 91 = (unary main_v40 main_v41 (uitofp .f32 : (⟨S8x1x1024x1024, .i1⟩ : BufTy).Contents (Elt F) → (⟨S8x1x1024x1024, .f32⟩ : BufTy).Contents (Elt F)) : HloOp τ sig (Elt F)).result (St V 90) :=
  St_succ V 90 (by rw [ops_length]; omega)
theorem stage92 (V : Valuation τ sig (Elt F)) :
    St V 92 = (nullary main_c_40 (constantI S_ 32 0#32) : HloOp τ sig (Elt F)).result (St V 91) :=
  St_succ V 91 (by rw [ops_length]; omega)
theorem stage93 (V : Valuation τ sig (Elt F)) :
    St V 93 = (TRef.unary (TRef.of (T := ⟨S_, .i32⟩) main_c_40) (TRef.of (T := ⟨S_, .f32⟩) main_call7_v0) (sitofp .f32) : HloOp τ sig (Elt F)).result (St V 92) :=
  St_succ V 92 (by rw [ops_length]; omega)
theorem stage94 (V : Valuation τ sig (Elt F)) :
    St V 94 = (TRef.binary (TRef.of (T := ⟨S8x1x1024x1024, .f32⟩) main_arg0) (TRef.of (T := ⟨S_, .f32⟩) main_call7_v0) (TRef.of (T := ⟨S8x1x1024x1078, .f32⟩) main_v42) (fun x v => pad S8x1x1024x1078 ![0, 0, 0, 27] ![0, 0, 0, 27] ![0, 0, 0, 0] x v pads_S8x1x1024x1024_S8x1x1024x1078_000_000_000_27270 h_S_) : HloOp τ sig (Elt F)).result (St V 93) :=
  St_succ V 93 (by rw [ops_length]; omega)
theorem stage95 (V : Valuation τ sig (Elt F)) :
    St V 95 = (nullary main_c_41 (constantI S_ 32 0#32) : HloOp τ sig (Elt F)).result (St V 94) :=
  St_succ V 94 (by rw [ops_length]; omega)
theorem stage96 (V : Valuation τ sig (Elt F)) :
    St V 96 = (nullary main_c_42 (constantI S_ 32 0#32) : HloOp τ sig (Elt F)).result (St V 95) :=
  St_succ V 95 (by rw [ops_length]; omega)
theorem stage97 (V : Valuation τ sig (Elt F)) :
    St V 97 = (nullary main_c_43 (constantI S_ 32 0#32) : HloOp τ sig (Elt F)).result (St V 96) :=
  St_succ V 96 (by rw [ops_length]; omega)
theorem stage98 (V : Valuation τ sig (Elt F)) :
    St V 98 = (nullary main_c_44 (constantI S_ 32 0#32) : HloOp τ sig (Elt F)).result (St V 97) :=
  St_succ V 97 (by rw [ops_length]; omega)
theorem stage99 (V : Valuation τ sig (Elt F)) :
    St V 99 = (unaryIndexed main_v42 ![main_c_41, main_c_42, main_c_43, main_c_44] ⟨S_, .i32⟩ main_v43 ((fun x i => Host.dynamicSlice S8x1x1024x1024 x (fun k => (i k (Shape.Idx.first h_S_)).toInt) sliceFits_S8x1x1024x1078_S8x1x1024x1024) : (⟨S8x1x1024x1078, .f32⟩ : BufTy).Contents (Elt F) → (Fin 4 → (⟨S_, .i32⟩ : BufTy).Contents (Elt F)) → (⟨S8x1x1024x1024, .f32⟩ : BufTy).Contents (Elt F)) : HloOp τ sig (Elt F)).result (St V 98) :=
  St_succ V 98 (by rw [ops_length]; omega)
theorem stage100 (V : Valuation τ sig (Elt F)) :
    St V 100 = (binary main_v43 main_arg0 main_v44 (subf : (⟨S8x1x1024x1024, .f32⟩ : BufTy).Contents (Elt F) → (⟨S8x1x1024x1024, .f32⟩ : BufTy).Contents (Elt F) → (⟨S8x1x1024x1024, .f32⟩ : BufTy).Contents (Elt F)) : HloOp τ sig (Elt F)).result (St V 99) :=
  St_succ V 99 (by rw [ops_length]; omega)
theorem stage101 (V : Valuation τ sig (Elt F)) :
    St V 101 = (nullary main_cst_45 (constant S_ .f32 0x00000000#32) : HloOp τ sig (Elt F)).result (St V 100) :=
  St_succ V 100 (by rw [ops_length]; omega)
theorem stage102 (V : Valuation τ sig (Elt F)) :
    St V 102 = (unary main_cst_45 main_v45 (broadcastInDim S8x1x1024x1024 ![] bcast_S_S8x1x1024x1024 : (⟨S_, .f32⟩ : BufTy).Contents (Elt F) → (⟨S8x1x1024x1024, .f32⟩ : BufTy).Contents (Elt F)) : HloOp τ sig (Elt F)).result (St V 101) :=
  St_succ V 101 (by rw [ops_length]; omega)
theorem stage103 (V : Valuation τ sig (Elt F)) :
    St V 103 = (binary main_v44 main_v45 main_v46 (cmpf .oeq : (⟨S8x1x1024x1024, .f32⟩ : BufTy).Contents (Elt F) → (⟨S8x1x1024x1024, .f32⟩ : BufTy).Contents (Elt F) → (⟨S8x1x1024x1024, .i1⟩ : BufTy).Contents (Elt F)) : HloOp τ sig (Elt F)).result (St V 102) :=
  St_succ V 102 (by rw [ops_length]; omega)
theorem stage104 (V : Valuation τ sig (Elt F)) :
    St V 104 = (unary main_v46 main_v47 (uitofp .f32 : (⟨S8x1x1024x1024, .i1⟩ : BufTy).Contents (Elt F) → (⟨S8x1x1024x1024, .f32⟩ : BufTy).Contents (Elt F)) : HloOp τ sig (Elt F)).result (St V 103) :=
  St_succ V 103 (by rw [ops_length]; omega)
theorem stage105 (V : Valuation τ sig (Elt F)) :
    St V 105 = (unary main_v5 main_v48 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)) : HloOp τ sig (Elt F)).result (St V 104) :=
  St_succ V 104 (by rw [ops_length]; omega)
theorem stage106 (V : Valuation τ sig (Elt F)) :
    St V 106 = (unary main_v11 main_v49 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)) : HloOp τ sig (Elt F)).result (St V 105) :=
  St_succ V 105 (by rw [ops_length]; omega)
theorem stage107 (V : Valuation τ sig (Elt F)) :
    St V 107 = (unary main_v17 main_v50 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)) : HloOp τ sig (Elt F)).result (St V 106) :=
  St_succ V 106 (by rw [ops_length]; omega)
theorem stage108 (V : Valuation τ sig (Elt F)) :
    St V 108 = (unary main_v23 main_v51 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)) : HloOp τ sig (Elt F)).result (St V 107) :=
  St_succ V 107 (by rw [ops_length]; omega)
theorem stage109 (V : Valuation τ sig (Elt F)) :
    St V 109 = (unary main_v29 main_v52 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)) : HloOp τ sig (Elt F)).result (St V 108) :=
  St_succ V 108 (by rw [ops_length]; omega)
theorem stage110 (V : Valuation τ sig (Elt F)) :
    St V 110 = (unary main_v35 main_v53 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)) : HloOp τ sig (Elt F)).result (St V 109) :=
  St_succ V 109 (by rw [ops_length]; omega)
theorem stage111 (V : Valuation τ sig (Elt F)) :
    St V 111 = (unary main_v41 main_v54 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)) : HloOp τ sig (Elt F)).result (St V 110) :=
  St_succ V 110 (by rw [ops_length]; omega)
theorem stage112 (V : Valuation τ sig (Elt F)) :
    St V 112 = (unary main_v47 main_v55 (broadcastInDim S1x8x1x1024x1024 ![1, 2, 3, 4] bcast_S8x1x1024x1024_S1x8x1x1024x1024_1_2_3_4 : (⟨S8x1x1024x1024, .f32⟩ : BufTy).Contents (Elt F) → (⟨S1x8x1x1024x1024, .f32⟩ : BufTy).Contents (Elt F)) : HloOp τ sig (Elt F)).result (St V 111) :=
  St_succ V 111 (by rw [ops_length]; omega)
theorem stage113 (V : Valuation τ sig (Elt F)) :
    St V 113 = (nary ![main_v48, main_v49, main_v50, main_v51, main_v52, main_v53, main_v54, main_v55] main_v56 (fun u => concatenate S8x8x1x1024x1024 0 [⟨S1x8x1x1024x1024, u 0⟩, ⟨S1x8x1x1024x1024, u 1⟩, ⟨S1x8x1x1024x1024, u 2⟩, ⟨S1x8x1x1024x1024, u 3⟩, ⟨S1x8x1x1024x1024, u 4⟩, ⟨S1x8x1x1024x1024, u 5⟩, ⟨S1x8x1x1024x1024, u 6⟩, ⟨S1x8x1x1024x1024, u 7⟩] concatenates_S1x8x1x1024x1024_S1x8x1x1024x1024_S1x8x1x1024x1024_S1x8x1x1024x1024_S1x8x1x1024x1024_S1x8x1x1024x1024_S1x8x1x1024x1024_S1x8x1x1024x1024_S8x8x1x1024x1024_d0) : HloOp τ sig (Elt F)).result (St V 112) :=
  St_succ V 112 (by rw [ops_length]; omega)

/-! ## What one operation leaves in its result buffer -/

theorem step_nullary (V : Valuation τ sig (Elt F)) (k : Nat) (hk : k < (ops (F := F)).length)
    (y : Ref sig .tc) (v : y.ty.Contents (Elt F)) (hy)
    (he : (ops (F := F))[k]'hk = nullary y v hy) : St V (k + 1) (Proc.devRef .tc y) = v := by
  rw [St_succ V k hk, he]; exact nullary_result y v hy _

theorem step_unary (V : Valuation τ sig (Elt F)) (k : Nat) (hk : k < (ops (F := F)).length)
    (x y : Ref sig .tc) (f : x.ty.Contents (Elt F) → y.ty.Contents (Elt F)) (hx hy)
    (he : (ops (F := F))[k]'hk = unary x y f hx hy) :
    St V (k + 1) (Proc.devRef .tc y) = f (St V k (Proc.devRef .tc x)) := by
  rw [St_succ V k hk, he]; exact unary_result x y f hx hy _

theorem step_binary (V : Valuation τ sig (Elt F)) (k : Nat) (hk : k < (ops (F := F)).length)
    (a b y : Ref sig .tc) (f : a.ty.Contents (Elt F) → b.ty.Contents (Elt F) → y.ty.Contents (Elt F)) (ha hb hy)
    (he : (ops (F := F))[k]'hk = binary a b y f ha hb hy) :
    St V (k + 1) (Proc.devRef .tc y) = f (St V k (Proc.devRef .tc a)) (St V k (Proc.devRef .tc b)) := by
  rw [St_succ V k hk, he]; exact binary_result a b y f ha hb hy _

theorem step_nary (V : Valuation τ sig (Elt F)) (k : Nat) (hk : k < (ops (F := F)).length)
    {n : Nat} (xs : Fin n → Ref sig .tc) (y : Ref sig .tc)
    (f : ((j : Fin n) → (xs j).ty.Contents (Elt F)) → y.ty.Contents (Elt F)) (hxs hy)
    (he : (ops (F := F))[k]'hk = nary xs y f hxs hy) :
    St V (k + 1) (Proc.devRef .tc y) = f (fun j => St V k (Proc.devRef .tc (xs j))) := by
  rw [St_succ V k hk, he]; exact nary_result xs y f hxs hy _

theorem step_indexed (V : Valuation τ sig (Elt F)) (k : Nat) (hk : k < (ops (F := F)).length)
    (a : Ref sig .tc) {n : Nat} (ix : Fin n → Ref sig .tc) (T : BufTy) (y : Ref sig .tc)
    (f : a.ty.Contents (Elt F) → (Fin n → T.Contents (Elt F)) → y.ty.Contents (Elt F)) (hT ha hix hy)
    (he : (ops (F := F))[k]'hk = unaryIndexed a ix T y f hT ha hix hy) :
    St V (k + 1) (Proc.devRef .tc y)
      = f (St V k (Proc.devRef .tc a))
          (fun j => cast (congrArg (fun U : BufTy => U.Contents (Elt F)) (hT j)) (St V k (Proc.devRef .tc (ix j)))) := by
  rw [St_succ V k hk, he]; exact unaryIndexed_result a ix T y f hT ha hix hy _

/-! ## The run -/

/-- From any memory with zero counters every weakly fair execution of the program terminates with every buffer at
    what the 113 operations leave in it. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = St (launchContents m c) 113 (Proc.devRef .tc b) :=
  (θ_run defs _ _).mono (fun _ h c b => (h c b).trans (by rw [St_last]))
    (run_seq scopedRefs_eq scopedSems_eq defs main (fun _ => ops) main_eq (fun _ => ops_sub) m ρ)

end Cert.ReferenceIdeal.RefRun

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.RefShift.lean ====
/-
  A padded-and-cut copy of a stack of images, and its comparison with the images, read at a pixel.

  Pad the images with d copies of a value z on both sides of the row axis (or of the column axis) and cut the first
  1024 positions back out: position p of the padded axis holds the image's position p - d when d is at most p, and z
  otherwise, so the cut holds at (r, c) the pixel d rows above (d columns to the left of) (r, c), and z where that
  is outside the image. Subtract the images, compare the difference with a zero array and read the comparison's bit
  as a number: for real entries that is 1 exactly where the shifted copy equals the image.
-/
import proofs.«170590_j71708773974139_2_alg».proof.Proof.AffinitySpec
import proofs.«170590_j71708773974139_2_alg».proof.Proof.LibRealValued
import Idealize.ShloMosaic.Lib.KernelVsHost
import Idealize.ShloMosaic.Lib.DynamicIndex
import Idealize.ShloMosaic.Lib.Pipeline.Value
import Idealize.ShloMosaic.Lib.ValueIdx
import Idealize.ShloMosaic.PureOps.Ideal.Laws

set_option maxRecDepth 16384

noncomputable section

namespace Cert.Affinity.Shift

open Cert.Affinity Cert.RealValued
open Idealize.ShloMosaic Idealize.ShloMosaic.ValueIdx

/-- The scalar shape. -/
abbrev S_ : Shape := ⟨0, ![]⟩

/-! ## The shifted copies -/

/-- The images with `d` more rows above and below. -/
abbrev SRows (d : Nat) : Shape := ⟨4, ![8, 1, 1024 + 2 * d, 1024]⟩
/-- The images with `d` more columns on both sides. -/
abbrev SCols (d : Nat) : Shape := ⟨4, ![8, 1, 1024, 1024 + 2 * d]⟩

theorem rows_shifted (x : SImg.Idx → EReal) (d : Nat) (z : S_.Idx → EReal)
    (hp : SImg.Pads ![0, 0, d, 0] ![0, 0, d, 0] ![0, 0, 0, 0] (SRows d)) (hu : 0 < S_.numel)
    (hs : (SRows d).Slices (fun _ => 0) SImg) (start : Fin 4 → Int) (hst : ∀ a, start a = 0)
    (b : Fin 8) (R C : Fin 1024) :
    Host.dynamicSlice SImg (pad (SRows d) ![0, 0, d, 0] ![0, 0, d, 0] ![0, 0, 0, 0] x z hp hu) start hs (ix4 b (0 : Fin 1) R C)
      = if h : d ≤ R.val then x (ix4 b (0 : Fin 1) (⟨R.val - d, by omega⟩ : Fin 1024) C) else z (Shape.Idx.first hu) := by
  rw [Host.dynamicSlice_eq_extractStridedSlice SImg _ start (fun _ => 0) hs hs (fun a => by rw [hst a]; rfl)]
  refine (extractStridedSlice_apply (fun _ => 0) _ hs (ix4 b (0 : Fin 1) R C)
    (ix4 b (0 : Fin 1) (⟨R.val, by omega⟩ : Fin (1024 + 2 * d)) C) ?_).trans ?_
  · intro a
    match a with
    | ⟨0, _⟩ => show b.val = 0 + b.val; omega
    | ⟨1, _⟩ => rfl
    | ⟨2, _⟩ => show R.val = 0 + R.val; omega
    | ⟨3, _⟩ => show C.val = 0 + C.val; omega
  · by_cases h : d ≤ R.val
    · rw [dif_pos h]
      refine pad_apply_of_inside _ _ _ x z hp hu _ (ix4 b (0 : Fin 1) (⟨R.val - d, by omega⟩ : Fin 1024) C) ?_
      intro a
      match a with
      | ⟨0, _⟩ => show b.val = 0 + b.val * (0 + 1); omega
      | ⟨1, _⟩ => rfl
      | ⟨2, _⟩ => show R.val = d + (R.val - d) * (0 + 1); omega
      | ⟨3, _⟩ => show C.val = 0 + C.val * (0 + 1); omega
    · rw [dif_neg h]
      refine pad_apply_of_not_inside _ _ _ x z hp hu _ (2 : Fin 4) ?_
      intro hh; exact h hh.1

theorem cols_shifted (x : SImg.Idx → EReal) (d : Nat) (z : S_.Idx → EReal)
    (hp : SImg.Pads ![0, 0, 0, d] ![0, 0, 0, d] ![0, 0, 0, 0] (SCols d)) (hu : 0 < S_.numel)
    (hs : (SCols d).Slices (fun _ => 0) SImg) (start : Fin 4 → Int) (hst : ∀ a, start a = 0)
    (b : Fin 8) (R C : Fin 1024) :
    Host.dynamicSlice SImg (pad (SCols d) ![0, 0, 0, d] ![0, 0, 0, d] ![0, 0, 0, 0] x z hp hu) start hs (ix4 b (0 : Fin 1) R C)
      = if h : d ≤ C.val then x (ix4 b (0 : Fin 1) R (⟨C.val - d, by omega⟩ : Fin 1024)) else z (Shape.Idx.first hu) := by
  rw [Host.dynamicSlice_eq_extractStridedSlice SImg _ start (fun _ => 0) hs hs (fun a => by rw [hst a]; rfl)]
  refine (extractStridedSlice_apply (fun _ => 0) _ hs (ix4 b (0 : Fin 1) R C)
    (ix4 b (0 : Fin 1) R (⟨C.val, by omega⟩ : Fin (1024 + 2 * d))) ?_).trans ?_
  · intro a
    match a with
    | ⟨0, _⟩ => show b.val = 0 + b.val; omega
    | ⟨1, _⟩ => rfl
    | ⟨2, _⟩ => show R.val = 0 + R.val; omega
    | ⟨3, _⟩ => show C.val = 0 + C.val; omega
  · by_cases h : d ≤ C.val
    · rw [dif_pos h]
      refine pad_apply_of_inside _ _ _ x z hp hu _ (ix4 b (0 : Fin 1) R (⟨C.val - d, by omega⟩ : Fin 1024)) ?_
      intro a
      match a with
      | ⟨0, _⟩ => show b.val = 0 + b.val * (0 + 1); omega
      | ⟨1, _⟩ => rfl
      | ⟨2, _⟩ => show R.val = 0 + R.val * (0 + 1); omega
      | ⟨3, _⟩ => show C.val = d + (C.val - d) * (0 + 1); omega
    · rw [dif_neg h]
      refine pad_apply_of_not_inside _ _ _ x z hp hu _ (3 : Fin 4) ?_
      intro hh; exact h hh.1

/-- A neighbour of a pixel of real-valued images is a real number (zero is one). -/
theorem upN_real (x : SImg.Idx → EReal) (hx : ∀ j, IsReal (x j)) (d : Nat) (b : Fin 8) (R C : Fin 1024) : IsReal (upN x d b R C) := by
  unfold upN; split
  · exact hx _
  · exact ⟨0, rfl⟩
theorem leftN_real (x : SImg.Idx → EReal) (hx : ∀ j, IsReal (x j)) (d : Nat) (b : Fin 8) (R C : Fin 1024) : IsReal (leftN x d b R C) := by
  unfold leftN; split
  · exact hx _
  · exact ⟨0, rfl⟩

/-! ## The comparison -/

/-- A scalar zero broadcast over the images is zero at every pixel. -/
theorem zeros_at (hb : S_.BroadcastsInDim SImg (![] : Fin 0 → Fin SImg.rank)) (i : SImg.Idx) :
    broadcastInDim SImg ![] hb (constant (F := Ideal) S_ .f32 0x00000000#32) i = 0 := by
  rw [broadcastInDim_apply _ hb _ i ix0 (fun a => a.elim0)]
  exact Ideal.ofBits_zero_f32

/-- Subtract, compare the difference with a zero array, read the bit unsigned: at a pixel where the shifted copy holds
    the real number N and the image a real number, that is 1 where they are equal and 0 where they differ. -/
theorem compare_at (S x E : SImg.Idx → EReal) (i : SImg.Idx) (N : EReal) (hS : S i = N) (p q : ℝ) (hN : N = (p : EReal))
    (hX : x i = (q : EReal)) (hE : E i = 0) :
    (uitofp (F := Ideal) .f32 (cmpf (F := Ideal) (φ := .f32) .oeq (subf (F := Ideal) (φ := .f32) S x) E)) i = same N (x i) := by
  show FloatOps.uitofp (F := Ideal) .f32 (FloatOps.cmpf (F := Ideal) (φ := .f32) .oeq (S i - x i) (E i)) = _
  rw [hE, hS, hX, hN]
  exact same_of_difference p q

end Cert.Affinity.Shift

end
-- ==== Proof.RefValue.lean ====
/-
  The reference program's result at the exact extended reals: the affinity maps of its argument, when the
  argument's entries are real numbers.

  Each of the eight maps is built by thirteen operations of its own: a zero, padded around the argument on one axis;
  the first 1024 positions cut back out (the cut's start indices are four zero constants); the argument subtracted;
  the difference compared with a broadcast zero; the comparison's bit read as a number. The argument is never
  written and every intermediate value is read after it is written and before anything else could change it, so
  each map's buffer holds, at the end, that composition of the ARGUMENT: at a pixel, 1 where the pixel d rows above
  (d columns to the left), or zero outside the image, equals the pixel. The eight maps are then given a leading unit
  axis and stacked along it.
-/
import proofs.«170590_j71708773974139_2_alg».proof.Proof.RefRun
import proofs.«170590_j71708773974139_2_alg».proof.Proof.RefShift

set_option maxRecDepth 16384

noncomputable section

namespace Cert.ReferenceIdeal.RefRun

open Cert.ReferenceIdeal Cert.ReferenceIdeal.Gen Cert.Affinity Cert.Affinity.Shift Cert.RealValued
open Idealize.ShloMosaic Idealize.ShloMosaic.TcCoe Idealize.ShloMosaic.ValueIdx Idealize.SL.Sem Idealize.ShloMosaic.StableHlo

/-- No operation writes the argument. -/
theorem arg_never : ∀ k, k < 113 → wrN k ≠ main_arg0 := by decide

theorem hlen (k : Nat) (h : k < 113) : k < (ops (F := Ideal)).length := by rw [ops_length]; exact h

/-! ## The eight maps -/

/-- Map 0 of the reference at a pixel, after its thirteen operations. -/
theorem map0 (V : Valuation τ sig (Elt Ideal)) (hx : ∀ j, IsReal (V (Proc.devRef .tc main_arg0) j)) (bb : Fin 8) (R C : Fin 1024) :
    St V 13 (Proc.devRef .tc main_v5) (ix4 bb (0 : Fin 1) R C)
      = same (upN (V (Proc.devRef .tc main_arg0)) 1 bb R C) (V (Proc.devRef .tc main_arg0) (ix4 bb (0 : Fin 1) R C)) := by
  have e_c : St V 1 (Proc.devRef .tc main_c) = _ := (congrFun (stage1 V) (Proc.devRef .tc main_c)).trans (nullary_result _ _ _ _)
  have e_z : St V 2 (Proc.devRef .tc main_call0_v0) = _ := (congrFun (stage2 V) (Proc.devRef .tc main_call0_v0)).trans (unary_result _ _ _ _ _ _)
  have e_p : St V 3 (Proc.devRef .tc main_v0) = _ := (congrFun (stage3 V) (Proc.devRef .tc main_v0)).trans (binary_result _ _ _ _ _ _ _ _)
  have e_c0 : St V 4 (Proc.devRef .tc main_c_0) = _ := (congrFun (stage4 V) (Proc.devRef .tc main_c_0)).trans (nullary_result _ _ _ _)
  have e_c1 : St V 5 (Proc.devRef .tc main_c_1) = _ := (congrFun (stage5 V) (Proc.devRef .tc main_c_1)).trans (nullary_result _ _ _ _)
  have e_c2 : St V 6 (Proc.devRef .tc main_c_2) = _ := (congrFun (stage6 V) (Proc.devRef .tc main_c_2)).trans (nullary_result _ _ _ _)
  have e_c3 : St V 7 (Proc.devRef .tc main_c_3) = _ := (congrFun (stage7 V) (Proc.devRef .tc main_c_3)).trans (nullary_result _ _ _ _)
  have e_s : St V 8 (Proc.devRef .tc main_v1) = _ := (congrFun (stage8 V) (Proc.devRef .tc main_v1)).trans (unaryIndexed_result _ _ _ _ _ _ _ _ _ _)
  have e_d : St V 9 (Proc.devRef .tc main_v2) = _ := (congrFun (stage9 V) (Proc.devRef .tc main_v2)).trans (binary_result _ _ _ _ _ _ _ _)
  have e_e : St V 10 (Proc.devRef .tc main_cst) = _ := (congrFun (stage10 V) (Proc.devRef .tc main_cst)).trans (nullary_result _ _ _ _)
  have e_E : St V 11 (Proc.devRef .tc main_v3) = _ := (congrFun (stage11 V) (Proc.devRef .tc main_v3)).trans (unary_result _ _ _ _ _ _)
  have e_q : St V 12 (Proc.devRef .tc main_v4) = _ := (congrFun (stage12 V) (Proc.devRef .tc main_v4)).trans (binary_result _ _ _ _ _ _ _ _)
  have e_u : St V 13 (Proc.devRef .tc main_v5) = _ := (congrFun (stage13 V) (Proc.devRef .tc main_v5)).trans (unary_result _ _ _ _ _ _)
  have a2 : St V 2 (Proc.devRef .tc main_arg0) = V (Proc.devRef .tc main_arg0) :=
    persist V main_arg0 0 2 (by omega) (by omega) (fun k hk _ => arg_never k (by omega))
  have a8 : St V 8 (Proc.devRef .tc main_arg0) = V (Proc.devRef .tc main_arg0) :=
    persist V main_arg0 0 8 (by omega) (by omega) (fun k hk _ => arg_never k (by omega))
  have p_p : St V 7 (Proc.devRef .tc main_v0) = St V 3 (Proc.devRef .tc main_v0) := persist V main_v0 3 7 (by omega) (by omega) (by decide)
  have p_c0 : St V 7 (Proc.devRef .tc main_c_0) = St V 4 (Proc.devRef .tc main_c_0) := persist V main_c_0 4 7 (by omega) (by omega) (by decide)
  have p_c1 : St V 7 (Proc.devRef .tc main_c_1) = St V 5 (Proc.devRef .tc main_c_1) := persist V main_c_1 5 7 (by omega) (by omega) (by decide)
  have p_c2 : St V 7 (Proc.devRef .tc main_c_2) = St V 6 (Proc.devRef .tc main_c_2) := persist V main_c_2 6 7 (by omega) (by omega) (by decide)
  have p_d : St V 11 (Proc.devRef .tc main_v2) = St V 9 (Proc.devRef .tc main_v2) := persist V main_v2 9 11 (by omega) (by omega) (by decide)
  rw [e_u, e_q, p_d, e_d, e_E, e_e, a8, e_s, p_p, e_p, a2, e_z, e_c]
  obtain ⟨pp, hpp⟩ := upN_real (V (Proc.devRef .tc main_arg0)) hx 1 bb R C
  obtain ⟨qq, hqq⟩ := hx (ix4 bb (0 : Fin 1) R C)
  refine compare_at _ _ _ (ix4 bb (0 : Fin 1) R C) (upN (V (Proc.devRef .tc main_arg0)) 1 bb R C) ?_ pp qq hpp hqq (zeros_at _ _)
  refine (rows_shifted (V (Proc.devRef .tc main_arg0)) 1 _ pads_S8x1x1024x1024_S8x1x1026x1024_000_000_110_000 h_S_ sliceFits_S8x1x1026x1024_S8x1x1024x1024 _ ?_ bb R C).trans ?_
  · intro a
    fin_cases a
    · show ((St V 7 (Proc.devRef .tc main_c_0)) (Shape.Idx.first _)).toInt = 0
      rw [p_c0, e_c0]; rfl
    · show ((St V 7 (Proc.devRef .tc main_c_1)) (Shape.Idx.first _)).toInt = 0
      rw [p_c1, e_c1]; rfl
    · show ((St V 7 (Proc.devRef .tc main_c_2)) (Shape.Idx.first _)).toInt = 0
      rw [p_c2, e_c2]; rfl
    · show ((St V 7 (Proc.devRef .tc main_c_3)) (Shape.Idx.first _)).toInt = 0
      rw [e_c3]; rfl
  · unfold upN
    by_cases h : 1 ≤ R.val
    · rw [dif_pos h, dif_pos h]
    · rw [dif_neg h, dif_neg h]
      show (((0#32 : BitVec 32).toInt : ℝ) : EReal) = 0
      simp

/-- Map 1 of the reference at a pixel, after its thirteen operations. -/
theorem map1 (V : Valuation τ sig (Elt Ideal)) (hx : ∀ j, IsReal (V (Proc.devRef .tc main_arg0) j)) (bb : Fin 8) (R C : Fin 1024) :
    St V 26 (Proc.devRef .tc main_v11) (ix4 bb (0 : Fin 1) R C)
      = same (leftN (V (Proc.devRef .tc main_arg0)) 1 bb R C) (V (Proc.devRef .tc main_arg0) (ix4 bb (0 : Fin 1) R C)) := by
  have e_c : St V 14 (Proc.devRef .tc main_c_4) = _ := (congrFun (stage14 V) (Proc.devRef .tc main_c_4)).trans (nullary_result _ _ _ _)
  have e_z : St V 15 (Proc.devRef .tc main_call1_v0) = _ := (congrFun (stage15 V) (Proc.devRef .tc main_call1_v0)).trans (unary_result _ _ _ _ _ _)
  have e_p : St V 16 (Proc.devRef .tc main_v6) = _ := (congrFun (stage16 V) (Proc.devRef .tc main_v6)).trans (binary_result _ _ _ _ _ _ _ _)
  have e_c0 : St V 17 (Proc.devRef .tc main_c_5) = _ := (congrFun (stage17 V) (Proc.devRef .tc main_c_5)).trans (nullary_result _ _ _ _)
  have e_c1 : St V 18 (Proc.devRef .tc main_c_6) = _ := (congrFun (stage18 V) (Proc.devRef .tc main_c_6)).trans (nullary_result _ _ _ _)
  have e_c2 : St V 19 (Proc.devRef .tc main_c_7) = _ := (congrFun (stage19 V) (Proc.devRef .tc main_c_7)).trans (nullary_result _ _ _ _)
  have e_c3 : St V 20 (Proc.devRef .tc main_c_8) = _ := (congrFun (stage20 V) (Proc.devRef .tc main_c_8)).trans (nullary_result _ _ _ _)
  have e_s : St V 21 (Proc.devRef .tc main_v7) = _ := (congrFun (stage21 V) (Proc.devRef .tc main_v7)).trans (unaryIndexed_result _ _ _ _ _ _ _ _ _ _)
  have e_d : St V 22 (Proc.devRef .tc main_v8) = _ := (congrFun (stage22 V) (Proc.devRef .tc main_v8)).trans (binary_result _ _ _ _ _ _ _ _)
  have e_e : St V 23 (Proc.devRef .tc main_cst_9) = _ := (congrFun (stage23 V) (Proc.devRef .tc main_cst_9)).trans (nullary_result _ _ _ _)
  have e_E : St V 24 (Proc.devRef .tc main_v9) = _ := (congrFun (stage24 V) (Proc.devRef .tc main_v9)).trans (unary_result _ _ _ _ _ _)
  have e_q : St V 25 (Proc.devRef .tc main_v10) = _ := (congrFun (stage25 V) (Proc.devRef .tc main_v10)).trans (binary_result _ _ _ _ _ _ _ _)
  have e_u : St V 26 (Proc.devRef .tc main_v11) = _ := (congrFun (stage26 V) (Proc.devRef .tc main_v11)).trans (unary_result _ _ _ _ _ _)
  have a2 : St V 15 (Proc.devRef .tc main_arg0) = V (Proc.devRef .tc main_arg0) :=
    persist V main_arg0 0 15 (by omega) (by omega) (fun k hk _ => arg_never k (by omega))
  have a8 : St V 21 (Proc.devRef .tc main_arg0) = V (Proc.devRef .tc main_arg0) :=
    persist V main_arg0 0 21 (by omega) (by omega) (fun k hk _ => arg_never k (by omega))
  have p_p : St V 20 (Proc.devRef .tc main_v6) = St V 16 (Proc.devRef .tc main_v6) := persist V main_v6 16 20 (by omega) (by omega) (by decide)
  have p_c0 : St V 20 (Proc.devRef .tc main_c_5) = St V 17 (Proc.devRef .tc main_c_5) := persist V main_c_5 17 20 (by omega) (by omega) (by decide)
  have p_c1 : St V 20 (Proc.devRef .tc main_c_6) = St V 18 (Proc.devRef .tc main_c_6) := persist V main_c_6 18 20 (by omega) (by omega) (by decide)
  have p_c2 : St V 20 (Proc.devRef .tc main_c_7) = St V 19 (Proc.devRef .tc main_c_7) := persist V main_c_7 19 20 (by omega) (by omega) (by decide)
  have p_d : St V 24 (Proc.devRef .tc main_v8) = St V 22 (Proc.devRef .tc main_v8) := persist V main_v8 22 24 (by omega) (by omega) (by decide)
  rw [e_u, e_q, p_d, e_d, e_E, e_e, a8, e_s, p_p, e_p, a2, e_z, e_c]
  obtain ⟨pp, hpp⟩ := leftN_real (V (Proc.devRef .tc main_arg0)) hx 1 bb R C
  obtain ⟨qq, hqq⟩ := hx (ix4 bb (0 : Fin 1) R C)
  refine compare_at _ _ _ (ix4 bb (0 : Fin 1) R C) (leftN (V (Proc.devRef .tc main_arg0)) 1 bb R C) ?_ pp qq hpp hqq (zeros_at _ _)
  refine (cols_shifted (V (Proc.devRef .tc main_arg0)) 1 _ pads_S8x1x1024x1024_S8x1x1024x1026_000_000_000_110 h_S_ sliceFits_S8x1x1024x1026_S8x1x1024x1024 _ ?_ bb R C).trans ?_
  · intro a
    fin_cases a
    · show ((St V 20 (Proc.devRef .tc main_c_5)) (Shape.Idx.first _)).toInt = 0
      rw [p_c0, e_c0]; rfl
    · show ((St V 20 (Proc.devRef .tc main_c_6)) (Shape.Idx.first _)).toInt = 0
      rw [p_c1, e_c1]; rfl
    · show ((St V 20 (Proc.devRef .tc main_c_7)) (Shape.Idx.first _)).toInt = 0
      rw [p_c2, e_c2]; rfl
    · show ((St V 20 (Proc.devRef .tc main_c_8)) (Shape.Idx.first _)).toInt = 0
      rw [e_c3]; rfl
  · unfold leftN
    by_cases h : 1 ≤ C.val
    · rw [dif_pos h, dif_pos h]
    · rw [dif_neg h, dif_neg h]
      show (((0#32 : BitVec 32).toInt : ℝ) : EReal) = 0
      simp

/-- Map 2 of the reference at a pixel, after its thirteen operations. -/
theorem map2 (V : Valuation τ sig (Elt Ideal)) (hx : ∀ j, IsReal (V (Proc.devRef .tc main_arg0) j)) (bb : Fin 8) (R C : Fin 1024) :
    St V 39 (Proc.devRef .tc main_v17) (ix4 bb (0 : Fin 1) R C)
      = same (upN (V (Proc.devRef .tc main_arg0)) 3 bb R C) (V (Proc.devRef .tc main_arg0) (ix4 bb (0 : Fin 1) R C)) := by
  have e_c : St V 27 (Proc.devRef .tc main_c_10) = _ := (congrFun (stage27 V) (Proc.devRef .tc main_c_10)).trans (nullary_result _ _ _ _)
  have e_z : St V 28 (Proc.devRef .tc main_call2_v0) = _ := (congrFun (stage28 V) (Proc.devRef .tc main_call2_v0)).trans (unary_result _ _ _ _ _ _)
  have e_p : St V 29 (Proc.devRef .tc main_v12) = _ := (congrFun (stage29 V) (Proc.devRef .tc main_v12)).trans (binary_result _ _ _ _ _ _ _ _)
  have e_c0 : St V 30 (Proc.devRef .tc main_c_11) = _ := (congrFun (stage30 V) (Proc.devRef .tc main_c_11)).trans (nullary_result _ _ _ _)
  have e_c1 : St V 31 (Proc.devRef .tc main_c_12) = _ := (congrFun (stage31 V) (Proc.devRef .tc main_c_12)).trans (nullary_result _ _ _ _)
  have e_c2 : St V 32 (Proc.devRef .tc main_c_13) = _ := (congrFun (stage32 V) (Proc.devRef .tc main_c_13)).trans (nullary_result _ _ _ _)
  have e_c3 : St V 33 (Proc.devRef .tc main_c_14) = _ := (congrFun (stage33 V) (Proc.devRef .tc main_c_14)).trans (nullary_result _ _ _ _)
  have e_s : St V 34 (Proc.devRef .tc main_v13) = _ := (congrFun (stage34 V) (Proc.devRef .tc main_v13)).trans (unaryIndexed_result _ _ _ _ _ _ _ _ _ _)
  have e_d : St V 35 (Proc.devRef .tc main_v14) = _ := (congrFun (stage35 V) (Proc.devRef .tc main_v14)).trans (binary_result _ _ _ _ _ _ _ _)
  have e_e : St V 36 (Proc.devRef .tc main_cst_15) = _ := (congrFun (stage36 V) (Proc.devRef .tc main_cst_15)).trans (nullary_result _ _ _ _)
  have e_E : St V 37 (Proc.devRef .tc main_v15) = _ := (congrFun (stage37 V) (Proc.devRef .tc main_v15)).trans (unary_result _ _ _ _ _ _)
  have e_q : St V 38 (Proc.devRef .tc main_v16) = _ := (congrFun (stage38 V) (Proc.devRef .tc main_v16)).trans (binary_result _ _ _ _ _ _ _ _)
  have e_u : St V 39 (Proc.devRef .tc main_v17) = _ := (congrFun (stage39 V) (Proc.devRef .tc main_v17)).trans (unary_result _ _ _ _ _ _)
  have a2 : St V 28 (Proc.devRef .tc main_arg0) = V (Proc.devRef .tc main_arg0) :=
    persist V main_arg0 0 28 (by omega) (by omega) (fun k hk _ => arg_never k (by omega))
  have a8 : St V 34 (Proc.devRef .tc main_arg0) = V (Proc.devRef .tc main_arg0) :=
    persist V main_arg0 0 34 (by omega) (by omega) (fun k hk _ => arg_never k (by omega))
  have p_p : St V 33 (Proc.devRef .tc main_v12) = St V 29 (Proc.devRef .tc main_v12) := persist V main_v12 29 33 (by omega) (by omega) (by decide)
  have p_c0 : St V 33 (Proc.devRef .tc main_c_11) = St V 30 (Proc.devRef .tc main_c_11) := persist V main_c_11 30 33 (by omega) (by omega) (by decide)
  have p_c1 : St V 33 (Proc.devRef .tc main_c_12) = St V 31 (Proc.devRef .tc main_c_12) := persist V main_c_12 31 33 (by omega) (by omega) (by decide)
  have p_c2 : St V 33 (Proc.devRef .tc main_c_13) = St V 32 (Proc.devRef .tc main_c_13) := persist V main_c_13 32 33 (by omega) (by omega) (by decide)
  have p_d : St V 37 (Proc.devRef .tc main_v14) = St V 35 (Proc.devRef .tc main_v14) := persist V main_v14 35 37 (by omega) (by omega) (by decide)
  rw [e_u, e_q, p_d, e_d, e_E, e_e, a8, e_s, p_p, e_p, a2, e_z, e_c]
  obtain ⟨pp, hpp⟩ := upN_real (V (Proc.devRef .tc main_arg0)) hx 3 bb R C
  obtain ⟨qq, hqq⟩ := hx (ix4 bb (0 : Fin 1) R C)
  refine compare_at _ _ _ (ix4 bb (0 : Fin 1) R C) (upN (V (Proc.devRef .tc main_arg0)) 3 bb R C) ?_ pp qq hpp hqq (zeros_at _ _)
  refine (rows_shifted (V (Proc.devRef .tc main_arg0)) 3 _ pads_S8x1x1024x1024_S8x1x1030x1024_000_000_330_000 h_S_ sliceFits_S8x1x1030x1024_S8x1x1024x1024 _ ?_ bb R C).trans ?_
  · intro a
    fin_cases a
    · show ((St V 33 (Proc.devRef .tc main_c_11)) (Shape.Idx.first _)).toInt = 0
      rw [p_c0, e_c0]; rfl
    · show ((St V 33 (Proc.devRef .tc main_c_12)) (Shape.Idx.first _)).toInt = 0
      rw [p_c1, e_c1]; rfl
    · show ((St V 33 (Proc.devRef .tc main_c_13)) (Shape.Idx.first _)).toInt = 0
      rw [p_c2, e_c2]; rfl
    · show ((St V 33 (Proc.devRef .tc main_c_14)) (Shape.Idx.first _)).toInt = 0
      rw [e_c3]; rfl
  · unfold upN
    by_cases h : 3 ≤ R.val
    · rw [dif_pos h, dif_pos h]
    · rw [dif_neg h, dif_neg h]
      show (((0#32 : BitVec 32).toInt : ℝ) : EReal) = 0
      simp

/-- Map 3 of the reference at a pixel, after its thirteen operations. -/
theorem map3 (V : Valuation τ sig (Elt Ideal)) (hx : ∀ j, IsReal (V (Proc.devRef .tc main_arg0) j)) (bb : Fin 8) (R C : Fin 1024) :
    St V 52 (Proc.devRef .tc main_v23) (ix4 bb (0 : Fin 1) R C)
      = same (leftN (V (Proc.devRef .tc main_arg0)) 3 bb R C) (V (Proc.devRef .tc main_arg0) (ix4 bb (0 : Fin 1) R C)) := by
  have e_c : St V 40 (Proc.devRef .tc main_c_16) = _ := (congrFun (stage40 V) (Proc.devRef .tc main_c_16)).trans (nullary_result _ _ _ _)
  have e_z : St V 41 (Proc.devRef .tc main_call3_v0) = _ := (congrFun (stage41 V) (Proc.devRef .tc main_call3_v0)).trans (unary_result _ _ _ _ _ _)
  have e_p : St V 42 (Proc.devRef .tc main_v18) = _ := (congrFun (stage42 V) (Proc.devRef .tc main_v18)).trans (binary_result _ _ _ _ _ _ _ _)
  have e_c0 : St V 43 (Proc.devRef .tc main_c_17) = _ := (congrFun (stage43 V) (Proc.devRef .tc main_c_17)).trans (nullary_result _ _ _ _)
  have e_c1 : St V 44 (Proc.devRef .tc main_c_18) = _ := (congrFun (stage44 V) (Proc.devRef .tc main_c_18)).trans (nullary_result _ _ _ _)
  have e_c2 : St V 45 (Proc.devRef .tc main_c_19) = _ := (congrFun (stage45 V) (Proc.devRef .tc main_c_19)).trans (nullary_result _ _ _ _)
  have e_c3 : St V 46 (Proc.devRef .tc main_c_20) = _ := (congrFun (stage46 V) (Proc.devRef .tc main_c_20)).trans (nullary_result _ _ _ _)
  have e_s : St V 47 (Proc.devRef .tc main_v19) = _ := (congrFun (stage47 V) (Proc.devRef .tc main_v19)).trans (unaryIndexed_result _ _ _ _ _ _ _ _ _ _)
  have e_d : St V 48 (Proc.devRef .tc main_v20) = _ := (congrFun (stage48 V) (Proc.devRef .tc main_v20)).trans (binary_result _ _ _ _ _ _ _ _)
  have e_e : St V 49 (Proc.devRef .tc main_cst_21) = _ := (congrFun (stage49 V) (Proc.devRef .tc main_cst_21)).trans (nullary_result _ _ _ _)
  have e_E : St V 50 (Proc.devRef .tc main_v21) = _ := (congrFun (stage50 V) (Proc.devRef .tc main_v21)).trans (unary_result _ _ _ _ _ _)
  have e_q : St V 51 (Proc.devRef .tc main_v22) = _ := (congrFun (stage51 V) (Proc.devRef .tc main_v22)).trans (binary_result _ _ _ _ _ _ _ _)
  have e_u : St V 52 (Proc.devRef .tc main_v23) = _ := (congrFun (stage52 V) (Proc.devRef .tc main_v23)).trans (unary_result _ _ _ _ _ _)
  have a2 : St V 41 (Proc.devRef .tc main_arg0) = V (Proc.devRef .tc main_arg0) :=
    persist V main_arg0 0 41 (by omega) (by omega) (fun k hk _ => arg_never k (by omega))
  have a8 : St V 47 (Proc.devRef .tc main_arg0) = V (Proc.devRef .tc main_arg0) :=
    persist V main_arg0 0 47 (by omega) (by omega) (fun k hk _ => arg_never k (by omega))
  have p_p : St V 46 (Proc.devRef .tc main_v18) = St V 42 (Proc.devRef .tc main_v18) := persist V main_v18 42 46 (by omega) (by omega) (by decide)
  have p_c0 : St V 46 (Proc.devRef .tc main_c_17) = St V 43 (Proc.devRef .tc main_c_17) := persist V main_c_17 43 46 (by omega) (by omega) (by decide)
  have p_c1 : St V 46 (Proc.devRef .tc main_c_18) = St V 44 (Proc.devRef .tc main_c_18) := persist V main_c_18 44 46 (by omega) (by omega) (by decide)
  have p_c2 : St V 46 (Proc.devRef .tc main_c_19) = St V 45 (Proc.devRef .tc main_c_19) := persist V main_c_19 45 46 (by omega) (by omega) (by decide)
  have p_d : St V 50 (Proc.devRef .tc main_v20) = St V 48 (Proc.devRef .tc main_v20) := persist V main_v20 48 50 (by omega) (by omega) (by decide)
  rw [e_u, e_q, p_d, e_d, e_E, e_e, a8, e_s, p_p, e_p, a2, e_z, e_c]
  obtain ⟨pp, hpp⟩ := leftN_real (V (Proc.devRef .tc main_arg0)) hx 3 bb R C
  obtain ⟨qq, hqq⟩ := hx (ix4 bb (0 : Fin 1) R C)
  refine compare_at _ _ _ (ix4 bb (0 : Fin 1) R C) (leftN (V (Proc.devRef .tc main_arg0)) 3 bb R C) ?_ pp qq hpp hqq (zeros_at _ _)
  refine (cols_shifted (V (Proc.devRef .tc main_arg0)) 3 _ pads_S8x1x1024x1024_S8x1x1024x1030_000_000_000_330 h_S_ sliceFits_S8x1x1024x1030_S8x1x1024x1024 _ ?_ bb R C).trans ?_
  · intro a
    fin_cases a
    · show ((St V 46 (Proc.devRef .tc main_c_17)) (Shape.Idx.first _)).toInt = 0
      rw [p_c0, e_c0]; rfl
    · show ((St V 46 (Proc.devRef .tc main_c_18)) (Shape.Idx.first _)).toInt = 0
      rw [p_c1, e_c1]; rfl
    · show ((St V 46 (Proc.devRef .tc main_c_19)) (Shape.Idx.first _)).toInt = 0
      rw [p_c2, e_c2]; rfl
    · show ((St V 46 (Proc.devRef .tc main_c_20)) (Shape.Idx.first _)).toInt = 0
      rw [e_c3]; rfl
  · unfold leftN
    by_cases h : 3 ≤ C.val
    · rw [dif_pos h, dif_pos h]
    · rw [dif_neg h, dif_neg h]
      show (((0#32 : BitVec 32).toInt : ℝ) : EReal) = 0
      simp

/-- Map 4 of the reference at a pixel, after its thirteen operations. -/
theorem map4 (V : Valuation τ sig (Elt Ideal)) (hx : ∀ j, IsReal (V (Proc.devRef .tc main_arg0) j)) (bb : Fin 8) (R C : Fin 1024) :
    St V 65 (Proc.devRef .tc main_v29) (ix4 bb (0 : Fin 1) R C)
      = same (upN (V (Proc.devRef .tc main_arg0)) 9 bb R C) (V (Proc.devRef .tc main_arg0) (ix4 bb (0 : Fin 1) R C)) := by
  have e_c : St V 53 (Proc.devRef .tc main_c_22) = _ := (congrFun (stage53 V) (Proc.devRef .tc main_c_22)).trans (nullary_result _ _ _ _)
  have e_z : St V 54 (Proc.devRef .tc main_call4_v0) = _ := (congrFun (stage54 V) (Proc.devRef .tc main_call4_v0)).trans (unary_result _ _ _ _ _ _)
  have e_p : St V 55 (Proc.devRef .tc main_v24) = _ := (congrFun (stage55 V) (Proc.devRef .tc main_v24)).trans (binary_result _ _ _ _ _ _ _ _)
  have e_c0 : St V 56 (Proc.devRef .tc main_c_23) = _ := (congrFun (stage56 V) (Proc.devRef .tc main_c_23)).trans (nullary_result _ _ _ _)
  have e_c1 : St V 57 (Proc.devRef .tc main_c_24) = _ := (congrFun (stage57 V) (Proc.devRef .tc main_c_24)).trans (nullary_result _ _ _ _)
  have e_c2 : St V 58 (Proc.devRef .tc main_c_25) = _ := (congrFun (stage58 V) (Proc.devRef .tc main_c_25)).trans (nullary_result _ _ _ _)
  have e_c3 : St V 59 (Proc.devRef .tc main_c_26) = _ := (congrFun (stage59 V) (Proc.devRef .tc main_c_26)).trans (nullary_result _ _ _ _)
  have e_s : St V 60 (Proc.devRef .tc main_v25) = _ := (congrFun (stage60 V) (Proc.devRef .tc main_v25)).trans (unaryIndexed_result _ _ _ _ _ _ _ _ _ _)
  have e_d : St V 61 (Proc.devRef .tc main_v26) = _ := (congrFun (stage61 V) (Proc.devRef .tc main_v26)).trans (binary_result _ _ _ _ _ _ _ _)
  have e_e : St V 62 (Proc.devRef .tc main_cst_27) = _ := (congrFun (stage62 V) (Proc.devRef .tc main_cst_27)).trans (nullary_result _ _ _ _)
  have e_E : St V 63 (Proc.devRef .tc main_v27) = _ := (congrFun (stage63 V) (Proc.devRef .tc main_v27)).trans (unary_result _ _ _ _ _ _)
  have e_q : St V 64 (Proc.devRef .tc main_v28) = _ := (congrFun (stage64 V) (Proc.devRef .tc main_v28)).trans (binary_result _ _ _ _ _ _ _ _)
  have e_u : St V 65 (Proc.devRef .tc main_v29) = _ := (congrFun (stage65 V) (Proc.devRef .tc main_v29)).trans (unary_result _ _ _ _ _ _)
  have a2 : St V 54 (Proc.devRef .tc main_arg0) = V (Proc.devRef .tc main_arg0) :=
    persist V main_arg0 0 54 (by omega) (by omega) (fun k hk _ => arg_never k (by omega))
  have a8 : St V 60 (Proc.devRef .tc main_arg0) = V (Proc.devRef .tc main_arg0) :=
    persist V main_arg0 0 60 (by omega) (by omega) (fun k hk _ => arg_never k (by omega))
  have p_p : St V 59 (Proc.devRef .tc main_v24) = St V 55 (Proc.devRef .tc main_v24) := persist V main_v24 55 59 (by omega) (by omega) (by decide)
  have p_c0 : St V 59 (Proc.devRef .tc main_c_23) = St V 56 (Proc.devRef .tc main_c_23) := persist V main_c_23 56 59 (by omega) (by omega) (by decide)
  have p_c1 : St V 59 (Proc.devRef .tc main_c_24) = St V 57 (Proc.devRef .tc main_c_24) := persist V main_c_24 57 59 (by omega) (by omega) (by decide)
  have p_c2 : St V 59 (Proc.devRef .tc main_c_25) = St V 58 (Proc.devRef .tc main_c_25) := persist V main_c_25 58 59 (by omega) (by omega) (by decide)
  have p_d : St V 63 (Proc.devRef .tc main_v26) = St V 61 (Proc.devRef .tc main_v26) := persist V main_v26 61 63 (by omega) (by omega) (by decide)
  rw [e_u, e_q, p_d, e_d, e_E, e_e, a8, e_s, p_p, e_p, a2, e_z, e_c]
  obtain ⟨pp, hpp⟩ := upN_real (V (Proc.devRef .tc main_arg0)) hx 9 bb R C
  obtain ⟨qq, hqq⟩ := hx (ix4 bb (0 : Fin 1) R C)
  refine compare_at _ _ _ (ix4 bb (0 : Fin 1) R C) (upN (V (Proc.devRef .tc main_arg0)) 9 bb R C) ?_ pp qq hpp hqq (zeros_at _ _)
  refine (rows_shifted (V (Proc.devRef .tc main_arg0)) 9 _ pads_S8x1x1024x1024_S8x1x1042x1024_000_000_990_000 h_S_ sliceFits_S8x1x1042x1024_S8x1x1024x1024 _ ?_ bb R C).trans ?_
  · intro a
    fin_cases a
    · show ((St V 59 (Proc.devRef .tc main_c_23)) (Shape.Idx.first _)).toInt = 0
      rw [p_c0, e_c0]; rfl
    · show ((St V 59 (Proc.devRef .tc main_c_24)) (Shape.Idx.first _)).toInt = 0
      rw [p_c1, e_c1]; rfl
    · show ((St V 59 (Proc.devRef .tc main_c_25)) (Shape.Idx.first _)).toInt = 0
      rw [p_c2, e_c2]; rfl
    · show ((St V 59 (Proc.devRef .tc main_c_26)) (Shape.Idx.first _)).toInt = 0
      rw [e_c3]; rfl
  · unfold upN
    by_cases h : 9 ≤ R.val
    · rw [dif_pos h, dif_pos h]
    · rw [dif_neg h, dif_neg h]
      show (((0#32 : BitVec 32).toInt : ℝ) : EReal) = 0
      simp

/-- Map 5 of the reference at a pixel, after its thirteen operations. -/
theorem map5 (V : Valuation τ sig (Elt Ideal)) (hx : ∀ j, IsReal (V (Proc.devRef .tc main_arg0) j)) (bb : Fin 8) (R C : Fin 1024) :
    St V 78 (Proc.devRef .tc main_v35) (ix4 bb (0 : Fin 1) R C)
      = same (leftN (V (Proc.devRef .tc main_arg0)) 9 bb R C) (V (Proc.devRef .tc main_arg0) (ix4 bb (0 : Fin 1) R C)) := by
  have e_c : St V 66 (Proc.devRef .tc main_c_28) = _ := (congrFun (stage66 V) (Proc.devRef .tc main_c_28)).trans (nullary_result _ _ _ _)
  have e_z : St V 67 (Proc.devRef .tc main_call5_v0) = _ := (congrFun (stage67 V) (Proc.devRef .tc main_call5_v0)).trans (unary_result _ _ _ _ _ _)
  have e_p : St V 68 (Proc.devRef .tc main_v30) = _ := (congrFun (stage68 V) (Proc.devRef .tc main_v30)).trans (binary_result _ _ _ _ _ _ _ _)
  have e_c0 : St V 69 (Proc.devRef .tc main_c_29) = _ := (congrFun (stage69 V) (Proc.devRef .tc main_c_29)).trans (nullary_result _ _ _ _)
  have e_c1 : St V 70 (Proc.devRef .tc main_c_30) = _ := (congrFun (stage70 V) (Proc.devRef .tc main_c_30)).trans (nullary_result _ _ _ _)
  have e_c2 : St V 71 (Proc.devRef .tc main_c_31) = _ := (congrFun (stage71 V) (Proc.devRef .tc main_c_31)).trans (nullary_result _ _ _ _)
  have e_c3 : St V 72 (Proc.devRef .tc main_c_32) = _ := (congrFun (stage72 V) (Proc.devRef .tc main_c_32)).trans (nullary_result _ _ _ _)
  have e_s : St V 73 (Proc.devRef .tc main_v31) = _ := (congrFun (stage73 V) (Proc.devRef .tc main_v31)).trans (unaryIndexed_result _ _ _ _ _ _ _ _ _ _)
  have e_d : St V 74 (Proc.devRef .tc main_v32) = _ := (congrFun (stage74 V) (Proc.devRef .tc main_v32)).trans (binary_result _ _ _ _ _ _ _ _)
  have e_e : St V 75 (Proc.devRef .tc main_cst_33) = _ := (congrFun (stage75 V) (Proc.devRef .tc main_cst_33)).trans (nullary_result _ _ _ _)
  have e_E : St V 76 (Proc.devRef .tc main_v33) = _ := (congrFun (stage76 V) (Proc.devRef .tc main_v33)).trans (unary_result _ _ _ _ _ _)
  have e_q : St V 77 (Proc.devRef .tc main_v34) = _ := (congrFun (stage77 V) (Proc.devRef .tc main_v34)).trans (binary_result _ _ _ _ _ _ _ _)
  have e_u : St V 78 (Proc.devRef .tc main_v35) = _ := (congrFun (stage78 V) (Proc.devRef .tc main_v35)).trans (unary_result _ _ _ _ _ _)
  have a2 : St V 67 (Proc.devRef .tc main_arg0) = V (Proc.devRef .tc main_arg0) :=
    persist V main_arg0 0 67 (by omega) (by omega) (fun k hk _ => arg_never k (by omega))
  have a8 : St V 73 (Proc.devRef .tc main_arg0) = V (Proc.devRef .tc main_arg0) :=
    persist V main_arg0 0 73 (by omega) (by omega) (fun k hk _ => arg_never k (by omega))
  have p_p : St V 72 (Proc.devRef .tc main_v30) = St V 68 (Proc.devRef .tc main_v30) := persist V main_v30 68 72 (by omega) (by omega) (by decide)
  have p_c0 : St V 72 (Proc.devRef .tc main_c_29) = St V 69 (Proc.devRef .tc main_c_29) := persist V main_c_29 69 72 (by omega) (by omega) (by decide)
  have p_c1 : St V 72 (Proc.devRef .tc main_c_30) = St V 70 (Proc.devRef .tc main_c_30) := persist V main_c_30 70 72 (by omega) (by omega) (by decide)
  have p_c2 : St V 72 (Proc.devRef .tc main_c_31) = St V 71 (Proc.devRef .tc main_c_31) := persist V main_c_31 71 72 (by omega) (by omega) (by decide)
  have p_d : St V 76 (Proc.devRef .tc main_v32) = St V 74 (Proc.devRef .tc main_v32) := persist V main_v32 74 76 (by omega) (by omega) (by decide)
  rw [e_u, e_q, p_d, e_d, e_E, e_e, a8, e_s, p_p, e_p, a2, e_z, e_c]
  obtain ⟨pp, hpp⟩ := leftN_real (V (Proc.devRef .tc main_arg0)) hx 9 bb R C
  obtain ⟨qq, hqq⟩ := hx (ix4 bb (0 : Fin 1) R C)
  refine compare_at _ _ _ (ix4 bb (0 : Fin 1) R C) (leftN (V (Proc.devRef .tc main_arg0)) 9 bb R C) ?_ pp qq hpp hqq (zeros_at _ _)
  refine (cols_shifted (V (Proc.devRef .tc main_arg0)) 9 _ pads_S8x1x1024x1024_S8x1x1024x1042_000_000_000_990 h_S_ sliceFits_S8x1x1024x1042_S8x1x1024x1024 _ ?_ bb R C).trans ?_
  · intro a
    fin_cases a
    · show ((St V 72 (Proc.devRef .tc main_c_29)) (Shape.Idx.first _)).toInt = 0
      rw [p_c0, e_c0]; rfl
    · show ((St V 72 (Proc.devRef .tc main_c_30)) (Shape.Idx.first _)).toInt = 0
      rw [p_c1, e_c1]; rfl
    · show ((St V 72 (Proc.devRef .tc main_c_31)) (Shape.Idx.first _)).toInt = 0
      rw [p_c2, e_c2]; rfl
    · show ((St V 72 (Proc.devRef .tc main_c_32)) (Shape.Idx.first _)).toInt = 0
      rw [e_c3]; rfl
  · unfold leftN
    by_cases h : 9 ≤ C.val
    · rw [dif_pos h, dif_pos h]
    · rw [dif_neg h, dif_neg h]
      show (((0#32 : BitVec 32).toInt : ℝ) : EReal) = 0
      simp

/-- Map 6 of the reference at a pixel, after its thirteen operations. -/
theorem map6 (V : Valuation τ sig (Elt Ideal)) (hx : ∀ j, IsReal (V (Proc.devRef .tc main_arg0) j)) (bb : Fin 8) (R C : Fin 1024) :
    St V 91 (Proc.devRef .tc main_v41) (ix4 bb (0 : Fin 1) R C)
      = same (upN (V (Proc.devRef .tc main_arg0)) 27 bb R C) (V (Proc.devRef .tc main_arg0) (ix4 bb (0 : Fin 1) R C)) := by
  have e_c : St V 79 (Proc.devRef .tc main_c_34) = _ := (congrFun (stage79 V) (Proc.devRef .tc main_c_34)).trans (nullary_result _ _ _ _)
  have e_z : St V 80 (Proc.devRef .tc main_call6_v0) = _ := (congrFun (stage80 V) (Proc.devRef .tc main_call6_v0)).trans (unary_result _ _ _ _ _ _)
  have e_p : St V 81 (Proc.devRef .tc main_v36) = _ := (congrFun (stage81 V) (Proc.devRef .tc main_v36)).trans (binary_result _ _ _ _ _ _ _ _)
  have e_c0 : St V 82 (Proc.devRef .tc main_c_35) = _ := (congrFun (stage82 V) (Proc.devRef .tc main_c_35)).trans (nullary_result _ _ _ _)
  have e_c1 : St V 83 (Proc.devRef .tc main_c_36) = _ := (congrFun (stage83 V) (Proc.devRef .tc main_c_36)).trans (nullary_result _ _ _ _)
  have e_c2 : St V 84 (Proc.devRef .tc main_c_37) = _ := (congrFun (stage84 V) (Proc.devRef .tc main_c_37)).trans (nullary_result _ _ _ _)
  have e_c3 : St V 85 (Proc.devRef .tc main_c_38) = _ := (congrFun (stage85 V) (Proc.devRef .tc main_c_38)).trans (nullary_result _ _ _ _)
  have e_s : St V 86 (Proc.devRef .tc main_v37) = _ := (congrFun (stage86 V) (Proc.devRef .tc main_v37)).trans (unaryIndexed_result _ _ _ _ _ _ _ _ _ _)
  have e_d : St V 87 (Proc.devRef .tc main_v38) = _ := (congrFun (stage87 V) (Proc.devRef .tc main_v38)).trans (binary_result _ _ _ _ _ _ _ _)
  have e_e : St V 88 (Proc.devRef .tc main_cst_39) = _ := (congrFun (stage88 V) (Proc.devRef .tc main_cst_39)).trans (nullary_result _ _ _ _)
  have e_E : St V 89 (Proc.devRef .tc main_v39) = _ := (congrFun (stage89 V) (Proc.devRef .tc main_v39)).trans (unary_result _ _ _ _ _ _)
  have e_q : St V 90 (Proc.devRef .tc main_v40) = _ := (congrFun (stage90 V) (Proc.devRef .tc main_v40)).trans (binary_result _ _ _ _ _ _ _ _)
  have e_u : St V 91 (Proc.devRef .tc main_v41) = _ := (congrFun (stage91 V) (Proc.devRef .tc main_v41)).trans (unary_result _ _ _ _ _ _)
  have a2 : St V 80 (Proc.devRef .tc main_arg0) = V (Proc.devRef .tc main_arg0) :=
    persist V main_arg0 0 80 (by omega) (by omega) (fun k hk _ => arg_never k (by omega))
  have a8 : St V 86 (Proc.devRef .tc main_arg0) = V (Proc.devRef .tc main_arg0) :=
    persist V main_arg0 0 86 (by omega) (by omega) (fun k hk _ => arg_never k (by omega))
  have p_p : St V 85 (Proc.devRef .tc main_v36) = St V 81 (Proc.devRef .tc main_v36) := persist V main_v36 81 85 (by omega) (by omega) (by decide)
  have p_c0 : St V 85 (Proc.devRef .tc main_c_35) = St V 82 (Proc.devRef .tc main_c_35) := persist V main_c_35 82 85 (by omega) (by omega) (by decide)
  have p_c1 : St V 85 (Proc.devRef .tc main_c_36) = St V 83 (Proc.devRef .tc main_c_36) := persist V main_c_36 83 85 (by omega) (by omega) (by decide)
  have p_c2 : St V 85 (Proc.devRef .tc main_c_37) = St V 84 (Proc.devRef .tc main_c_37) := persist V main_c_37 84 85 (by omega) (by omega) (by decide)
  have p_d : St V 89 (Proc.devRef .tc main_v38) = St V 87 (Proc.devRef .tc main_v38) := persist V main_v38 87 89 (by omega) (by omega) (by decide)
  rw [e_u, e_q, p_d, e_d, e_E, e_e, a8, e_s, p_p, e_p, a2, e_z, e_c]
  obtain ⟨pp, hpp⟩ := upN_real (V (Proc.devRef .tc main_arg0)) hx 27 bb R C
  obtain ⟨qq, hqq⟩ := hx (ix4 bb (0 : Fin 1) R C)
  refine compare_at _ _ _ (ix4 bb (0 : Fin 1) R C) (upN (V (Proc.devRef .tc main_arg0)) 27 bb R C) ?_ pp qq hpp hqq (zeros_at _ _)
  refine (rows_shifted (V (Proc.devRef .tc main_arg0)) 27 _ pads_S8x1x1024x1024_S8x1x1078x1024_000_000_27270_000 h_S_ sliceFits_S8x1x1078x1024_S8x1x1024x1024 _ ?_ bb R C).trans ?_
  · intro a
    fin_cases a
    · show ((St V 85 (Proc.devRef .tc main_c_35)) (Shape.Idx.first _)).toInt = 0
      rw [p_c0, e_c0]; rfl
    · show ((St V 85 (Proc.devRef .tc main_c_36)) (Shape.Idx.first _)).toInt = 0
      rw [p_c1, e_c1]; rfl
    · show ((St V 85 (Proc.devRef .tc main_c_37)) (Shape.Idx.first _)).toInt = 0
      rw [p_c2, e_c2]; rfl
    · show ((St V 85 (Proc.devRef .tc main_c_38)) (Shape.Idx.first _)).toInt = 0
      rw [e_c3]; rfl
  · unfold upN
    by_cases h : 27 ≤ R.val
    · rw [dif_pos h, dif_pos h]
    · rw [dif_neg h, dif_neg h]
      show (((0#32 : BitVec 32).toInt : ℝ) : EReal) = 0
      simp

/-- Map 7 of the reference at a pixel, after its thirteen operations. -/
theorem map7 (V : Valuation τ sig (Elt Ideal)) (hx : ∀ j, IsReal (V (Proc.devRef .tc main_arg0) j)) (bb : Fin 8) (R C : Fin 1024) :
    St V 104 (Proc.devRef .tc main_v47) (ix4 bb (0 : Fin 1) R C)
      = same (leftN (V (Proc.devRef .tc main_arg0)) 27 bb R C) (V (Proc.devRef .tc main_arg0) (ix4 bb (0 : Fin 1) R C)) := by
  have e_c : St V 92 (Proc.devRef .tc main_c_40) = _ := (congrFun (stage92 V) (Proc.devRef .tc main_c_40)).trans (nullary_result _ _ _ _)
  have e_z : St V 93 (Proc.devRef .tc main_call7_v0) = _ := (congrFun (stage93 V) (Proc.devRef .tc main_call7_v0)).trans (unary_result _ _ _ _ _ _)
  have e_p : St V 94 (Proc.devRef .tc main_v42) = _ := (congrFun (stage94 V) (Proc.devRef .tc main_v42)).trans (binary_result _ _ _ _ _ _ _ _)
  have e_c0 : St V 95 (Proc.devRef .tc main_c_41) = _ := (congrFun (stage95 V) (Proc.devRef .tc main_c_41)).trans (nullary_result _ _ _ _)
  have e_c1 : St V 96 (Proc.devRef .tc main_c_42) = _ := (congrFun (stage96 V) (Proc.devRef .tc main_c_42)).trans (nullary_result _ _ _ _)
  have e_c2 : St V 97 (Proc.devRef .tc main_c_43) = _ := (congrFun (stage97 V) (Proc.devRef .tc main_c_43)).trans (nullary_result _ _ _ _)
  have e_c3 : St V 98 (Proc.devRef .tc main_c_44) = _ := (congrFun (stage98 V) (Proc.devRef .tc main_c_44)).trans (nullary_result _ _ _ _)
  have e_s : St V 99 (Proc.devRef .tc main_v43) = _ := (congrFun (stage99 V) (Proc.devRef .tc main_v43)).trans (unaryIndexed_result _ _ _ _ _ _ _ _ _ _)
  have e_d : St V 100 (Proc.devRef .tc main_v44) = _ := (congrFun (stage100 V) (Proc.devRef .tc main_v44)).trans (binary_result _ _ _ _ _ _ _ _)
  have e_e : St V 101 (Proc.devRef .tc main_cst_45) = _ := (congrFun (stage101 V) (Proc.devRef .tc main_cst_45)).trans (nullary_result _ _ _ _)
  have e_E : St V 102 (Proc.devRef .tc main_v45) = _ := (congrFun (stage102 V) (Proc.devRef .tc main_v45)).trans (unary_result _ _ _ _ _ _)
  have e_q : St V 103 (Proc.devRef .tc main_v46) = _ := (congrFun (stage103 V) (Proc.devRef .tc main_v46)).trans (binary_result _ _ _ _ _ _ _ _)
  have e_u : St V 104 (Proc.devRef .tc main_v47) = _ := (congrFun (stage104 V) (Proc.devRef .tc main_v47)).trans (unary_result _ _ _ _ _ _)
  have a2 : St V 93 (Proc.devRef .tc main_arg0) = V (Proc.devRef .tc main_arg0) :=
    persist V main_arg0 0 93 (by omega) (by omega) (fun k hk _ => arg_never k (by omega))
  have a8 : St V 99 (Proc.devRef .tc main_arg0) = V (Proc.devRef .tc main_arg0) :=
    persist V main_arg0 0 99 (by omega) (by omega) (fun k hk _ => arg_never k (by omega))
  have p_p : St V 98 (Proc.devRef .tc main_v42) = St V 94 (Proc.devRef .tc main_v42) := persist V main_v42 94 98 (by omega) (by omega) (by decide)
  have p_c0 : St V 98 (Proc.devRef .tc main_c_41) = St V 95 (Proc.devRef .tc main_c_41) := persist V main_c_41 95 98 (by omega) (by omega) (by decide)
  have p_c1 : St V 98 (Proc.devRef .tc main_c_42) = St V 96 (Proc.devRef .tc main_c_42) := persist V main_c_42 96 98 (by omega) (by omega) (by decide)
  have p_c2 : St V 98 (Proc.devRef .tc main_c_43) = St V 97 (Proc.devRef .tc main_c_43) := persist V main_c_43 97 98 (by omega) (by omega) (by decide)
  have p_d : St V 102 (Proc.devRef .tc main_v44) = St V 100 (Proc.devRef .tc main_v44) := persist V main_v44 100 102 (by omega) (by omega) (by decide)
  rw [e_u, e_q, p_d, e_d, e_E, e_e, a8, e_s, p_p, e_p, a2, e_z, e_c]
  obtain ⟨pp, hpp⟩ := leftN_real (V (Proc.devRef .tc main_arg0)) hx 27 bb R C
  obtain ⟨qq, hqq⟩ := hx (ix4 bb (0 : Fin 1) R C)
  refine compare_at _ _ _ (ix4 bb (0 : Fin 1) R C) (leftN (V (Proc.devRef .tc main_arg0)) 27 bb R C) ?_ pp qq hpp hqq (zeros_at _ _)
  refine (cols_shifted (V (Proc.devRef .tc main_arg0)) 27 _ pads_S8x1x1024x1024_S8x1x1024x1078_000_000_000_27270 h_S_ sliceFits_S8x1x1024x1078_S8x1x1024x1024 _ ?_ bb R C).trans ?_
  · intro a
    fin_cases a
    · show ((St V 98 (Proc.devRef .tc main_c_41)) (Shape.Idx.first _)).toInt = 0
      rw [p_c0, e_c0]; rfl
    · show ((St V 98 (Proc.devRef .tc main_c_42)) (Shape.Idx.first _)).toInt = 0
      rw [p_c1, e_c1]; rfl
    · show ((St V 98 (Proc.devRef .tc main_c_43)) (Shape.Idx.first _)).toInt = 0
      rw [p_c2, e_c2]; rfl
    · show ((St V 98 (Proc.devRef .tc main_c_44)) (Shape.Idx.first _)).toInt = 0
      rw [e_c3]; rfl
  · unfold leftN
    by_cases h : 27 ≤ C.val
    · rw [dif_pos h, dif_pos h]
    · rw [dif_neg h, dif_neg h]
      show (((0#32 : BitVec 32).toInt : ℝ) : EReal) = 0
      simp

/-! ## The stack -/

/-- The reference's result at entry (k, b, 0, r, c), after all 113 operations. -/
theorem result_at (V : Valuation τ sig (Elt Ideal)) (hx : ∀ j, IsReal (V (Proc.devRef .tc main_arg0) j)) (k bb : Fin 8) (R C : Fin 1024) :
    St V 113 (Proc.devRef .tc main_v56) (ix5 k bb (0 : Fin 1) R C)
      = same (neighbour (V (Proc.devRef .tc main_arg0)) k bb R C) (V (Proc.devRef .tc main_arg0) (ix4 bb (0 : Fin 1) R C)) := by
  have e_R : St V 113 (Proc.devRef .tc main_v56) = _ := (congrFun (stage113 V) (Proc.devRef .tc main_v56)).trans (nary_result _ _ _ _ _ _)
  have e_B0 : St V 105 (Proc.devRef .tc main_v48) = _ := (congrFun (stage105 V) (Proc.devRef .tc main_v48)).trans (unary_result _ _ _ _ _ _)
  have p_B0 : St V 112 (Proc.devRef .tc main_v48) = St V 105 (Proc.devRef .tc main_v48) := persist V main_v48 105 112 (by omega) (by omega) (by decide)
  have p_u0 : St V 104 (Proc.devRef .tc main_v5) = St V 13 (Proc.devRef .tc main_v5) := persist V main_v5 13 104 (by omega) (by omega) (by decide)
  have e_B1 : St V 106 (Proc.devRef .tc main_v49) = _ := (congrFun (stage106 V) (Proc.devRef .tc main_v49)).trans (unary_result _ _ _ _ _ _)
  have p_B1 : St V 112 (Proc.devRef .tc main_v49) = St V 106 (Proc.devRef .tc main_v49) := persist V main_v49 106 112 (by omega) (by omega) (by decide)
  have p_u1 : St V 105 (Proc.devRef .tc main_v11) = St V 26 (Proc.devRef .tc main_v11) := persist V main_v11 26 105 (by omega) (by omega) (by decide)
  have e_B2 : St V 107 (Proc.devRef .tc main_v50) = _ := (congrFun (stage107 V) (Proc.devRef .tc main_v50)).trans (unary_result _ _ _ _ _ _)
  have p_B2 : St V 112 (Proc.devRef .tc main_v50) = St V 107 (Proc.devRef .tc main_v50) := persist V main_v50 107 112 (by omega) (by omega) (by decide)
  have p_u2 : St V 106 (Proc.devRef .tc main_v17) = St V 39 (Proc.devRef .tc main_v17) := persist V main_v17 39 106 (by omega) (by omega) (by decide)
  have e_B3 : St V 108 (Proc.devRef .tc main_v51) = _ := (congrFun (stage108 V) (Proc.devRef .tc main_v51)).trans (unary_result _ _ _ _ _ _)
  have p_B3 : St V 112 (Proc.devRef .tc main_v51) = St V 108 (Proc.devRef .tc main_v51) := persist V main_v51 108 112 (by omega) (by omega) (by decide)
  have p_u3 : St V 107 (Proc.devRef .tc main_v23) = St V 52 (Proc.devRef .tc main_v23) := persist V main_v23 52 107 (by omega) (by omega) (by decide)
  have e_B4 : St V 109 (Proc.devRef .tc main_v52) = _ := (congrFun (stage109 V) (Proc.devRef .tc main_v52)).trans (unary_result _ _ _ _ _ _)
  have p_B4 : St V 112 (Proc.devRef .tc main_v52) = St V 109 (Proc.devRef .tc main_v52) := persist V main_v52 109 112 (by omega) (by omega) (by decide)
  have p_u4 : St V 108 (Proc.devRef .tc main_v29) = St V 65 (Proc.devRef .tc main_v29) := persist V main_v29 65 108 (by omega) (by omega) (by decide)
  have e_B5 : St V 110 (Proc.devRef .tc main_v53) = _ := (congrFun (stage110 V) (Proc.devRef .tc main_v53)).trans (unary_result _ _ _ _ _ _)
  have p_B5 : St V 112 (Proc.devRef .tc main_v53) = St V 110 (Proc.devRef .tc main_v53) := persist V main_v53 110 112 (by omega) (by omega) (by decide)
  have p_u5 : St V 109 (Proc.devRef .tc main_v35) = St V 78 (Proc.devRef .tc main_v35) := persist V main_v35 78 109 (by omega) (by omega) (by decide)
  have e_B6 : St V 111 (Proc.devRef .tc main_v54) = _ := (congrFun (stage111 V) (Proc.devRef .tc main_v54)).trans (unary_result _ _ _ _ _ _)
  have p_B6 : St V 112 (Proc.devRef .tc main_v54) = St V 111 (Proc.devRef .tc main_v54) := persist V main_v54 111 112 (by omega) (by omega) (by decide)
  have p_u6 : St V 110 (Proc.devRef .tc main_v41) = St V 91 (Proc.devRef .tc main_v41) := persist V main_v41 91 110 (by omega) (by omega) (by decide)
  have e_B7 : St V 112 (Proc.devRef .tc main_v55) = _ := (congrFun (stage112 V) (Proc.devRef .tc main_v55)).trans (unary_result _ _ _ _ _ _)
  have p_B7 : St V 112 (Proc.devRef .tc main_v55) = St V 112 (Proc.devRef .tc main_v55) := persist V main_v55 112 112 (by omega) (by omega) (by decide)
  have p_u7 : St V 111 (Proc.devRef .tc main_v47) = St V 104 (Proc.devRef .tc main_v47) := persist V main_v47 104 111 (by omega) (by omega) (by decide)
  rw [e_R]
  match k with
  | ⟨0, _⟩ =>
    refine (concatenate_apply_piece (t := S8x8x1x1024x1024) (0 : Fin 5) _ _ (ix5 (0 : Fin 8) bb (0 : Fin 1) R C) 0 ?_ S1x8x1x1024x1024
      (St V 112 (Proc.devRef .tc main_v48)) ?_ rfl 0 ?_ (ix5 (0 : Fin 1) bb (0 : Fin 1) R C) ?_ ?_).trans ?_
    · show 0 < 8; omega
    · rfl
    · rfl
    · intro a ha
      match a with
      | ⟨0, _⟩ => exact absurd rfl ha
      | ⟨1, _⟩ => rfl
      | ⟨2, _⟩ => rfl
      | ⟨3, _⟩ => rfl
      | ⟨4, _⟩ => rfl
    · rfl
    · rw [p_B0, e_B0, p_u0]
      refine (broadcastInDim_apply _ _ _ (ix5 (0 : Fin 1) bb (0 : Fin 1) R C) (ix4 bb (0 : Fin 1) R C) ?_).trans (map0 V hx bb R C)
      intro a
      match a with
      | ⟨0, _⟩ => rfl
      | ⟨1, _⟩ => rfl
      | ⟨2, _⟩ => rfl
      | ⟨3, _⟩ => rfl
  | ⟨1, _⟩ =>
    refine (concatenate_apply_piece (t := S8x8x1x1024x1024) (0 : Fin 5) _ _ (ix5 (1 : Fin 8) bb (0 : Fin 1) R C) 1 ?_ S1x8x1x1024x1024
      (St V 112 (Proc.devRef .tc main_v49)) ?_ rfl 1 ?_ (ix5 (0 : Fin 1) bb (0 : Fin 1) R C) ?_ ?_).trans ?_
    · show 1 < 8; omega
    · rfl
    · rfl
    · intro a ha
      match a with
      | ⟨0, _⟩ => exact absurd rfl ha
      | ⟨1, _⟩ => rfl
      | ⟨2, _⟩ => rfl
      | ⟨3, _⟩ => rfl
      | ⟨4, _⟩ => rfl
    · rfl
    · rw [p_B1, e_B1, p_u1]
      refine (broadcastInDim_apply _ _ _ (ix5 (0 : Fin 1) bb (0 : Fin 1) R C) (ix4 bb (0 : Fin 1) R C) ?_).trans (map1 V hx bb R C)
      intro a
      match a with
      | ⟨0, _⟩ => rfl
      | ⟨1, _⟩ => rfl
      | ⟨2, _⟩ => rfl
      | ⟨3, _⟩ => rfl
  | ⟨2, _⟩ =>
    refine (concatenate_apply_piece (t := S8x8x1x1024x1024) (0 : Fin 5) _ _ (ix5 (2 : Fin 8) bb (0 : Fin 1) R C) 2 ?_ S1x8x1x1024x1024
      (St V 112 (Proc.devRef .tc main_v50)) ?_ rfl 2 ?_ (ix5 (0 : Fin 1) bb (0 : Fin 1) R C) ?_ ?_).trans ?_
    · show 2 < 8; omega
    · rfl
    · rfl
    · intro a ha
      match a with
      | ⟨0, _⟩ => exact absurd rfl ha
      | ⟨1, _⟩ => rfl
      | ⟨2, _⟩ => rfl
      | ⟨3, _⟩ => rfl
      | ⟨4, _⟩ => rfl
    · rfl
    · rw [p_B2, e_B2, p_u2]
      refine (broadcastInDim_apply _ _ _ (ix5 (0 : Fin 1) bb (0 : Fin 1) R C) (ix4 bb (0 : Fin 1) R C) ?_).trans (map2 V hx bb R C)
      intro a
      match a with
      | ⟨0, _⟩ => rfl
      | ⟨1, _⟩ => rfl
      | ⟨2, _⟩ => rfl
      | ⟨3, _⟩ => rfl
  | ⟨3, _⟩ =>
    refine (concatenate_apply_piece (t := S8x8x1x1024x1024) (0 : Fin 5) _ _ (ix5 (3 : Fin 8) bb (0 : Fin 1) R C) 3 ?_ S1x8x1x1024x1024
      (St V 112 (Proc.devRef .tc main_v51)) ?_ rfl 3 ?_ (ix5 (0 : Fin 1) bb (0 : Fin 1) R C) ?_ ?_).trans ?_
    · show 3 < 8; omega
    · rfl
    · rfl
    · intro a ha
      match a with
      | ⟨0, _⟩ => exact absurd rfl ha
      | ⟨1, _⟩ => rfl
      | ⟨2, _⟩ => rfl
      | ⟨3, _⟩ => rfl
      | ⟨4, _⟩ => rfl
    · rfl
    · rw [p_B3, e_B3, p_u3]
      refine (broadcastInDim_apply _ _ _ (ix5 (0 : Fin 1) bb (0 : Fin 1) R C) (ix4 bb (0 : Fin 1) R C) ?_).trans (map3 V hx bb R C)
      intro a
      match a with
      | ⟨0, _⟩ => rfl
      | ⟨1, _⟩ => rfl
      | ⟨2, _⟩ => rfl
      | ⟨3, _⟩ => rfl
  | ⟨4, _⟩ =>
    refine (concatenate_apply_piece (t := S8x8x1x1024x1024) (0 : Fin 5) _ _ (ix5 (4 : Fin 8) bb (0 : Fin 1) R C) 4 ?_ S1x8x1x1024x1024
      (St V 112 (Proc.devRef .tc main_v52)) ?_ rfl 4 ?_ (ix5 (0 : Fin 1) bb (0 : Fin 1) R C) ?_ ?_).trans ?_
    · show 4 < 8; omega
    · rfl
    · rfl
    · intro a ha
      match a with
      | ⟨0, _⟩ => exact absurd rfl ha
      | ⟨1, _⟩ => rfl
      | ⟨2, _⟩ => rfl
      | ⟨3, _⟩ => rfl
      | ⟨4, _⟩ => rfl
    · rfl
    · rw [p_B4, e_B4, p_u4]
      refine (broadcastInDim_apply _ _ _ (ix5 (0 : Fin 1) bb (0 : Fin 1) R C) (ix4 bb (0 : Fin 1) R C) ?_).trans (map4 V hx bb R C)
      intro a
      match a with
      | ⟨0, _⟩ => rfl
      | ⟨1, _⟩ => rfl
      | ⟨2, _⟩ => rfl
      | ⟨3, _⟩ => rfl
  | ⟨5, _⟩ =>
    refine (concatenate_apply_piece (t := S8x8x1x1024x1024) (0 : Fin 5) _ _ (ix5 (5 : Fin 8) bb (0 : Fin 1) R C) 5 ?_ S1x8x1x1024x1024
      (St V 112 (Proc.devRef .tc main_v53)) ?_ rfl 5 ?_ (ix5 (0 : Fin 1) bb (0 : Fin 1) R C) ?_ ?_).trans ?_
    · show 5 < 8; omega
    · rfl
    · rfl
    · intro a ha
      match a with
      | ⟨0, _⟩ => exact absurd rfl ha
      | ⟨1, _⟩ => rfl
      | ⟨2, _⟩ => rfl
      | ⟨3, _⟩ => rfl
      | ⟨4, _⟩ => rfl
    · rfl
    · rw [p_B5, e_B5, p_u5]
      refine (broadcastInDim_apply _ _ _ (ix5 (0 : Fin 1) bb (0 : Fin 1) R C) (ix4 bb (0 : Fin 1) R C) ?_).trans (map5 V hx bb R C)
      intro a
      match a with
      | ⟨0, _⟩ => rfl
      | ⟨1, _⟩ => rfl
      | ⟨2, _⟩ => rfl
      | ⟨3, _⟩ => rfl
  | ⟨6, _⟩ =>
    refine (concatenate_apply_piece (t := S8x8x1x1024x1024) (0 : Fin 5) _ _ (ix5 (6 : Fin 8) bb (0 : Fin 1) R C) 6 ?_ S1x8x1x1024x1024
      (St V 112 (Proc.devRef .tc main_v54)) ?_ rfl 6 ?_ (ix5 (0 : Fin 1) bb (0 : Fin 1) R C) ?_ ?_).trans ?_
    · show 6 < 8; omega
    · rfl
    · rfl
    · intro a ha
      match a with
      | ⟨0, _⟩ => exact absurd rfl ha
      | ⟨1, _⟩ => rfl
      | ⟨2, _⟩ => rfl
      | ⟨3, _⟩ => rfl
      | ⟨4, _⟩ => rfl
    · rfl
    · rw [p_B6, e_B6, p_u6]
      refine (broadcastInDim_apply _ _ _ (ix5 (0 : Fin 1) bb (0 : Fin 1) R C) (ix4 bb (0 : Fin 1) R C) ?_).trans (map6 V hx bb R C)
      intro a
      match a with
      | ⟨0, _⟩ => rfl
      | ⟨1, _⟩ => rfl
      | ⟨2, _⟩ => rfl
      | ⟨3, _⟩ => rfl
  | ⟨7, _⟩ =>
    refine (concatenate_apply_piece (t := S8x8x1x1024x1024) (0 : Fin 5) _ _ (ix5 (7 : Fin 8) bb (0 : Fin 1) R C) 7 ?_ S1x8x1x1024x1024
      (St V 112 (Proc.devRef .tc main_v55)) ?_ rfl 7 ?_ (ix5 (0 : Fin 1) bb (0 : Fin 1) R C) ?_ ?_).trans ?_
    · show 7 < 8; omega
    · rfl
    · rfl
    · intro a ha
      match a with
      | ⟨0, _⟩ => exact absurd rfl ha
      | ⟨1, _⟩ => rfl
      | ⟨2, _⟩ => rfl
      | ⟨3, _⟩ => rfl
      | ⟨4, _⟩ => rfl
    · rfl
    · rw [p_B7, e_B7, p_u7]
      refine (broadcastInDim_apply _ _ _ (ix5 (0 : Fin 1) bb (0 : Fin 1) R C) (ix4 bb (0 : Fin 1) R C) ?_).trans (map7 V hx bb R C)
      intro a
      match a with
      | ⟨0, _⟩ => rfl
      | ⟨1, _⟩ => rfl
      | ⟨2, _⟩ => rfl
      | ⟨3, _⟩ => rfl

/-- The reference's result is the affinity maps of its argument. -/
theorem result_eq (V : Valuation τ sig (Elt Ideal)) (hx : ∀ j, IsReal (V (Proc.devRef .tc main_arg0) j)) :
    St V 113 (Proc.devRef .tc main_v56) = affinity (V (Proc.devRef .tc main_arg0)) := by
  funext o
  obtain ⟨k, b, z, R, C, rfl⟩ : ∃ (k b : Fin 8) (z : Fin 1) (R C : Fin 1024), o = ix5 k b z R C :=
    ⟨o 0, o 1, o 2, o 3, o 4, eq_ix5 o⟩
  obtain rfl : z = 0 := Subsingleton.elim _ _
  exact result_at V hx k b R C

/-! ## The run, read -/

/-- From any memory with zero counters whose argument holds real numbers, every weakly fair execution of the
    reference terminates with the result at the affinity maps of the argument and the argument unchanged. -/
theorem run (m : (ℓ : Loc nD τ sig) → Buf (Elt Ideal) ℓ) (ρ : Dev nD → PrngReg)
    (hx : ∀ (c : Dev nD) j, IsReal (m ((c.tc : Thread nD τ).loc main_arg0) j)) :
    θ_run defs (onTc (τ := τ) (main (F := Ideal))) ⟨m, fun _ => 0, ρ⟩ fun r => ∀ c : Dev nD,
      r.2.mem ((c.tc : Thread nD τ).loc main_v56) = affinity (m ((c.tc : Thread nD τ).loc main_arg0))
      ∧ r.2.mem ((c.tc : Thread nD τ).loc main_arg0) = m ((c.tc : Thread nD τ).loc main_arg0) :=
  (θ_run defs _ _).mono (fun _ h c =>
      ⟨(h c main_v56).trans (result_eq (launchContents m c) (hx c)),
       (h c main_arg0).trans (persist (launchContents m c) main_arg0 0 113 (by omega) (by omega) (fun k hk _ => arg_never k hk))⟩)
    (run_all (F := Ideal) m ρ)

/-- The frame alone needs no precondition: the argument is never written. -/
theorem frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0) :=
  (θ_run defs _ _).mono (fun _ h c =>
      (h c main_arg0).trans (persist (launchContents m c) main_arg0 0 113 (by omega) (by omega) (fun k hk _ => arg_never k hk)))
    (run_all (F := Ideal) m ρ)

end Cert.ReferenceIdeal.RefRun

end
-- ==== Proof.LibFiniteInputs.lean ====
/-
  Finite inputs are real numbers.  A precondition of the form  all (|x| < +∞)  evaluates, at the extended reals, the
  conjunction over all entries of an array  x  of  max x (-x) < ⊤ : the binary32 word 0x7F800000 denotes ⊤, and
  max x (-x) < ⊤  excludes  x = ⊤  and  x = ⊥ .  So when the conjunction (a reduction by "and" into a scalar, from the
  constant true) comes out 1, every entry of  x  is the image of a real number.  Stated for an array of any shape.
-/
import Idealize.ShloMosaic.Lib.ReduceAll
import Idealize.ShloMosaic.Lib.IdealHost
import Idealize.ShloMosaic.Lib.ValueIdx
import proofs.«170590_j71708773974139_2_alg».proof.Proof.LibRealValued

noncomputable section

namespace Cert.Lib.FiniteInputs

open Idealize.ShloMosaic Idealize.ShloMosaic.ValueIdx Cert.RealValued

/-- A rank-0 array has one index. -/
instance subsingleton_scalar_idx : Subsingleton (⟨0, ![]⟩ : Shape).Idx := ⟨fun a b => funext fun d => d.elim0⟩

/-- The f32 word 0x7F800000 denotes +∞. -/
theorem inf_word : Ideal.ofBits .f32 0x7F800000#32 = (⊤ : EReal) := by simp [Ideal.ofBits, Ideal.ieee]

/-- An extended real whose absolute value max x (-x) is below ⊤ is neither infinity: it is a real number. -/
theorem isReal_of_abs_lt_top (x : EReal) (h : max x (-x) < ⊤) : IsReal x := by
  rw [max_lt_iff] at h
  induction x using EReal.rec with
  | bot => exact absurd h.2 (by simp)
  | coe r => exact ⟨r, rfl⟩
  | top => exact absurd h.1 (by simp)

/-- On one value: the comparison |x| < +∞ came out 1, so x is a real number. -/
theorem isReal_of_cmp (x : Ideal .f32)
    (h : FloatOps.cmpf .olt (FloatOps.hostAbsf x) (Ideal.ofBits .f32 0x7F800000#32) = 1#1) : IsReal x := by
  rw [inf_word] at h
  apply isReal_of_abs_lt_top
  by_contra hn
  have : FloatOps.cmpf .olt (FloatOps.hostAbsf x) (⊤ : EReal) = 0#1 := by
    show Ideal.cmp .olt (max (x : EReal) (-(x : EReal))) ⊤ = 0#1
    unfold Ideal.cmp
    simp [hn]
  rw [this] at h
  exact absurd h (by decide)

/-- The conjunction over all entries of |x| < +∞ (a reduction by "and" into a scalar) came out 1: every entry
    of x is a real number. -/
theorem all_lt_inf {s : Shape} {axes : List (Fin s.rank)} (x : FVec Ideal s .f32)
    (hb : (⟨0, ![]⟩ : Shape).BroadcastsInDim s (![] : Fin 0 → Fin s.rank)) (hr : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (F := Ideal) (⟨0, ![]⟩ : Shape) .f32 0x7F800000#32)))
          (constantI (⟨0, ![]⟩ : Shape) 1 1#1) hr hu j = 1#1) (i : s.Idx) : IsReal (x i) := by
  have hi := Host.reduce_andi_all _ _ hr hu j e i
  rw [cmpf_apply, broadcastInDim_scalar_apply, constant_apply] at hi
  exact isReal_of_cmp (x i) hi

end Cert.Lib.FiniteInputs

end
-- ==== Proof.lean ====
/-
  The certificate of the affinity kernel against its reference, on the extended reals.

  The kernel: on a grid of (image, half-image) tiles it compares every pixel of a stack of eight 1024 x 1024 label
  images with its neighbour d rows above and d columns to the left, d = 1, 3, 9, 27 (zero outside the image), and
  writes 1 where they are equal and 0 where they differ -- eight maps per image. It reads the argument through TWO
  windows, the tile and the 32 rows above it. The reference pads, cuts, subtracts and compares the difference
  with zero.

  * The frames. The kernel's program, as printed and idealized, runs to its end from any memory and leaves its
    argument as it was: the pipeline's run, the argument's full share cut in two halves for the two windows that
    read it. The reference is a line of 113 host operations; each writes one buffer, none twice, and the
    argument never.
  * The idealization rewrote nothing, so there is nothing to preserve.
  * The values. Both programs end with the affinity maps of the argument. For the reference this needs the
    argument's entries to be real numbers -- on the extended reals the difference of an infinity with itself is
    not zero -- which is what the precondition says: every entry has absolute value below +infinity.
-/
import proofs.«170590_j71708773974139_2_alg».proof.Defs
import proofs.«170590_j71708773974139_2_alg».proof.Proof.Gen.Kernel
import proofs.«170590_j71708773974139_2_alg».proof.Proof.Gen.KernelIdeal
import proofs.«170590_j71708773974139_2_alg».proof.Proof.Gen.ReferenceIdeal
import proofs.«170590_j71708773974139_2_alg».proof.Proof.Gen.Pre_finite_inputs
import proofs.«170590_j71708773974139_2_alg».proof.Proof.K.Run
import proofs.«170590_j71708773974139_2_alg».proof.Proof.KI.Value
import proofs.«170590_j71708773974139_2_alg».proof.Proof.RefValue
import proofs.«170590_j71708773974139_2_alg».proof.Proof.LibFiniteInputs
import Idealize.ShloMosaic.Adequacy
import Idealize.ShloMosaic.Init

noncomputable section

namespace Cert.Proof

open Idealize.ShloMosaic Idealize.ShloMosaic.TcCoe Idealize.ShloMosaic.ValueIdx Idealize.SL.Sem
open Cert.Affinity Cert.RealValued

/-! ## The frames -/

theorem frame_k : Cert.frame_Kernel := fun m ρ _ => Cert.Kernel.Tile.frame m ρ

theorem frame_ki : Cert.frame_KernelIdeal := fun m ρ _ => Cert.KernelIdeal.Tile.frame m ρ

theorem frame_ri : Cert.frame_ReferenceIdeal := fun m ρ _ => Cert.ReferenceIdeal.RefRun.frame m ρ

/-! ## The values -/

/-- Under the precondition every entry of the argument is a real number. -/
theorem real_entries (m : (ℓ : Loc Cert.KernelIdeal.nD Cert.KernelIdeal.τ Cert.KernelIdeal.sig) → Buf (Elt Ideal) ℓ)
    (h : Cert.Pre_KernelIdeal m) (c : Dev Cert.KernelIdeal.nD) (j : Cert.Affinity.SImg.Idx) :
    IsReal (m ((c.tc : Thread Cert.KernelIdeal.nD Cert.KernelIdeal.τ).loc Cert.KernelIdeal.main_arg0) j) :=
  Cert.Lib.FiniteInputs.all_lt_inf _ _ _ _ ix0 (congrFun (h c) ix0) j

/-- Run from memories that agree on the argument, whose entries are real numbers, both idealized programs end with
    the affinity maps of the argument. -/
theorem algebraic : Cert.algebraic_KernelIdeal_ReferenceIdeal := by
  intro m ρ m' ρ' hpre hagree
  refine ⟨fun c => affinity (m ((c.tc : Thread Cert.KernelIdeal.nD Cert.KernelIdeal.τ).loc Cert.KernelIdeal.main_arg0)),
    Cert.KernelIdeal.TileValue.run m ρ, ?_⟩
  have hx' : ∀ (c : Dev Cert.ReferenceIdeal.nD) j,
      IsReal (m' ((c.tc : Thread Cert.ReferenceIdeal.nD Cert.ReferenceIdeal.τ).loc Cert.ReferenceIdeal.main_arg0) j) := fun c j => by
    have h := real_entries m hpre c j
    rw [← hagree c] at h
    exact h
  exact (θ_run Cert.ReferenceIdeal.defs _ _).mono (fun _ h c => ⟨(h c).1.trans (congrArg affinity (hagree c)), (h c).2⟩)
    (Cert.ReferenceIdeal.RefRun.run m' ρ' hx')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
